-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S64x1024 : Shape := ⟨2, ![64, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S64x1024 : S_.BroadcastsInDim S64x1024 (![] : Fin 0 → Fin S64x1024.rank)
  reducesTo_S64x1024_S_d0_1 : S64x1024.ReducesTo [0, 1] S_

variable [Facts]

def fn_part1 {F : FTy → Type} [FloatOps F] (main_v13 : IVec S_ 1) (main_v16 : IVec S64x1024 1) : IVec S_ 1 :=
  let main_c_5 : IVec S_ 1 := constantI S_ 1 1#1
  let main_v17 : IVec S_ 1 := (fun x v => Host.reduce IntOp.andi x v reducesTo_S64x1024_S_d0_1 h_S_) main_v16 main_c_5
  let main_v18 : IVec S_ 1 := andi main_v13 main_v17
  main_v18

def fn {F : FTy → Type} [FloatOps F] (main_arg0 : FVec F S4x4096x1024 .f32) (main_arg1 : FVec F S64x1024 .f32) (main_arg2 : FVec F S64x1024 .f32) (main_arg3 : FVec F S64x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  let main_v9 : FVec F S64x1024 .f32 := Host.absf main_arg2
  let main_cst_2 : FVec F S_ .f32 := constant S_ .f32 0x7F800000#32
  let main_v10 : FVec F S64x1024 .f32 := broadcastInDim S64x1024 ![] bcast_S_S64x1024 main_cst_2
  let main_v11 : IVec S64x1024 1 := cmpf .olt main_v9 main_v10
  let main_c_3 : IVec S_ 1 := constantI S_ 1 1#1
  let main_v12 : IVec S_ 1 := (fun x v => Host.reduce IntOp.andi x v reducesTo_S64x1024_S_d0_1 h_S_) main_v11 main_c_3
  let main_v13 : IVec S_ 1 := andi main_v8 main_v12
  let main_v14 : FVec F S64x1024 .f32 := Host.absf main_arg3
  let main_cst_4 : FVec F S_ .f32 := constant S_ .f32 0x7F800000#32
  let main_v15 : FVec F S64x1024 .f32 := broadcastInDim S64x1024 ![] bcast_S_S64x1024 main_cst_4
  let main_v16 : IVec S64x1024 1 := cmpf .olt main_v14 main_v15
  fn_part1 (F := F) main_v13 main_v16
-- ==== Kernel.lean ====
abbrev S4x4096x1024 : Shape := ⟨3, ![4, 4096, 1024]⟩
abbrev S64x1024 : Shape := ⟨2, ![64, 1024]⟩
abbrev S192x1024 : Shape := ⟨2, ![192, 1024]⟩
abbrev S4x4096x192 : Shape := ⟨3, ![4, 4096, 192]⟩
abbrev S1x1024x1024 : Shape := ⟨3, ![1, 1024, 1024]⟩
abbrev S1x1024x192 : Shape := ⟨3, ![1, 1024, 192]⟩
abbrev S1024x1024 : Shape := ⟨2, ![1024, 1024]⟩
abbrev S1024x192 : Shape := ⟨2, ![1024, 192]⟩
abbrev S4x4096x64 : Shape := ⟨3, ![4, 4096, 64]⟩
abbrev S1x1024x64 : Shape := ⟨3, ![1, 1024, 64]⟩
abbrev S1024x1 : Shape := ⟨2, ![1024, 1]⟩
abbrev S1024x64 : Shape := ⟨2, ![1024, 64]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S4x4096x1024, .f32⟩
  | .hbm, ⟨1, _⟩ => ⟨S64x1024, .f32⟩
  | .hbm, ⟨2, _⟩ => ⟨S64x1024, .f32⟩
  | .hbm, ⟨3, _⟩ => ⟨S64x1024, .f32⟩
  | .hbm, ⟨4, _⟩ => ⟨S192x1024, .f32⟩
  | .hbm, ⟨5, _⟩ => ⟨S4x4096x192, .bf16⟩
  | .hbm, ⟨6, _⟩ => ⟨S4x4096x64, .bf16⟩
  | .hbm, ⟨7, _⟩ => ⟨S4x4096x64, .bf16⟩
  | .hbm, ⟨8, _⟩ => ⟨S4x4096x64, .bf16⟩
  | .hbm, ⟨9, _⟩ => ⟨S4x4096x64, .f32⟩
  | .local _ .vmem, ⟨0, _⟩ => ⟨S1x1024x1024, .f32⟩
  | .local _ .vmem, ⟨1, _⟩ => ⟨S1x1024x1024, .f32⟩
  | .local _ .vmem, ⟨2, _⟩ => ⟨S192x1024, .f32⟩
  | .local _ .vmem, ⟨3, _⟩ => ⟨S1x1024x192, .bf16⟩
  | .local _ .vmem, ⟨4, _⟩ => ⟨S1x1024x192, .bf16⟩
  | .local _ .vmem, ⟨5, _⟩ => ⟨S1x1024x64, .bf16⟩
  | .local _ .vmem, ⟨6, _⟩ => ⟨S1x1024x64, .bf16⟩
  | .local _ .vmem, ⟨7, _⟩ => ⟨S1x1024x64, .bf16⟩
  | .local _ .vmem, ⟨8, _⟩ => ⟨S1x1024x64, .bf16⟩
  | .local _ .vmem, ⟨9, _⟩ => ⟨S1x1024x64, .bf16⟩
  | .local _ .vmem, ⟨10, _⟩ => ⟨S1x1024x64, .bf16⟩
  | .local _ .vmem, ⟨11, _⟩ => ⟨S1x1024x64, .f32⟩
  | .local _ .vmem, ⟨12, _⟩ => ⟨S1x1024x64, .f32⟩
  | .local _ .vmem, ⟨13, _⟩ => ⟨S1024x1, .f32⟩
  | .local _ .vmem, ⟨14, _⟩ => ⟨S1024x1, .f32⟩
  | .local _ .vmem, ⟨15, _⟩ => ⟨S1024x64, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc1_scratch1 : Ref sig .tc := ⟨.vmem, 14, rfl⟩
abbrev cc1_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S192x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨3, ![4, 4, 4], ![false, false, false]⟩

def k1_cond4 (i : grid1.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_3 : BitVec 32 := 0#32
  let v11 : BitVec 1 := Scalar.cmpi .ne v10 c0_i32_3
  v11

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x1024x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  concatenates_S64x1024_S64x1024_S64x1024_S192x1024_d0 : Shape.Concatenates [S64x1024, S64x1024, S64x1024] S192x1024 0
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S192x1024_S192x1024_0_0 : ∀ a, (![0, 0] : Fin 2 → Nat) a + S192x1024.size a ≤ S192x1024.size a
  h_S192x1024 : 0 < S192x1024.numel
  shapeCasts_S192x1024_S192x1024 : S192x1024.ShapeCasts S192x1024
  inb_S1x1024x192_S1x1024x192_0_0_0 : ∀ a, (![0, 0, 0] : Fin 3 → Nat) a + S1x1024x192.size a ≤ S1x1024x192.size a
  h_S1x1024x192 : 0 < S1x1024x192.numel
  shapeCasts_S1x1024x192_S1024x192 : S1x1024x192.ShapeCasts S1024x192
  shapeCasts_S1024x192_S1x1024x192 : S1024x192.ShapeCasts S1x1024x192
  packedbf16_S1x1024x192_S1x1024x192_0_0_0 : (Rect.unit (s := S1x1024x192) ![0, 0, 0] S1x1024x192.size inb_S1x1024x192_S1x1024x192_0_0_0).PackedRows (EltTy.packing .bf16)
  slices_S4x4096x192_S4x4096x64_0_0_0 : S4x4096x192.Slices ![0, 0, 0] S4x4096x64
  slices_S4x4096x192_S4x4096x64_0_0_64 : S4x4096x192.Slices ![0, 0, 64] S4x4096x64
  slices_S4x4096x192_S4x4096x64_0_0_128 : S4x4096x192.Slices ![0, 0, 128] S4x4096x64
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x64 : S1024x1.Broadcasts S1024x64
  iota_S1024x1024_d0_w32 : S1024x1024.Iotas .tc 32 [0]
  iota_S1024x1024_d1_w32 : S1024x1024.Iotas .tc 32 [1]
  shapeCasts_S1024x64_S1x1024x64 : S1024x64.ShapeCasts S1x1024x64
  dot_S1024x1024_S192x1024_S1024x192_1_1_0_0_n_n_wf : DotDims.WF S1024x1024 S192x1024 S1024x192 [1] [1] [0] [0] [] []
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S4x4096x1024.size a
  hwx0_0 : ∀ i : grid0.Coords, EltTy.bits .f32 = 32 ∨ (Rect.block (s := S4x4096x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S192x1024.size a ≤ S192x1024.size a
  hwx0_1 : ∀ i : grid0.Coords, EltTy.bits .f32 = 32 ∨ (Rect.block (s := S192x1024) S192x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x192.size a ≤ S4x4096x192.size a
  hwx0_2 : ∀ i : grid0.Coords, EltTy.bits .bf16 = 32 ∨ (Rect.block (s := S4x4096x192) S1x1024x192.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x64.size a ≤ S4x4096x64.size a
  hwx1_0 : ∀ i : grid1.Coords, EltTy.bits .bf16 = 32 ∨ (Rect.block (s := S4x4096x64) S1x1024x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x64.size a ≤ S4x4096x64.size a
  hwx1_1 : ∀ i : grid1.Coords, EltTy.bits .bf16 = 32 ∨ (Rect.block (s := S4x4096x64) S1x1024x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x64.size a ≤ S4x4096x64.size a
  hwx1_2 : ∀ i : grid1.Coords, EltTy.bits .bf16 = 32 ∨ (Rect.block (s := S4x4096x64) S1x1024x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x64.size a ≤ S4x4096x64.size a
  hwx1_3 : ∀ i : grid1.Coords, EltTy.bits .f32 = 32 ∨ (Rect.block (s := S4x4096x64) S1x1024x64.size (cc1_transform_3 i) (hinb1_3 i)).WholeWords (EltTy.packing .f32)

variable [Facts₀]

def dot_S1024x1024_S192x1024_S1024x192_1_1_0_0_n_n : DotDims S1024x1024 S192x1024 S1024x192 where
  lhsContracting := [1]
  rhsContracting := [1]
  lhsNonContracting := [0]
  rhsNonContracting := [0]
  lhsBatch := []
  rhsBatch := []
  wf := dot_S1024x1024_S192x1024_S1024x192_1_1_0_0_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S192x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024x192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x1024x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond4 i == 1#1) | ⟨_ + 4, h⟩ => absurd h (Nat.not_lt.2 (Nat.le_add_left _ _))

class Facts : Prop extends Facts₀ where

variable [Facts]
-- ==== ReferenceIdeal.lean ====
abbrev S4x4096x1024 : Shape := ⟨3, ![4, 4096, 1024]⟩
abbrev S64x1024 : Shape := ⟨2, ![64, 1024]⟩
abbrev S4x4096x64 : Shape := ⟨3, ![4, 4096, 64]⟩
abbrev S4x4096x4096 : Shape := ⟨3, ![4, 4096, 4096]⟩
abbrev S_ : Shape := ⟨0, ![]⟩
abbrev S4096x4096 : Shape := ⟨2, ![4096, 4096]⟩
abbrev S4x4096 : Shape := ⟨2, ![4, 4096]⟩
abbrev S4x4096x1 : Shape := ⟨3, ![4, 4096, 1]⟩

abbrev nBuf : Space → Nat
  | .hbm => 42
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S64x1024, .f32⟩
  | .hbm, ⟨2, _⟩ => ⟨S64x1024, .f32⟩
  | .hbm, ⟨3, _⟩ => ⟨S64x1024, .f32⟩
  | .hbm, ⟨4, _⟩ => ⟨S4x4096x64, .f32⟩
  | .hbm, ⟨5, _⟩ => ⟨S4x4096x64, .f32⟩
  | .hbm, ⟨6, _⟩ => ⟨S4x4096x64, .f32⟩
  | .hbm, ⟨7, _⟩ => ⟨S4x4096x4096, .f32⟩
  | .hbm, ⟨8, _⟩ => ⟨S_, .f32⟩
  | .hbm, ⟨9, _⟩ => ⟨S4x4096x4096, .f32⟩
  | .hbm, ⟨10, _⟩ => ⟨S4x4096x4096, .f32⟩
  | .hbm, ⟨11, _⟩ => ⟨S_, .i1⟩
  | .hbm, ⟨12, _⟩ => ⟨S4096x4096, .i1⟩
  | .hbm, ⟨13, _⟩ => ⟨S4096x4096, .i32⟩
  | .hbm, ⟨14, _⟩ => ⟨S_, .i32⟩
  | .hbm, ⟨15, _⟩ => ⟨S4096x4096, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S_, .i1⟩
  | .hbm, ⟨20, _⟩ => ⟨S4096x4096, .i1⟩
  | .hbm, ⟨21, _⟩ => ⟨S4096x4096, .i1⟩
  | .hbm, ⟨22, _⟩ => ⟨S_, .f32⟩
  | .hbm, ⟨23, _⟩ => ⟨S_, .f32⟩
  | .hbm, ⟨24, _⟩ => ⟨S4x4096x4096, .i1⟩
  | .hbm, ⟨25, _⟩ => ⟨S4x4096x4096, .f32⟩
  | .hbm, ⟨26, _⟩ => ⟨S4x4096x4096, .f32⟩
  | .hbm, ⟨27, _⟩ => ⟨S_, .f32⟩
  | .hbm, ⟨28, _⟩ => ⟨S4x4096, .f32⟩
  | .hbm, ⟨29, _⟩ => ⟨S_, .f32⟩
  | .hbm, ⟨30, _⟩ => ⟨S4x4096, .f32⟩
  | .hbm, ⟨31, _⟩ => ⟨S4x4096, .f32⟩
  | .hbm, ⟨32, _⟩ => ⟨S4x4096x1, .f32⟩
  | .hbm, ⟨33, _⟩ => ⟨S4x4096x4096, .f32⟩
  | .hbm, ⟨34, _⟩ => ⟨S4x4096x4096, .f32⟩
  | .hbm, ⟨35, _⟩ => ⟨S4x4096x4096, .f32⟩
  | .hbm, ⟨36, _⟩ => ⟨S_, .f32⟩
  | .hbm, ⟨37, _⟩ => ⟨S4x4096, .f32⟩
  | .hbm, ⟨38, _⟩ => ⟨S4x4096x1, .f32⟩
  | .hbm, ⟨39, _⟩ => ⟨S4x4096x4096, .f32⟩
  | .hbm, ⟨40, _⟩ => ⟨S4x4096x4096, .f32⟩
  | .hbm, ⟨41, _⟩ => ⟨S4x4096x64, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_0 : Ref sig .tc := ⟨.hbm, 19, rfl⟩
abbrev main_call0_v5 : Ref sig .tc := ⟨.hbm, 20, rfl⟩
abbrev main_v7 : Ref sig .tc := ⟨.hbm, 21, rfl⟩
abbrev main_cst_0 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  bcast_S_S4096x4096 : S_.BroadcastsInDim S4096x4096 (![] : Fin 0 → Fin S4096x4096.rank)
  bcast_S4096x4096_S4x4096x4096_1_2 : S4096x4096.BroadcastsInDim S4x4096x4096 (![1, 2] : Fin 2 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x1024_S64x1024_S4x4096x64_2_1_01_0_n_n_wf : DotDims.WF S4x4096x1024 S64x1024 S4x4096x64 [2] [1] [0, 1] [0] [] []
  dot_S4x4096x64_S4x4096x64_S4x4096x4096_2_2_1_1_0_0_wf : DotDims.WF S4x4096x64 S4x4096x64 S4x4096x4096 [2] [2] [1] [1] [0] [0]
  dot_S4x4096x4096_S4x4096x64_S4x4096x64_2_1_1_2_0_0_wf : DotDims.WF S4x4096x4096 S4x4096x64 S4x4096x64 [2] [1] [1] [2] [0] [0]

variable [Facts₀]

def dot_S4x4096x1024_S64x1024_S4x4096x64_2_1_01_0_n_n : DotDims S4x4096x1024 S64x1024 S4x4096x64 where
  lhsContracting := [2]
  rhsContracting := [1]
  lhsNonContracting := [0, 1]
  rhsNonContracting := [0]
  lhsBatch := []
  rhsBatch := []
  wf := dot_S4x4096x1024_S64x1024_S4x4096x64_2_1_01_0_n_n_wf
def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf

class Facts : Prop extends Facts₀ where

variable [Facts]
-- ==== Proof.KB.R0.lean ====
/-
  Region 0 (the fused projection call) at a parameter `V`: the contents of the core's buffers when the
  region is entered. The call's grid has 16 points (batch, row tile); at each point its body reads the
  row tile of the activations (window 0, a [1,1024,1024] block) and the whole concatenated weight
  (window 1, [192,1024], brought in once and never moved), and overwrites the whole output block
  (window 2, [1,1024,192]) with one value computed from the two: the block product of the payload
  `k0_pay1`. So, whatever the staging buffers held before, after the body the inputs' buffers hold
  their blocks still and the output's buffer holds `out0_2` of the two input blocks.

  Everything is generic in the float instance `F`.
-/
import proofs.«150456_j65506841199208_2_alg».proof.Proof.Gen.Kernel.Launch
import proofs.«150456_j65506841199208_2_alg».proof.Proof.Gen.Kernel.Skeleton
import proofs.«150456_j65506841199208_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with a 1024-long axis is checked coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

-- the contents of the core's buffers at the moment the region is entered
variable (V : (c : Dev nD) → (b : Ref sig .tc) → Buf (Elt F) ((c : Thread nD τ).loc b))

/-! ## The blocks of the windows -/

/-- The block of window `w` at grid point `t`: the entries of the window's array, as the region finds it,
    at the indices the block covers. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds the point's row tile when the body starts, for any proof data
    over `V`'s array whose body leaves that buffer alone: either the tile was just brought in, or the block
    index has not moved since the previous point and the buffer still holds the same tile. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight's staging buffer holds the whole weight when the body starts, at EVERY point, although it is
    brought in at the first point only: its block index is the same at all points, so at a later point the
    buffer holds what the previous point's body left, which is the weight again. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each the whole of its buffer -/

abbrev r0_0 : Rect S1x1024x1024 := Rect.unit (s := S1x1024x1024) ![0, 0, 0] S1x1024x1024.size inb_S1x1024x1024_S1x1024x1024_0_0_0
abbrev r0_1 : Rect S192x1024 := Rect.unit (s := S192x1024) ![0, 0] S192x1024.size inb_S192x1024_S192x1024_0_0
abbrev r0_2 : Rect S1x1024x192 := Rect.unit (s := S1x1024x192) ![0, 0, 0] S1x1024x192.size inb_S1x1024x192_S1x1024x192_0_0_0

/-! ## What the body leaves in the output's buffer -/

/-- The output buffer after the body, from the two input blocks: the buffer's one write, of the payload of
    what the two loads read, laid over the whole buffer. -/
def out0_2 (x0 : Vec F S1x1024x1024 .f32) (x1 : Vec F S192x1024 .f32) : Vec F S1x1024x192 .bf16 :=
  View.canon [⟨r0_2, k0_pay1 (View.ld x0 r0_0) (View.ld x1 r0_1)⟩]

/-- The one write covers the buffer: its rectangle is the whole of it. -/
theorem cover0_2 (p0 : Vec F S1x1024x192 .bf16) (y : S1x1024x192.Idx) :
    ∃ pc ∈ ([⟨r0_2, p0⟩] : List (View.Piece (Elt F) S1x1024x192 .bf16)), y ∈ pc.1.set :=
  View.cover_of_tiled [⟨r0_2, p0⟩] S1x1024x192.size (by rfl) y

/-! ## The body's triple -/

set_option maxHeartbeats 1000000 in
/-- The body on three whole staging buffers, the inputs' holding `x0` and `x1` and the output's anything:
    it ends with the inputs' buffers unchanged and the output's holding `out0_2 x0 x1`. (The body also reads
    the output buffer before writing it; what it reads there is not used.) -/
theorem sound_kernel0 (c : Dev nD) (E : Set ℕ) (i : grid0.Coords)
    (arg0 : Memref sig .tc .vmem S1x1024x1024 .f32) (harg0 : arg0.IsWhole)
    (arg1 : Memref sig .tc .vmem S192x1024 .f32) (harg1 : arg1.IsWhole)
    (arg2 : Memref sig .tc .vmem S1x1024x192 .bf16) (harg2 : arg2.IsWhole)
    (x0 : Vec F S1x1024x1024 .f32) (x1 : Vec F S192x1024 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__proj_kernel i arg0 harg0 arg1 harg1 arg2 harg2) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data of the call's pipeline -/

/-- The proof data on core `c`: the arrays as the region finds them; after the body at point `t` each input's
    buffer holds its block and the output's holds `out0_2` of the two blocks; the invariant is "the rest of
    the scoped memory and the generator register are untouched"; nothing is owed; the shares are full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the contents at entry. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's staging buffer holds its block when the body starts, at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation at a point -/

/-- What the body is started with at point `t`: the invariant, what is owed, and the three current staging buffers, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant
    and what is owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KB.Step.lean ====
/-
  The attention kernel's body, read as ONE transition of the three carried scratch buffers
  (the running row maximum, the running row sum of exponentials, the running weighted sum of value rows)
  at a grid point (batch b, query tile qi, key tile ki), generic in the float instance:

    * if ki = 0 the state is reset (maximum -inf, sum 0, accumulator 0);
    * if ki < qi the key tile lies wholly below the diagonal and is folded in unmasked;
    * if ki = qi the key tile is the diagonal one and is folded in under the causal mask;
    * (if ki = 3 the output block is the accumulator divided by the sum — `outOf`).

  The four tests are the body's four conditionals, in program order; each later one sees the state the
  earlier ones left. Every payload reads the state as it was BEFORE its conditional's stores (the body
  loads before it stores), which is what the nesting of the `let`s below says.
-/
import proofs.«150456_j65506841199208_2_alg».proof.Proof.Gen.Kernel.Skeleton

noncomputable section

namespace Cert.Kernel.Hand

open Idealize.ShloMosaic Idealize.SL.Sem Cert.Kernel Cert.Kernel.Gen

variable {F : FTy → Type} [FloatOps F]

/-- The key-tile coordinate is 0: the body's first conditional (the skeleton's scalar chain). -/
abbrev cnd1 (i : grid1.Coords) : Prop :=
  Scalar.cmpi .ne (Scalar.extui (Scalar.cmpi .eq (BitVec.ofNat 32 (i 2).val) 0#32)) 0#32 = 1#1
/-- The key tile is strictly below the query tile: the second conditional. -/
abbrev cnd2 (i : grid1.Coords) : Prop :=
  Scalar.cmpi .ne (Scalar.extui (Scalar.cmpi .slt (BitVec.ofNat 32 (i 2).val) (BitVec.ofNat 32 (i 1).val))) 0#32 = 1#1
/-- The key tile is the diagonal one: the third conditional. -/
abbrev cnd3 (i : grid1.Coords) : Prop :=
  Scalar.cmpi .ne (Scalar.extui (Scalar.cmpi .eq (BitVec.ofNat 32 (i 2).val) (BitVec.ofNat 32 (i 1).val))) 0#32 = 1#1
/-- The key tile is the last one: the fourth conditional. -/
abbrev cnd4 (i : grid1.Coords) : Prop := k1_cond4 i = 1#1

/-- The three carried scratch buffers: (row maximum, row sum, accumulator). -/
abbrev St (F : FTy → Type) [FloatOps F] : Type :=
  Vec F S1024x1 .f32 × Vec F S1024x1 .f32 × Vec F S1024x64 .f32

/-- The reset state. -/
def stInit : St F := (k1_pay1, k1_pay2, k1_pay3)

/-- An unmasked key tile folded into the state. -/
def stBelow (q k v : Vec F S1x1024x64 .bf16) (s : St F) : St F :=
  (k1_pay4 (k1_pay9 q k s.1), k1_pay12 q k s.1 s.2.1, k1_pay13 q k v s.1 s.2.2)

/-- The diagonal key tile folded into the state under the causal mask (`a1`, `a2` the tile coordinates as words). -/
def stDiag (a1 a2 : BitVec 32) (q k v : Vec F S1x1024x64 .bf16) (s : St F) : St F :=
  (k1_pay6 (k1_pay16 a1 a2 q k s.1), k1_pay19 a1 a2 q k s.1 s.2.1,
    k1_pay5 (k1_pay14 v) (k1_pay17 a1 a2 q k s.1) (k1_pay18 a1 a2 q k s.1) s.2.2)

open Classical in
/-- The state after the body at coordinates `i`, from the three input blocks and the state before. -/
def stepSt (i : grid1.Coords) (q k v : Vec F S1x1024x64 .bf16) (s : St F) : St F :=
  let s1 : St F := if cnd1 i then stInit else s
  let s2 : St F := if cnd2 i then stBelow q k v s1 else s1
  if cnd3 i then stDiag (BitVec.ofNat 32 (i 1).val) (BitVec.ofNat 32 (i 2).val) q k v s2 else s2

/-- The output block the last key tile's point stores: the accumulator times the reciprocal of the row sum. -/
def outOf (s : St F) : Vec F S1x1024x64 .f32 := k1_pay7 s.2.2 s.2.1

open Classical in
/-- Where the state is reset, the state before does not matter. -/
theorem stepSt_of_cnd1 (i : grid1.Coords) (q k v : Vec F S1x1024x64 .bf16) (s s' : St F) (h : cnd1 i) :
    stepSt i q k v s = stepSt i q k v s' := by
  unfold stepSt; simp only [if_pos h]

end Cert.Kernel.Hand

end
-- ==== Proof.KB.R1Lib.lean ====
/-
  Whole-buffer loads and stores: a store through the whole-shape rectangle at zero offsets leaves its payload, whatever
  was stored before; a load through that rectangle reads the contents. Stated once over an abstract view, and for the
  raw contents of a whole memref that read a given block.
-/
import Idealize.ShloMosaic.Lib.Pipeline.FrameBody
import Idealize.ShloMosaic.Lib.WholeRead

noncomputable section

namespace Cert.Kernel.Hand

open Idealize.ShloMosaic Idealize.SL.Sem

/-- The zero offsets of rank 2 and 3 as the constant function. -/
theorem zero2 : (![0, 0] : Fin 2 → ℕ) = fun _ => 0 := by
  funext a; fin_cases a <;> rfl
theorem zero3 : (![0, 0, 0] : Fin 3 → ℕ) = fun _ => 0 := by
  funext a; fin_cases a <;> rfl

section
variable {Val : EltTy → Type} [∀ e, Nonempty (Val e)] {sig : RefSig} {κ : Kind} {sp : Space} {S : Shape} {e : EltTy}

/-- After a list of stores whose LAST one wrote the whole shape, the view reads that store's payload. -/
theorem read_writes_whole (v : View sig κ sp S e) (f : v.ty.Contents Val) {off : Fin S.rank → ℕ} (hz : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero hz inb y⟩),
    View.canon_cons_unit_zero hz inb w L]

/-- A whole-shape load of what such a list of stores left reads the last store's payload. -/
theorem readCov_whole (v : View sig κ sp S e) {off : Fin S.rank → ℕ} (hz : off = fun _ => 0)
    (inb inb' : ∀ a, off a + S.size a ≤ S.size a) (w : S.Idx → Val e) (L : List (View.Piece Val S e)) :
    v.readCov ((⟨Rect.unit off S.size inb, w⟩ : View.Piece Val S e) :: L) (Rect.unit off S.size inb').toLoadRect = w := by
  rw [View.readCov_eq_canon_ld _ _ _ (fun y => ⟨_, List.mem_cons_self, View.mem_set_unit_zero hz inb y⟩),
    View.canon_cons_unit_zero hz inb w L, View.ld_unit_zero hz inb']

/-- A whole-shape load through a whole memref held at the raw contents that read `X` reads `X`. -/
theorem readAt_whole_unread {m : Memref sig κ sp S e} (h : m.IsWhole) (X : S.Idx → Val e) {off : Fin S.rank → ℕ}
    (hz : off = fun _ => 0) (inb : ∀ a, off a + S.size a ≤ S.size a) :
    View.readAt Val m.view (Rect.unit off S.size inb).toLoadRect (h.unread X) = X := by
  funext x
  rw [h.readAt_unread X _ x]
  exact congrFun (View.ld_unit_zero hz inb X) x
end

end Cert.Kernel.Hand

end
-- ==== Proof.KB.R1Body.lean ====
/-
  The body of the attention kernel run at one grid point: on whole buffers holding the three input blocks, the
  output block and the three carried scratch buffers (row maximum, row sum, accumulator) at a state `s`, the body
  leaves the inputs as they were, the scratch at `stepSt` of the point's coordinates, and the output block at
  `outOf` of that state where the key tile is the last one (untouched elsewhere). The four conditionals of the
  body are decided per case; each store writes its whole buffer, so a buffer reads back as the last payload
  stored into it.
-/
import proofs.«150456_j65506841199208_2_alg».proof.Proof.KB.Step
import proofs.«150456_j65506841199208_2_alg».proof.Proof.Gen.Kernel.Launch
import proofs.«150456_j65506841199208_2_alg».proof.Proof.Gen.Kernel.Points
import Idealize.ShloMosaic.Lib.Pipeline.FrameBody
import Idealize.ShloMosaic.Lib.WholeRead
import proofs.«150456_j65506841199208_2_alg».proof.Proof.KB.R1Lib
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (UR sig nD τ) ℕ

set_option maxHeartbeats 1000000 in
/-- The first key tile, which is also the diagonal one (query tile 0): the state is reset, then the diagonal tile is folded in under the mask. -/
theorem run_reset_diag (c : Dev nD) (E : Set ℕ) (i : grid1.Coords)
    (arg3 : Memref sig .tc .vmem S1x1024x64 .bf16) (harg3 : arg3.IsWhole) (arg4 : Memref sig .tc .vmem S1x1024x64 .bf16) (harg4 : arg4.IsWhole)
    (arg5 : Memref sig .tc .vmem S1x1024x64 .bf16) (harg5 : arg5.IsWhole) (arg6 : Memref sig .tc .vmem S1x1024x64 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x64 .f32) (harg9 : arg9.IsWhole)
    (q k v : Vec F S1x1024x64 .bf16) (o : Vec F S1x1024x64 .f32) (s : St F) (K : PUnit → sProp 𝕄)
    (h1 : cnd1 i) (h2 : ¬ cnd2 i) (h3 : cnd3 i) (h4 : ¬ cnd4 i) :
    iprop(owns (c : Thread nD τ) arg3 fullShare q ∗ owns (c : Thread nD τ) arg4 fullShare k ∗ owns (c : Thread nD τ) arg5 fullShare v
          ∗ owns (c : Thread nD τ) arg6 fullShare o
          ∗ owns (c : Thread nD τ) arg7 fullShare s.1 ∗ owns (c : Thread nD τ) arg8 fullShare s.2.1 ∗ owns (c : Thread nD τ) arg9 fullShare s.2.2
          ∗ (iprop(owns (c : Thread nD τ) arg3 fullShare q ∗ owns (c : Thread nD τ) arg4 fullShare k ∗ owns (c : Thread nD τ) arg5 fullShare v
              ∗ owns (c : Thread nD τ) arg6 fullShare (o)
              ∗ owns (c : Thread nD τ) arg7 fullShare ((stDiag (BitVec.ofNat 32 (i 1).val) (BitVec.ofNat 32 (i 2).val) q k v stInit).1)
              ∗ owns (c : Thread nD τ) arg8 fullShare ((stDiag (BitVec.ofNat 32 (i 1).val) (BitVec.ofNat 32 (i 2).val) q k v stInit).2.1)
              ∗ owns (c : Thread nD τ) arg9 fullShare ((stDiag (BitVec.ofNat 32 (i 1).val) (BitVec.ofNat 32 (i 2).val) q k v stInit).2.2)) -∗ K ⟨⟩))
        ⊢ wp frame (wpE (defs₀ (F := F)) Variants.none c none) E
            (cc1__attn_kernel i arg3 harg3 arg4 harg4 arg5 harg5 arg6 harg6 arg7 harg7 arg8 harg8 arg9 harg9) K := by
  simp only [cc1__attn_kernel_eq_skeleton]; unfold cc1__attn_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg9.eq_unread hf9
  sl_exec (disch := first | exact h1 | exact h2 | exact h3 | exact h4)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    refine (read_writes_whole (S := S1024x1) _ _ zero2 _ _ _).trans ?_
    sl_unfold_run_names
    simp only [stInit, stBelow, stDiag, outOf,
        readAt_whole_unread (S := S1x1024x64) _ _ zero3, readAt_whole_unread (S := S1024x1) _ _ zero2,
        readAt_whole_unread (S := S1024x64) _ _ zero2, readCov_whole (S := S1024x1) _ zero2,
        readCov_whole (S := S1024x64) _ zero2, readCov_whole (S := S1x1024x64) _ zero3] <;> rfl
  isplitl [H8]
  · iexists _; isplitr
    swap; · iexact H8
    ipureintro
    refine (read_writes_whole (S := S1024x1) _ _ zero2 _ _ _).trans ?_
    sl_unfold_run_names
    simp only [stInit, stBelow, stDiag, outOf,
        readAt_whole_unread (S := S1x1024x64) _ _ zero3, readAt_whole_unread (S := S1024x1) _ _ zero2,
        readAt_whole_unread (S := S1024x64) _ _ zero2, readCov_whole (S := S1024x1) _ zero2,
        readCov_whole (S := S1024x64) _ zero2, readCov_whole (S := S1x1024x64) _ zero3] <;> rfl
  iexists _; isplitr
  swap; · iexact H9
  ipureintro
  refine (read_writes_whole (S := S1024x64) _ _ zero2 _ _ _).trans ?_
  sl_unfold_run_names
  simp only [stInit, stBelow, stDiag, outOf,
      readAt_whole_unread (S := S1x1024x64) _ _ zero3, readAt_whole_unread (S := S1024x1) _ _ zero2,
      readAt_whole_unread (S := S1024x64) _ _ zero2, readCov_whole (S := S1024x1) _ zero2,
      readCov_whole (S := S1024x64) _ zero2, readCov_whole (S := S1x1024x64) _ zero3] <;> rfl

set_option maxHeartbeats 1000000 in
/-- The first key tile, strictly below the diagonal: the state is reset, then the tile is folded in unmasked. -/
theorem run_reset_below (c : Dev nD) (E : Set ℕ) (i : grid1.Coords)
    (arg3 : Memref sig .tc .vmem S1x1024x64 .bf16) (harg3 : arg3.IsWhole) (arg4 : Memref sig .tc .vmem S1x1024x64 .bf16) (harg4 : arg4.IsWhole)
    (arg5 : Memref sig .tc .vmem S1x1024x64 .bf16) (harg5 : arg5.IsWhole) (arg6 : Memref sig .tc .vmem S1x1024x64 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x64 .f32) (harg9 : arg9.IsWhole)
    (q k v : Vec F S1x1024x64 .bf16) (o : Vec F S1x1024x64 .f32) (s : St F) (K : PUnit → sProp 𝕄)
    (h1 : cnd1 i) (h2 : cnd2 i) (h3 : ¬ cnd3 i) (h4 : ¬ cnd4 i) :
    iprop(owns (c : Thread nD τ) arg3 fullShare q ∗ owns (c : Thread nD τ) arg4 fullShare k ∗ owns (c : Thread nD τ) arg5 fullShare v
          ∗ owns (c : Thread nD τ) arg6 fullShare o
          ∗ owns (c : Thread nD τ) arg7 fullShare s.1 ∗ owns (c : Thread nD τ) arg8 fullShare s.2.1 ∗ owns (c : Thread nD τ) arg9 fullShare s.2.2
          ∗ (iprop(owns (c : Thread nD τ) arg3 fullShare q ∗ owns (c : Thread nD τ) arg4 fullShare k ∗ owns (c : Thread nD τ) arg5 fullShare v
              ∗ owns (c : Thread nD τ) arg6 fullShare (o)
              ∗ owns (c : Thread nD τ) arg7 fullShare ((stBelow q k v stInit).1)
              ∗ owns (c : Thread nD τ) arg8 fullShare ((stBelow q k v stInit).2.1)
              ∗ owns (c : Thread nD τ) arg9 fullShare ((stBelow q k v stInit).2.2)) -∗ K ⟨⟩))
        ⊢ wp frame (wpE (defs₀ (F := F)) Variants.none c none) E
            (cc1__attn_kernel i arg3 harg3 arg4 harg4 arg5 harg5 arg6 harg6 arg7 harg7 arg8 harg8 arg9 harg9) K := by
  simp only [cc1__attn_kernel_eq_skeleton]; unfold cc1__attn_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg9.eq_unread hf9
  sl_exec (disch := first | exact h1 | exact h2 | exact h3 | exact h4)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    refine (read_writes_whole (S := S1024x1) _ _ zero2 _ _ _).trans ?_
    sl_unfold_run_names
    simp only [stInit, stBelow, stDiag, outOf,
        readAt_whole_unread (S := S1x1024x64) _ _ zero3, readAt_whole_unread (S := S1024x1) _ _ zero2,
        readAt_whole_unread (S := S1024x64) _ _ zero2, readCov_whole (S := S1024x1) _ zero2,
        readCov_whole (S := S1024x64) _ zero2, readCov_whole (S := S1x1024x64) _ zero3] <;> rfl
  isplitl [H8]
  · iexists _; isplitr
    swap; · iexact H8
    ipureintro
    refine (read_writes_whole (S := S1024x1) _ _ zero2 _ _ _).trans ?_
    sl_unfold_run_names
    simp only [stInit, stBelow, stDiag, outOf,
        readAt_whole_unread (S := S1x1024x64) _ _ zero3, readAt_whole_unread (S := S1024x1) _ _ zero2,
        readAt_whole_unread (S := S1024x64) _ _ zero2, readCov_whole (S := S1024x1) _ zero2,
        readCov_whole (S := S1024x64) _ zero2, readCov_whole (S := S1x1024x64) _ zero3] <;> rfl
  iexists _; isplitr
  swap; · iexact H9
  ipureintro
  refine (read_writes_whole (S := S1024x64) _ _ zero2 _ _ _).trans ?_
  sl_unfold_run_names
  simp only [stInit, stBelow, stDiag, outOf,
      readAt_whole_unread (S := S1x1024x64) _ _ zero3, readAt_whole_unread (S := S1024x1) _ _ zero2,
      readAt_whole_unread (S := S1024x64) _ _ zero2, readCov_whole (S := S1024x1) _ zero2,
      readCov_whole (S := S1024x64) _ zero2, readCov_whole (S := S1x1024x64) _ zero3] <;> rfl

set_option maxHeartbeats 1000000 in
/-- A later key tile strictly below the diagonal: folded in unmasked. -/
theorem run_below (c : Dev nD) (E : Set ℕ) (i : grid1.Coords)
    (arg3 : Memref sig .tc .vmem S1x1024x64 .bf16) (harg3 : arg3.IsWhole) (arg4 : Memref sig .tc .vmem S1x1024x64 .bf16) (harg4 : arg4.IsWhole)
    (arg5 : Memref sig .tc .vmem S1x1024x64 .bf16) (harg5 : arg5.IsWhole) (arg6 : Memref sig .tc .vmem S1x1024x64 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x64 .f32) (harg9 : arg9.IsWhole)
    (q k v : Vec F S1x1024x64 .bf16) (o : Vec F S1x1024x64 .f32) (s : St F) (K : PUnit → sProp 𝕄)
    (h1 : ¬ cnd1 i) (h2 : cnd2 i) (h3 : ¬ cnd3 i) (h4 : ¬ cnd4 i) :
    iprop(owns (c : Thread nD τ) arg3 fullShare q ∗ owns (c : Thread nD τ) arg4 fullShare k ∗ owns (c : Thread nD τ) arg5 fullShare v
          ∗ owns (c : Thread nD τ) arg6 fullShare o
          ∗ owns (c : Thread nD τ) arg7 fullShare s.1 ∗ owns (c : Thread nD τ) arg8 fullShare s.2.1 ∗ owns (c : Thread nD τ) arg9 fullShare s.2.2
          ∗ (iprop(owns (c : Thread nD τ) arg3 fullShare q ∗ owns (c : Thread nD τ) arg4 fullShare k ∗ owns (c : Thread nD τ) arg5 fullShare v
              ∗ owns (c : Thread nD τ) arg6 fullShare (o)
              ∗ owns (c : Thread nD τ) arg7 fullShare ((stBelow q k v s).1)
              ∗ owns (c : Thread nD τ) arg8 fullShare ((stBelow q k v s).2.1)
              ∗ owns (c : Thread nD τ) arg9 fullShare ((stBelow q k v s).2.2)) -∗ K ⟨⟩))
        ⊢ wp frame (wpE (defs₀ (F := F)) Variants.none c none) E
            (cc1__attn_kernel i arg3 harg3 arg4 harg4 arg5 harg5 arg6 harg6 arg7 harg7 arg8 harg8 arg9 harg9) K := by
  simp only [cc1__attn_kernel_eq_skeleton]; unfold cc1__attn_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg9.eq_unread hf9
  sl_exec (disch := first | exact h1 | exact h2 | exact h3 | exact h4)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    refine (read_writes_whole (S := S1024x1) _ _ zero2 _ _ _).trans ?_
    sl_unfold_run_names
    simp only [stInit, stBelow, stDiag, outOf,
        readAt_whole_unread (S := S1x1024x64) _ _ zero3, readAt_whole_unread (S := S1024x1) _ _ zero2,
        readAt_whole_unread (S := S1024x64) _ _ zero2, readCov_whole (S := S1024x1) _ zero2,
        readCov_whole (S := S1024x64) _ zero2, readCov_whole (S := S1x1024x64) _ zero3] <;> rfl
  isplitl [H8]
  · iexists _; isplitr
    swap; · iexact H8
    ipureintro
    refine (read_writes_whole (S := S1024x1) _ _ zero2 _ _ _).trans ?_
    sl_unfold_run_names
    simp only [stInit, stBelow, stDiag, outOf,
        readAt_whole_unread (S := S1x1024x64) _ _ zero3, readAt_whole_unread (S := S1024x1) _ _ zero2,
        readAt_whole_unread (S := S1024x64) _ _ zero2, readCov_whole (S := S1024x1) _ zero2,
        readCov_whole (S := S1024x64) _ zero2, readCov_whole (S := S1x1024x64) _ zero3] <;> rfl
  iexists _; isplitr
  swap; · iexact H9
  ipureintro
  refine (read_writes_whole (S := S1024x64) _ _ zero2 _ _ _).trans ?_
  sl_unfold_run_names
  simp only [stInit, stBelow, stDiag, outOf,
      readAt_whole_unread (S := S1x1024x64) _ _ zero3, readAt_whole_unread (S := S1024x1) _ _ zero2,
      readAt_whole_unread (S := S1024x64) _ _ zero2, readCov_whole (S := S1024x1) _ zero2,
      readCov_whole (S := S1024x64) _ zero2, readCov_whole (S := S1x1024x64) _ zero3] <;> rfl

set_option maxHeartbeats 1000000 in
/-- A later diagonal key tile that is not the last: folded in under the mask. -/
theorem run_diag (c : Dev nD) (E : Set ℕ) (i : grid1.Coords)
    (arg3 : Memref sig .tc .vmem S1x1024x64 .bf16) (harg3 : arg3.IsWhole) (arg4 : Memref sig .tc .vmem S1x1024x64 .bf16) (harg4 : arg4.IsWhole)
    (arg5 : Memref sig .tc .vmem S1x1024x64 .bf16) (harg5 : arg5.IsWhole) (arg6 : Memref sig .tc .vmem S1x1024x64 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x64 .f32) (harg9 : arg9.IsWhole)
    (q k v : Vec F S1x1024x64 .bf16) (o : Vec F S1x1024x64 .f32) (s : St F) (K : PUnit → sProp 𝕄)
    (h1 : ¬ cnd1 i) (h2 : ¬ cnd2 i) (h3 : cnd3 i) (h4 : ¬ cnd4 i) :
    iprop(owns (c : Thread nD τ) arg3 fullShare q ∗ owns (c : Thread nD τ) arg4 fullShare k ∗ owns (c : Thread nD τ) arg5 fullShare v
          ∗ owns (c : Thread nD τ) arg6 fullShare o
          ∗ owns (c : Thread nD τ) arg7 fullShare s.1 ∗ owns (c : Thread nD τ) arg8 fullShare s.2.1 ∗ owns (c : Thread nD τ) arg9 fullShare s.2.2
          ∗ (iprop(owns (c : Thread nD τ) arg3 fullShare q ∗ owns (c : Thread nD τ) arg4 fullShare k ∗ owns (c : Thread nD τ) arg5 fullShare v
              ∗ owns (c : Thread nD τ) arg6 fullShare (o)
              ∗ owns (c : Thread nD τ) arg7 fullShare ((stDiag (BitVec.ofNat 32 (i 1).val) (BitVec.ofNat 32 (i 2).val) q k v s).1)
              ∗ owns (c : Thread nD τ) arg8 fullShare ((stDiag (BitVec.ofNat 32 (i 1).val) (BitVec.ofNat 32 (i 2).val) q k v s).2.1)
              ∗ owns (c : Thread nD τ) arg9 fullShare ((stDiag (BitVec.ofNat 32 (i 1).val) (BitVec.ofNat 32 (i 2).val) q k v s).2.2)) -∗ K ⟨⟩))
        ⊢ wp frame (wpE (defs₀ (F := F)) Variants.none c none) E
            (cc1__attn_kernel i arg3 harg3 arg4 harg4 arg5 harg5 arg6 harg6 arg7 harg7 arg8 harg8 arg9 harg9) K := by
  simp only [cc1__attn_kernel_eq_skeleton]; unfold cc1__attn_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg9.eq_unread hf9
  sl_exec (disch := first | exact h1 | exact h2 | exact h3 | exact h4)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    refine (read_writes_whole (S := S1024x1) _ _ zero2 _ _ _).trans ?_
    sl_unfold_run_names
    simp only [stInit, stBelow, stDiag, outOf,
        readAt_whole_unread (S := S1x1024x64) _ _ zero3, readAt_whole_unread (S := S1024x1) _ _ zero2,
        readAt_whole_unread (S := S1024x64) _ _ zero2, readCov_whole (S := S1024x1) _ zero2,
        readCov_whole (S := S1024x64) _ zero2, readCov_whole (S := S1x1024x64) _ zero3] <;> rfl
  isplitl [H8]
  · iexists _; isplitr
    swap; · iexact H8
    ipureintro
    refine (read_writes_whole (S := S1024x1) _ _ zero2 _ _ _).trans ?_
    sl_unfold_run_names
    simp only [stInit, stBelow, stDiag, outOf,
        readAt_whole_unread (S := S1x1024x64) _ _ zero3, readAt_whole_unread (S := S1024x1) _ _ zero2,
        readAt_whole_unread (S := S1024x64) _ _ zero2, readCov_whole (S := S1024x1) _ zero2,
        readCov_whole (S := S1024x64) _ zero2, readCov_whole (S := S1x1024x64) _ zero3] <;> rfl
  iexists _; isplitr
  swap; · iexact H9
  ipureintro
  refine (read_writes_whole (S := S1024x64) _ _ zero2 _ _ _).trans ?_
  sl_unfold_run_names
  simp only [stInit, stBelow, stDiag, outOf,
      readAt_whole_unread (S := S1x1024x64) _ _ zero3, readAt_whole_unread (S := S1024x1) _ _ zero2,
      readAt_whole_unread (S := S1024x64) _ _ zero2, readCov_whole (S := S1024x1) _ zero2,
      readCov_whole (S := S1024x64) _ zero2, readCov_whole (S := S1x1024x64) _ zero3] <;> rfl

set_option maxHeartbeats 1000000 in
/-- The last key tile, diagonal (query tile 3): folded in under the mask, then the output block is stored. -/
theorem run_diag_out (c : Dev nD) (E : Set ℕ) (i : grid1.Coords)
    (arg3 : Memref sig .tc .vmem S1x1024x64 .bf16) (harg3 : arg3.IsWhole) (arg4 : Memref sig .tc .vmem S1x1024x64 .bf16) (harg4 : arg4.IsWhole)
    (arg5 : Memref sig .tc .vmem S1x1024x64 .bf16) (harg5 : arg5.IsWhole) (arg6 : Memref sig .tc .vmem S1x1024x64 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x64 .f32) (harg9 : arg9.IsWhole)
    (q k v : Vec F S1x1024x64 .bf16) (o : Vec F S1x1024x64 .f32) (s : St F) (K : PUnit → sProp 𝕄)
    (h1 : ¬ cnd1 i) (h2 : ¬ cnd2 i) (h3 : cnd3 i) (h4 : cnd4 i) :
    iprop(owns (c : Thread nD τ) arg3 fullShare q ∗ owns (c : Thread nD τ) arg4 fullShare k ∗ owns (c : Thread nD τ) arg5 fullShare v
          ∗ owns (c : Thread nD τ) arg6 fullShare o
          ∗ owns (c : Thread nD τ) arg7 fullShare s.1 ∗ owns (c : Thread nD τ) arg8 fullShare s.2.1 ∗ owns (c : Thread nD τ) arg9 fullShare s.2.2
          ∗ (iprop(owns (c : Thread nD τ) arg3 fullShare q ∗ owns (c : Thread nD τ) arg4 fullShare k ∗ owns (c : Thread nD τ) arg5 fullShare v
              ∗ owns (c : Thread nD τ) arg6 fullShare (outOf (stDiag (BitVec.ofNat 32 (i 1).val) (BitVec.ofNat 32 (i 2).val) q k v s))
              ∗ owns (c : Thread nD τ) arg7 fullShare ((stDiag (BitVec.ofNat 32 (i 1).val) (BitVec.ofNat 32 (i 2).val) q k v s).1)
              ∗ owns (c : Thread nD τ) arg8 fullShare ((stDiag (BitVec.ofNat 32 (i 1).val) (BitVec.ofNat 32 (i 2).val) q k v s).2.1)
              ∗ owns (c : Thread nD τ) arg9 fullShare ((stDiag (BitVec.ofNat 32 (i 1).val) (BitVec.ofNat 32 (i 2).val) q k v s).2.2)) -∗ K ⟨⟩))
        ⊢ wp frame (wpE (defs₀ (F := F)) Variants.none c none) E
            (cc1__attn_kernel i arg3 harg3 arg4 harg4 arg5 harg5 arg6 harg6 arg7 harg7 arg8 harg8 arg9 harg9) K := by
  simp only [cc1__attn_kernel_eq_skeleton]; unfold cc1__attn_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg9.eq_unread hf9
  sl_exec (disch := first | exact h1 | exact h2 | exact h3 | exact h4)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    refine (read_writes_whole (S := S1x1024x64) _ _ zero3 _ _ _).trans ?_
    sl_unfold_run_names
    simp only [stInit, stBelow, stDiag, outOf,
        readAt_whole_unread (S := S1x1024x64) _ _ zero3, readAt_whole_unread (S := S1024x1) _ _ zero2,
        readAt_whole_unread (S := S1024x64) _ _ zero2, readCov_whole (S := S1024x1) _ zero2,
        readCov_whole (S := S1024x64) _ zero2, readCov_whole (S := S1x1024x64) _ zero3] <;> rfl
  isplitl [H7]
  · iexists _; isplitr
    swap; · iexact H7
    ipureintro
    refine (read_writes_whole (S := S1024x1) _ _ zero2 _ _ _).trans ?_
    sl_unfold_run_names
    simp only [stInit, stBelow, stDiag, outOf,
        readAt_whole_unread (S := S1x1024x64) _ _ zero3, readAt_whole_unread (S := S1024x1) _ _ zero2,
        readAt_whole_unread (S := S1024x64) _ _ zero2, readCov_whole (S := S1024x1) _ zero2,
        readCov_whole (S := S1024x64) _ zero2, readCov_whole (S := S1x1024x64) _ zero3] <;> rfl
  isplitl [H8]
  · iexists _; isplitr
    swap; · iexact H8
    ipureintro
    refine (read_writes_whole (S := S1024x1) _ _ zero2 _ _ _).trans ?_
    sl_unfold_run_names
    simp only [stInit, stBelow, stDiag, outOf,
        readAt_whole_unread (S := S1x1024x64) _ _ zero3, readAt_whole_unread (S := S1024x1) _ _ zero2,
        readAt_whole_unread (S := S1024x64) _ _ zero2, readCov_whole (S := S1024x1) _ zero2,
        readCov_whole (S := S1024x64) _ zero2, readCov_whole (S := S1x1024x64) _ zero3] <;> rfl
  iexists _; isplitr
  swap; · iexact H9
  ipureintro
  refine (read_writes_whole (S := S1024x64) _ _ zero2 _ _ _).trans ?_
  sl_unfold_run_names
  simp only [stInit, stBelow, stDiag, outOf,
      readAt_whole_unread (S := S1x1024x64) _ _ zero3, readAt_whole_unread (S := S1024x1) _ _ zero2,
      readAt_whole_unread (S := S1024x64) _ _ zero2, readCov_whole (S := S1024x1) _ zero2,
      readCov_whole (S := S1024x64) _ zero2, readCov_whole (S := S1x1024x64) _ zero3] <;> rfl

set_option maxHeartbeats 1000000 in
/-- A key tile above the diagonal that is not the last: nothing is stored. -/
theorem run_none (c : Dev nD) (E : Set ℕ) (i : grid1.Coords)
    (arg3 : Memref sig .tc .vmem S1x1024x64 .bf16) (harg3 : arg3.IsWhole) (arg4 : Memref sig .tc .vmem S1x1024x64 .bf16) (harg4 : arg4.IsWhole)
    (arg5 : Memref sig .tc .vmem S1x1024x64 .bf16) (harg5 : arg5.IsWhole) (arg6 : Memref sig .tc .vmem S1x1024x64 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x64 .f32) (harg9 : arg9.IsWhole)
    (q k v : Vec F S1x1024x64 .bf16) (o : Vec F S1x1024x64 .f32) (s : St F) (K : PUnit → sProp 𝕄)
    (h1 : ¬ cnd1 i) (h2 : ¬ cnd2 i) (h3 : ¬ cnd3 i) (h4 : ¬ cnd4 i) :
    iprop(owns (c : Thread nD τ) arg3 fullShare q ∗ owns (c : Thread nD τ) arg4 fullShare k ∗ owns (c : Thread nD τ) arg5 fullShare v
          ∗ owns (c : Thread nD τ) arg6 fullShare o
          ∗ owns (c : Thread nD τ) arg7 fullShare s.1 ∗ owns (c : Thread nD τ) arg8 fullShare s.2.1 ∗ owns (c : Thread nD τ) arg9 fullShare s.2.2
          ∗ (iprop(owns (c : Thread nD τ) arg3 fullShare q ∗ owns (c : Thread nD τ) arg4 fullShare k ∗ owns (c : Thread nD τ) arg5 fullShare v
              ∗ owns (c : Thread nD τ) arg6 fullShare (o)
              ∗ owns (c : Thread nD τ) arg7 fullShare (s.1)
              ∗ owns (c : Thread nD τ) arg8 fullShare (s.2.1)
              ∗ owns (c : Thread nD τ) arg9 fullShare (s.2.2)) -∗ K ⟨⟩))
        ⊢ wp frame (wpE (defs₀ (F := F)) Variants.none c none) E
            (cc1__attn_kernel i arg3 harg3 arg4 harg4 arg5 harg5 arg6 harg6 arg7 harg7 arg8 harg8 arg9 harg9) K := by
  simp only [cc1__attn_kernel_eq_skeleton]; unfold cc1__attn_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg9.eq_unread hf9
  sl_exec (disch := first | exact h1 | exact h2 | exact h3 | exact h4)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  iexists _; isplitr; · ipureintro; exact harg9.read_unread _
  iexact H9

set_option maxHeartbeats 1000000 in
/-- The last key tile, above the diagonal: only the output block is stored. -/
theorem run_out (c : Dev nD) (E : Set ℕ) (i : grid1.Coords)
    (arg3 : Memref sig .tc .vmem S1x1024x64 .bf16) (harg3 : arg3.IsWhole) (arg4 : Memref sig .tc .vmem S1x1024x64 .bf16) (harg4 : arg4.IsWhole)
    (arg5 : Memref sig .tc .vmem S1x1024x64 .bf16) (harg5 : arg5.IsWhole) (arg6 : Memref sig .tc .vmem S1x1024x64 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x64 .f32) (harg9 : arg9.IsWhole)
    (q k v : Vec F S1x1024x64 .bf16) (o : Vec F S1x1024x64 .f32) (s : St F) (K : PUnit → sProp 𝕄)
    (h1 : ¬ cnd1 i) (h2 : ¬ cnd2 i) (h3 : ¬ cnd3 i) (h4 : cnd4 i) :
    iprop(owns (c : Thread nD τ) arg3 fullShare q ∗ owns (c : Thread nD τ) arg4 fullShare k ∗ owns (c : Thread nD τ) arg5 fullShare v
          ∗ owns (c : Thread nD τ) arg6 fullShare o
          ∗ owns (c : Thread nD τ) arg7 fullShare s.1 ∗ owns (c : Thread nD τ) arg8 fullShare s.2.1 ∗ owns (c : Thread nD τ) arg9 fullShare s.2.2
          ∗ (iprop(owns (c : Thread nD τ) arg3 fullShare q ∗ owns (c : Thread nD τ) arg4 fullShare k ∗ owns (c : Thread nD τ) arg5 fullShare v
              ∗ owns (c : Thread nD τ) arg6 fullShare (outOf (s))
              ∗ owns (c : Thread nD τ) arg7 fullShare (s.1)
              ∗ owns (c : Thread nD τ) arg8 fullShare (s.2.1)
              ∗ owns (c : Thread nD τ) arg9 fullShare (s.2.2)) -∗ K ⟨⟩))
        ⊢ wp frame (wpE (defs₀ (F := F)) Variants.none c none) E
            (cc1__attn_kernel i arg3 harg3 arg4 harg4 arg5 harg5 arg6 harg6 arg7 harg7 arg8 harg8 arg9 harg9) K := by
  simp only [cc1__attn_kernel_eq_skeleton]; unfold cc1__attn_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg9.eq_unread hf9
  sl_exec (disch := first | exact h1 | exact h2 | exact h3 | exact h4)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    refine (read_writes_whole (S := S1x1024x64) _ _ zero3 _ _ _).trans ?_
    sl_unfold_run_names
    simp only [stInit, stBelow, stDiag, outOf,
        readAt_whole_unread (S := S1x1024x64) _ _ zero3, readAt_whole_unread (S := S1024x1) _ _ zero2,
        readAt_whole_unread (S := S1024x64) _ _ zero2, readCov_whole (S := S1024x1) _ zero2,
        readCov_whole (S := S1024x64) _ zero2, readCov_whole (S := S1x1024x64) _ zero3] <;> rfl
  isplitl [H7]
  · iexists _; isplitr; · ipureintro; exact harg7.read_unread _
    iexact H7
  isplitl [H8]
  · iexists _; isplitr; · ipureintro; exact harg8.read_unread _
    iexact H8
  iexists _; isplitr; · ipureintro; exact harg9.read_unread _
  iexact H9

/-- The four conditionals in closed form over the point's number `t = 16·b + 4·qi + ki`, decided over the grid. -/
theorem hcnd1 : ∀ t : Fin cfg1.N, cnd1 (grid1.coords t) ↔ t.val % 4 = 0 :=
  (by decide +kernel : ∀ t : Fin grid1.N, cnd1 (grid1.coords t) ↔ t.val % 4 = 0)
theorem hcnd2 : ∀ t : Fin cfg1.N, cnd2 (grid1.coords t) ↔ t.val % 4 < (t.val / 4) % 4 :=
  (by decide +kernel : ∀ t : Fin grid1.N, cnd2 (grid1.coords t) ↔ t.val % 4 < (t.val / 4) % 4)
theorem hcnd3 : ∀ t : Fin cfg1.N, cnd3 (grid1.coords t) ↔ t.val % 4 = (t.val / 4) % 4 :=
  (by decide +kernel : ∀ t : Fin grid1.N, cnd3 (grid1.coords t) ↔ t.val % 4 = (t.val / 4) % 4)
theorem hcnd4 : ∀ t : Fin cfg1.N, cnd4 (grid1.coords t) ↔ t.val % 4 = 3 :=
  (by decide +kernel : ∀ t : Fin grid1.N, cnd4 (grid1.coords t) ↔ t.val % 4 = 3)

open Classical in
set_option maxHeartbeats 1000000 in
/-- The body at grid point `t`, uniformly: the four conditionals are decided from the point's number, which leaves
    seven cases (the other nine combinations contradict the closed forms), each one of the runs above. -/
theorem sound_attn (c : Dev nD) (E : Set ℕ) (t : Fin cfg1.N)
    (arg3 : Memref sig .tc .vmem S1x1024x64 .bf16) (harg3 : arg3.IsWhole) (arg4 : Memref sig .tc .vmem S1x1024x64 .bf16) (harg4 : arg4.IsWhole)
    (arg5 : Memref sig .tc .vmem S1x1024x64 .bf16) (harg5 : arg5.IsWhole) (arg6 : Memref sig .tc .vmem S1x1024x64 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x64 .f32) (harg9 : arg9.IsWhole)
    (q k v : Vec F S1x1024x64 .bf16) (o : Vec F S1x1024x64 .f32) (s : St F) (K : PUnit → sProp 𝕄) :
    iprop(owns (c : Thread nD τ) arg3 fullShare q ∗ owns (c : Thread nD τ) arg4 fullShare k ∗ owns (c : Thread nD τ) arg5 fullShare v
          ∗ owns (c : Thread nD τ) arg6 fullShare o
          ∗ owns (c : Thread nD τ) arg7 fullShare s.1 ∗ owns (c : Thread nD τ) arg8 fullShare s.2.1 ∗ owns (c : Thread nD τ) arg9 fullShare s.2.2
          ∗ (iprop(owns (c : Thread nD τ) arg3 fullShare q ∗ owns (c : Thread nD τ) arg4 fullShare k ∗ owns (c : Thread nD τ) arg5 fullShare v
              ∗ owns (c : Thread nD τ) arg6 fullShare (if cnd4 (grid1.coords t) then outOf (stepSt (grid1.coords t) q k v s) else o)
              ∗ owns (c : Thread nD τ) arg7 fullShare (stepSt (grid1.coords t) q k v s).1
              ∗ owns (c : Thread nD τ) arg8 fullShare (stepSt (grid1.coords t) q k v s).2.1
              ∗ owns (c : Thread nD τ) arg9 fullShare (stepSt (grid1.coords t) q k v s).2.2) -∗ K ⟨⟩))
        ⊢ wp frame (wpE (defs₀ (F := F)) Variants.none c none) E
            (cc1__attn_kernel (grid1.coords t) arg3 harg3 arg4 harg4 arg5 harg5 arg6 harg6 arg7 harg7 arg8 harg8 arg9 harg9) K := by
  have hN : t.val < 64 := lt_of_lt_of_eq t.isLt Gen.N_1
  have e1 := hcnd1 t; have e2 := hcnd2 t; have e3 := hcnd3 t; have e4 := hcnd4 t
  by_cases h1 : cnd1 (grid1.coords t)
  · by_cases h2 : cnd2 (grid1.coords t)
    · by_cases h3 : cnd3 (grid1.coords t)
      · by_cases h4 : cnd4 (grid1.coords t)
        · exfalso; rw [e1] at h1; rw [e2] at h2; rw [e3] at h3; rw [e4] at h4; omega
        · exfalso; rw [e1] at h1; rw [e2] at h2; rw [e3] at h3; rw [e4] at h4; omega
      · by_cases h4 : cnd4 (grid1.coords t)
        · exfalso; rw [e1] at h1; rw [e2] at h2; rw [e3] at h3; rw [e4] at h4; omega
        · simp only [stepSt, if_pos h1, if_pos h2, if_neg h3, if_neg h4]
          exact run_reset_below c E _ arg3 harg3 arg4 harg4 arg5 harg5 arg6 harg6 arg7 harg7 arg8 harg8 arg9 harg9 q k v o s K h1 h2 h3 h4
    · by_cases h3 : cnd3 (grid1.coords t)
      · by_cases h4 : cnd4 (grid1.coords t)
        · exfalso; rw [e1] at h1; rw [e2] at h2; rw [e3] at h3; rw [e4] at h4; omega
        · simp only [stepSt, if_pos h1, if_neg h2, if_pos h3, if_neg h4]
          exact run_reset_diag c E _ arg3 harg3 arg4 harg4 arg5 harg5 arg6 harg6 arg7 harg7 arg8 harg8 arg9 harg9 q k v o s K h1 h2 h3 h4
      · by_cases h4 : cnd4 (grid1.coords t)
        · exfalso; rw [e1] at h1; rw [e2] at h2; rw [e3] at h3; rw [e4] at h4; omega
        · exfalso; rw [e1] at h1; rw [e2] at h2; rw [e3] at h3; rw [e4] at h4; omega
  · by_cases h2 : cnd2 (grid1.coords t)
    · by_cases h3 : cnd3 (grid1.coords t)
      · by_cases h4 : cnd4 (grid1.coords t)
        · exfalso; rw [e1] at h1; rw [e2] at h2; rw [e3] at h3; rw [e4] at h4; omega
        · exfalso; rw [e1] at h1; rw [e2] at h2; rw [e3] at h3; rw [e4] at h4; omega
      · by_cases h4 : cnd4 (grid1.coords t)
        · exfalso; rw [e1] at h1; rw [e2] at h2; rw [e3] at h3; rw [e4] at h4; omega
        · simp only [stepSt, if_neg h1, if_pos h2, if_neg h3, if_neg h4]
          exact run_below c E _ arg3 harg3 arg4 harg4 arg5 harg5 arg6 harg6 arg7 harg7 arg8 harg8 arg9 harg9 q k v o s K h1 h2 h3 h4
    · by_cases h3 : cnd3 (grid1.coords t)
      · by_cases h4 : cnd4 (grid1.coords t)
        · simp only [stepSt, if_neg h1, if_neg h2, if_pos h3, if_pos h4]
          exact run_diag_out c E _ arg3 harg3 arg4 harg4 arg5 harg5 arg6 harg6 arg7 harg7 arg8 harg8 arg9 harg9 q k v o s K h1 h2 h3 h4
        · simp only [stepSt, if_neg h1, if_neg h2, if_pos h3, if_neg h4]
          exact run_diag c E _ arg3 harg3 arg4 harg4 arg5 harg5 arg6 harg6 arg7 harg7 arg8 harg8 arg9 harg9 q k v o s K h1 h2 h3 h4
      · by_cases h4 : cnd4 (grid1.coords t)
        · simp only [stepSt, if_neg h1, if_neg h2, if_neg h3, if_pos h4]
          exact run_out c E _ arg3 harg3 arg4 harg4 arg5 harg5 arg6 harg6 arg7 harg7 arg8 harg8 arg9 harg9 q k v o s K h1 h2 h3 h4
        · simp only [stepSt, if_neg h1, if_neg h2, if_neg h3, if_neg h4]
          exact run_none c E _ arg3 harg3 arg4 harg4 arg5 harg5 arg6 harg6 arg7 harg7 arg8 harg8 arg9 harg9 q k v o s K h1 h2 h3 h4

end Cert.Kernel.Hand

end
-- ==== Proof.KB.R1.lean ====
/-
  The attention pallas_call as one region of a several-region run, at the contents `V` the region is entered with:
  what the three carried scratch buffers hold after each grid point (`stAt`: the body's transition `stepSt` iterated along
  the grid's order, which runs the key tiles innermost), the region's invariant between points (the scratch at `stAt`
  of the point before; before the first point at anything), the proof data, and the body obligation at every point.
  The output block is stored only at the last key tile of each query tile and written back there; at every other
  point its buffer is handed back as it was found.
-/
import proofs.«150456_j65506841199208_2_alg».proof.Proof.KB.Step
import proofs.«150456_j65506841199208_2_alg».proof.Proof.KB.R1Body
import proofs.«150456_j65506841199208_2_alg».proof.Proof.Gen.Kernel.Launch
import proofs.«150456_j65506841199208_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, the block
    index has not moved): for any proof data over `V`'s arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The memrefs the body is called with -/

abbrev ms1_0 (t : Fin cfg1.N) : Memref sig .tc .vmem S1x1024x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x64 .f32 := win1_3.stage (cfg1.slots t 3)
abbrev hs1_3 (t : Fin cfg1.N) : (ms1_3 t).IsWhole := hstage1_3 ((cfg1.slots t 3).cast nbuf1_3)
/-- The three scratch operands: whole scoped buffers of the kernel's own. -/
abbrev sc0 : Memref sig .tc .vmem S1024x1 .f32 := Memref.whole cc1_scratch0
abbrev sc1 : Memref sig .tc .vmem S1024x1 .f32 := Memref.whole cc1_scratch1
abbrev sc2 : Memref sig .tc .vmem S1024x64 .f32 := Memref.whole cc1_scratch2

/-! ## The carried state, point by point -/

/-- What the three scratch buffers hold after the body at position `n` of the grid's order: the body's transition at the
    point's coordinates and input blocks, from what the position before left (at the first position the state is reset
    whatever it was, so the start value is immaterial: the reset state is written). -/
def stAt (c : Dev nD) : (n : ℕ) → n < cfg1.N → St F
  | 0, hn => stepSt (grid1.coords ⟨0, hn⟩) (iblk1 V c 0 ⟨0, hn⟩) (iblk1 V c 1 ⟨0, hn⟩) (iblk1 V c 2 ⟨0, hn⟩) stInit
  | n + 1, hn => stepSt (grid1.coords ⟨n + 1, hn⟩) (iblk1 V c 0 ⟨n + 1, hn⟩) (iblk1 V c 1 ⟨n + 1, hn⟩) (iblk1 V c 2 ⟨n + 1, hn⟩)
      (stAt c n (Nat.lt_of_succ_lt hn))

theorem stAt_zero (c : Dev nD) (t : Fin cfg1.N) (h : t.val = 0) :
    stAt V c t.val t.isLt = stepSt (grid1.coords t) (iblk1 V c 0 t) (iblk1 V c 1 t) (iblk1 V c 2 t) stInit := by
  obtain ⟨n, hn⟩ := t
  cases n with
  | zero => rfl
  | succ n => exact absurd h (Nat.succ_ne_zero n)

theorem stAt_pos (c : Dev nD) (t : Fin cfg1.N) (h : t.val ≠ 0) :
    stAt V c t.val t.isLt = stepSt (grid1.coords t) (iblk1 V c 0 t) (iblk1 V c 1 t) (iblk1 V c 2 t)
      (stAt V c (t.val - 1) (Nat.lt_of_le_of_lt (Nat.sub_le _ _) t.isLt)) := by
  obtain ⟨n, hn⟩ := t
  cases n with
  | zero => exact absurd rfl h
  | succ n => rfl

/-! ## The region's invariant between points -/

/-- Before the first point: every scoped buffer that is no staging buffer of this call at anything, and the generator
    register at some state. Afterwards: the same with the three scratch buffers at what the point before left. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ owns (c : Thread nD τ) sc0 fullShare (stAt V c n hn).1
      ∗ owns (c : Thread nD τ) sc1 fullShare (stAt V c n hn).2.1
      ∗ owns (c : Thread nD τ) sc2 fullShare (stAt V c n hn).2.2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ owns (c : Thread nD τ) sc0 fullShare (stAt V c n hn).1
      ∗ owns (c : Thread nD τ) sc1 fullShare (stAt V c n hn).2.1
      ∗ owns (c : Thread nD τ) sc2 fullShare (stAt V c n hn).2.2) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ owns (c : Thread nD τ) sc0 fullShare (stAt V c (n - 1) (by omega)).1
      ∗ owns (c : Thread nD τ) sc1 fullShare (stAt V c (n - 1) (by omega)).2.1
      ∗ owns (c : Thread nD τ) sc2 fullShare (stAt V c (n - 1) (by omega)).2.2) ∗ (∃ r, prngReg c r)) := by
  cases n with
  | zero => exact absurd rfl hz
  | succ n => rfl

/-- The class invariant with the scratch operands as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ d, owns (c : Thread nD τ) sc0 fullShare d)
      ∗ (∃ d, owns (c : Thread nD τ) sc1 fullShare d)
      ∗ (∃ d, owns (c : Thread nD τ) sc2 fullShare d)) ∗ (∃ r, prngReg c r)) := by
  unfold Pipeline.ΦA; rw [scopedRest1_eq]; simp only [sc0, sc1, sc2, owns_whole]; try rfl

/-! ## The proof data -/

/-- The proof data of the attention pipeline on core `c`: the arrays as the region finds them; after the body at point
    `t` each input's buffer at its block and the output's at the block the state after `t` gives (consulted only where the
    block is stored and written back: the last key tile); the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outOf (stAt V c t.val t.isLt)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outOf (stAt V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## Where the output window is idle -/

/-- The inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- The output is live exactly at the last key tile's points, where it is written back; -/
theorem liveAt1_3 : ∀ t : Fin cfg1.N, t.val % 4 = 3 → cfg1.idle 3 (grid1.coords t) = false :=
  (by decide +kernel : ∀ t : Fin grid1.N, t.val % 4 = 3 → idle1 3 (grid1.coords t) = false)
/-- elsewhere it is idle and not written back. -/
theorem idleAt1_3 : ∀ t : Fin cfg1.N, ¬ t.val % 4 = 3 → cfg1.idle 3 (grid1.coords t) = true :=
  (by decide +kernel : ∀ t : Fin grid1.N, ¬ t.val % 4 = 3 → idle1 3 (grid1.coords t) = true)
theorem noFlush1_3 : ∀ t : Fin cfg1.N, ¬ t.val % 4 = 3 → (cfg1.win 3).flush t = false :=
  (by decide +kernel : ∀ t : Fin grid1.N, ¬ t.val % 4 = 3 → win1_3.flush t = false)

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

open Classical in
set_option maxHeartbeats 4000000 in
/-- The body at any point. The inputs' buffers hold their blocks; the invariant hands the body the three scratch buffers at
    what the point before left (at anything at the first point, where the body resets them); the body's one triple gives
    them back at this point's state, the output's buffer at the stored block where the last key tile's conditional holds
    and untouched elsewhere; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h4 : t.val % 4 = 3
  · -- the last key tile: the output block is stored, and written back
    have hc4 : cnd4 (grid1.coords t) := (hcnd4 t).mpr h4
    have hz : t.val ≠ 0 := by omega
    rw [show (dat1 V c).leavesExact 3 t = owns (c : Thread nD τ) (ms1_3 t) fullShare ((dat1 V c).after 3 t) from by
      unfold Dat.leavesExact; rw [liveAt1_3 t h4], after1_3]
    rw [stAt_pos V c t hz, PhiS_castSucc V c t, PhiS_pos V c _ _ hz]
    iintro ⟨⟨⟨E0, E1, E2, E3, E4, HS0, HS1, HS2⟩, Hg⟩, Ho, ⟨%d0, H0⟩, ⟨%d1, H1⟩, ⟨%d2, H2⟩, ⟨%d3, H3⟩⟩
    iapply (sound_attn c Set.univ t (ms1_0 t) (hs1_0 t) (ms1_1 t) (hs1_1 t) (ms1_2 t) (hs1_2 t) (ms1_3 t) (hs1_3 t)
      sc0 (Memref.isWhole_whole _) sc1 (Memref.isWhole_whole _) sc2 (Memref.isWhole_whole _)
      (iblk1 V c 0 t) (iblk1 V c 1 t) (iblk1 V c 2 t) _ (stAt V c (t.val - 1) (Nat.lt_of_le_of_lt (Nat.sub_le _ _) t.isLt)) _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    rw [if_pos hc4]
    iintro ⟨H0, H1, H2, H3, HS0, HS1, HS2⟩
    isplitl [E0 E1 E2 E3 E4 HS0 HS1 HS2 Hg]
    · isplitr [Hg]
      · isplitl [E0]; · iexact E0
        isplitl [E1]; · iexact E1
        isplitl [E2]; · iexact E2
        isplitl [E3]; · iexact E3
        isplitl [E4]; · iexact E4
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    iexact H3
  · -- any other point: the output's buffer is handed back as found
    have hc4 : ¬ cnd4 (grid1.coords t) := fun h => h4 ((hcnd4 t).mp h)
    rw [Dat.leavesExact_idle (dat1 V c) 3 t (idleAt1_3 t h4) (noFlush1_3 t h4)]
    by_cases hz : t.val = 0
    · -- the first point: the scratch buffers hold anything, and the body resets them
      have hc1 : cnd1 (grid1.coords t) := (hcnd1 t).mpr (by omega)
      rw [stAt_zero V c t hz, PhiS_castSucc V c t, PhiS_zero V c _ _ hz, PhiA1_eq]
      iintro ⟨⟨⟨E0, E1, E2, E3, E4, ⟨%e0, HS0⟩, ⟨%e1, HS1⟩, ⟨%e2, HS2⟩⟩, Hg⟩, Ho, ⟨%d0, H0⟩, ⟨%d1, H1⟩, ⟨%d2, H2⟩, ⟨%d3, H3⟩⟩
      iapply (sound_attn c Set.univ t (ms1_0 t) (hs1_0 t) (ms1_1 t) (hs1_1 t) (ms1_2 t) (hs1_2 t) (ms1_3 t) (hs1_3 t)
        sc0 (Memref.isWhole_whole _) sc1 (Memref.isWhole_whole _) sc2 (Memref.isWhole_whole _)
        (iblk1 V c 0 t) (iblk1 V c 1 t) (iblk1 V c 2 t) _ (e0, e1, e2) _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      rw [if_neg hc4, stepSt_of_cnd1 (grid1.coords t) (iblk1 V c 0 t) (iblk1 V c 1 t) (iblk1 V c 2 t) (e0, e1, e2) stInit hc1]
      iintro ⟨H0, H1, H2, H3, HS0, HS1, HS2⟩
      isplitl [E0 E1 E2 E3 E4 HS0 HS1 HS2 Hg]
      · isplitr [Hg]
        · isplitl [E0]; · iexact E0
          isplitl [E1]; · iexact E1
          isplitl [E2]; · iexact E2
          isplitl [E3]; · iexact E3
          isplitl [E4]; · iexact E4
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexists _; iexact H3
    · rw [stAt_pos V c t hz, PhiS_castSucc V c t, PhiS_pos V c _ _ hz]
      iintro ⟨⟨⟨E0, E1, E2, E3, E4, HS0, HS1, HS2⟩, Hg⟩, Ho, ⟨%d0, H0⟩, ⟨%d1, H1⟩, ⟨%d2, H2⟩, ⟨%d3, H3⟩⟩
      iapply (sound_attn c Set.univ t (ms1_0 t) (hs1_0 t) (ms1_1 t) (hs1_1 t) (ms1_2 t) (hs1_2 t) (ms1_3 t) (hs1_3 t)
        sc0 (Memref.isWhole_whole _) sc1 (Memref.isWhole_whole _) sc2 (Memref.isWhole_whole _)
        (iblk1 V c 0 t) (iblk1 V c 1 t) (iblk1 V c 2 t) _ (stAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      rw [if_neg hc4]
      iintro ⟨H0, H1, H2, H3, HS0, HS1, HS2⟩
      isplitl [E0 E1 E2 E3 E4 HS0 HS1 HS2 Hg]
      · isplitr [Hg]
        · isplitl [E0]; · iexact E0
          isplitl [E1]; · iexact E1
          isplitl [E2]; · iexact E2
          isplitl [E3]; · iexact E3
          isplitl [E4]; · iexact E4
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class invariant back: the scratch buffers' named contents are forgotten. -/
theorem hout1 (c : Dev nD) : (dat1 V c).Φ (Fin.last cfg1.N) ⊢ Pipeline.ΦA spec1 c := by
  have hN : cfg1.N = 64 := N_1
  rw [show (dat1 V c).Φ (Fin.last cfg1.N) = PhiS V c (Fin.last cfg1.N).val (Nat.le_of_lt_succ (Fin.last cfg1.N).isLt) from rfl,
    PhiS_pos V c _ _ (by rw [Fin.val_last]; omega), PhiA1_eq]
  iintro ⟨⟨E0, E1, E2, E3, E4, HS0, HS1, HS2⟩, Hg⟩
  isplitr [Hg]
  · isplitl [E0]; · iexact E0
    isplitl [E1]; · iexact E1
    isplitl [E2]; · iexact E2
    isplitl [E3]; · iexact E3
    isplitl [E4]; · iexact E4
    isplitl [HS0]; · iexists _; iexact HS0
    isplitl [HS1]; · iexists _; iexact HS1
    iexists _; iexact HS2
  iexact Hg

end Cert.Kernel.Hand

end
-- ==== Proof.KB.Run.lean ====
/-
  The whole run of the program, generic in the float instance: @main is a host stretch (the three weight matrices
  concatenated), the projection pallas_call, a host stretch (the projected array sliced into q, k, v), the attention
  pallas_call. The buffer contents at each of the five boundaries are a fold from the launch memory: a host stretch
  applies its operations; a pallas_call leaves each of its arrays at what the pipeline's write-backs leave
  (an input as entered) and every other buffer as entered. Each pallas_call is a segment over the thread state "every unscoped
  buffer at the boundary's contents, the generator register at some state, nothing owed", built from its body obligation.
  The run ends with the result buffer at the last boundary's contents and the four arguments as launched.
-/
import proofs.«150456_j65506841199208_2_alg».proof.Proof.KB.R0
import proofs.«150456_j65506841199208_2_alg».proof.Proof.KB.R1
import proofs.«150456_j65506841199208_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the concatenation (the projection's entry). -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- At the projection's exit. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After the slicing (the attention's entry). -/
abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b
/-- At the attention's exit. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)

/-! ### The arguments end as launched -/

/-- A buffer no operation of the first stretch writes keeps its launch contents through it. -/
theorem W1_keep (c : Dev nD) (r : Ref sig .tc) (h : r ∉ hostOps0_W) : W1 m ρ c (Proc.devRef .tc r) = W0 m ρ c (Proc.devRef .tc r) :=
  StableHlo.after_of_writes_sub hostOps0 _ hostOps0_writes h
/-- A buffer no operation of the second stretch writes keeps its contents through it. -/
theorem W3_keep (c : Dev nD) (r : Ref sig .tc) (h : r ∉ hostOps1_W) : W3 m ρ c (Proc.devRef .tc r) = W2 m ρ c (Proc.devRef .tc r) :=
  StableHlo.after_of_writes_sub hostOps1 _ hostOps1_writes h

/-- The activations are the projection's input window: the pipeline leaves an input's array as entered. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_keep m ρ c main_arg0 (by decide)
    _ = W1 m ρ c (Proc.devRef .tc main_arg0) := (W2_arr m ρ c 0).trans (((dat0 (U1 m ρ) c).arrAt_in 0 rfl _).trans (A_eq0 (U1 m ρ) c 0))
    _ = W0 m ρ c (Proc.devRef .tc main_arg0) := W1_keep m ρ c main_arg0 (by decide)
    _ = m ((c : Thread nD τ).loc main_arg0) := rfl
/-- A weight matrix is read by the concatenation only: no pallas_call stages it and no host operation writes it. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_keep m ρ c main_arg1 (by decide)
    _ = W1 m ρ c (Proc.devRef .tc main_arg1) := W2_of_ne m ρ c main_arg1 (by decide)
    _ = W0 m ρ c (Proc.devRef .tc main_arg1) := W1_keep m ρ c main_arg1 (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_keep m ρ c main_arg2 (by decide)
    _ = W1 m ρ c (Proc.devRef .tc main_arg2) := W2_of_ne m ρ c main_arg2 (by decide)
    _ = W0 m ρ c (Proc.devRef .tc main_arg2) := W1_keep m ρ c main_arg2 (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_keep m ρ c main_arg3 (by decide)
    _ = W1 m ρ c (Proc.devRef .tc main_arg3) := W2_of_ne m ρ c main_arg3 (by decide)
    _ = W0 m ρ c (Proc.devRef .tc main_arg3) := W1_keep m ρ c main_arg3 (by decide)
    _ = m ((c : Thread nD τ).loc main_arg3) := rfl

/-! ## The proof data family and the thread state -/

/-- Both pipelines' proof data, each at its region's entry contents: a literal match on the pipeline. -/
def pdats : (p : Fin 2) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U3 m ρ) c
abbrev 𝒱₀ : Variants := Variants.none
abbrev Lz : GSem nD τ sig → Finset Unit := fun _ => ∅
abbrev lvz : GSem nD τ sig → Unit → ℕ := fun _ _ => 0
/-- What rides beside the buffers through every segment: the generator register at some state, and nothing owed. -/
abbrev Rr (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (W4 m ρ c) ∗ ∃ r, prngReg c r)

/-! ## The two pallas_calls as segments -/

set_option backward.isDefEq.respectTransparency.types false in
/-- The projection over the thread state: entered from every unscoped buffer at `W1`, left at `W2`. -/
def reg0 : Pipeline.RegionSeg (pcfgs (F := F)) adm (pdats m ρ) () defs₀ 𝒱₀ Lz lvz 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ Lz lvz 0 fun _ _ => rfl
  pre c := iprop(StableHlo.held (c : Thread nD τ) (Pipeline.ucRefs τ sig) (W1 m ρ c) ∗ Rr c)
  post c := iprop(StableHlo.held (c : Thread nD τ) (Pipeline.ucRefs τ sig) (W2 m ρ c) ∗ Rr c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention over the thread state: entered from every unscoped buffer at `W3`, left at `W4`. Its invariant takes the
    generator register and the scoped buffers it does not stage in, and gives them back (the scratch buffers' contents
    forgotten) after the last point. -/
def reg1 : Pipeline.RegionSeg (pcfgs (F := F)) adm (pdats m ρ) () defs₀ 𝒱₀ Lz lvz 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ Lz lvz 1 fun _ _ => rfl
  pre c := iprop(StableHlo.held (c : Thread nD τ) (Pipeline.ucRefs τ sig) (W3 m ρ c) ∗ Rr c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = (dat1 (U3 m ρ) c).Φ (Fin.last cfg1.N) from rfl]
    have h := hout1 (U3 m ρ) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ Lz lvz) :=
  [ .host (hseg hostOps0 hostOps0_sub hostOps0_fresh (W0 m ρ)),
    .region (reg0 m ρ),
    .host (hseg hostOps1 hostOps1_sub hostOps1_fresh (W2 m ρ)),
    .region (reg1 m ρ) ]
/-- @main is the run of the segments. -/
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting, with
    the result buffer at the last boundary's contents and the four argument arrays as launched. -/
theorem run_main : θ_run defs (onTc (τ := τ) (main (F := F))) ⟨m, fun _ => 0, ρ⟩ (fun r => ∀ c : Dev nD,
      r.2.mem ((c.tc : Thread nD τ).loc main_v5) = W4 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ Lz lvz m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rr c)) (Tₙ := Tend m ρ)
    (hch := ⟨fun _ => .rfl, fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v5 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.Kernel.Hand

end
-- ==== Proof.KI.R0.lean ====
/-
  Region 0 (the fused projection call) at a parameter `V`: the contents of the core's buffers when the
  region is entered. The call's grid has 16 points (batch, row tile); at each point its body reads the
  row tile of the activations (window 0, a [1,1024,1024] block) and the whole concatenated weight
  (window 1, [192,1024], brought in once and never moved), and overwrites the whole output block
  (window 2, [1,1024,192]) with one value computed from the two: the block product of the payload
  `k0_pay1`. So, whatever the staging buffers held before, after the body the inputs' buffers hold
  their blocks still and the output's buffer holds `out0_2` of the two input blocks.

  Everything is generic in the float instance `F`.
-/
import proofs.«150456_j65506841199208_2_alg».proof.Proof.Gen.KernelIdeal.Launch
import proofs.«150456_j65506841199208_2_alg».proof.Proof.Gen.KernelIdeal.Skeleton
import proofs.«150456_j65506841199208_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with a 1024-long axis is checked coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region0

-- the contents of the core's buffers at the moment the region is entered
variable (V : (c : Dev nD) → (b : Ref sig .tc) → Buf (Elt F) ((c : Thread nD τ).loc b))

/-! ## The blocks of the windows -/

/-- The block of window `w` at grid point `t`: the entries of the window's array, as the region finds it,
    at the indices the block covers. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds the point's row tile when the body starts, for any proof data
    over `V`'s array whose body leaves that buffer alone: either the tile was just brought in, or the block
    index has not moved since the previous point and the buffer still holds the same tile. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight's staging buffer holds the whole weight when the body starts, at EVERY point, although it is
    brought in at the first point only: its block index is the same at all points, so at a later point the
    buffer holds what the previous point's body left, which is the weight again. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each the whole of its buffer -/

abbrev r0_0 : Rect S1x1024x1024 := Rect.unit (s := S1x1024x1024) ![0, 0, 0] S1x1024x1024.size inb_S1x1024x1024_S1x1024x1024_0_0_0
abbrev r0_1 : Rect S192x1024 := Rect.unit (s := S192x1024) ![0, 0] S192x1024.size inb_S192x1024_S192x1024_0_0
abbrev r0_2 : Rect S1x1024x192 := Rect.unit (s := S1x1024x192) ![0, 0, 0] S1x1024x192.size inb_S1x1024x192_S1x1024x192_0_0_0

/-! ## What the body leaves in the output's buffer -/

/-- The output buffer after the body, from the two input blocks: the buffer's one write, of the payload of
    what the two loads read, laid over the whole buffer. -/
def out0_2 (x0 : Vec F S1x1024x1024 .f32) (x1 : Vec F S192x1024 .f32) : Vec F S1x1024x192 .bf16 :=
  View.canon [⟨r0_2, k0_pay1 (View.ld x0 r0_0) (View.ld x1 r0_1)⟩]

/-- The one write covers the buffer: its rectangle is the whole of it. -/
theorem cover0_2 (p0 : Vec F S1x1024x192 .bf16) (y : S1x1024x192.Idx) :
    ∃ pc ∈ ([⟨r0_2, p0⟩] : List (View.Piece (Elt F) S1x1024x192 .bf16)), y ∈ pc.1.set :=
  View.cover_of_tiled [⟨r0_2, p0⟩] S1x1024x192.size (by rfl) y

/-! ## The body's triple -/

set_option maxHeartbeats 1000000 in
/-- The body on three whole staging buffers, the inputs' holding `x0` and `x1` and the output's anything:
    it ends with the inputs' buffers unchanged and the output's holding `out0_2 x0 x1`. (The body also reads
    the output buffer before writing it; what it reads there is not used.) -/
theorem sound_kernel0 (c : Dev nD) (E : Set ℕ) (i : grid0.Coords)
    (arg0 : Memref sig .tc .vmem S1x1024x1024 .f32) (harg0 : arg0.IsWhole)
    (arg1 : Memref sig .tc .vmem S192x1024 .f32) (harg1 : arg1.IsWhole)
    (arg2 : Memref sig .tc .vmem S1x1024x192 .bf16) (harg2 : arg2.IsWhole)
    (x0 : Vec F S1x1024x1024 .f32) (x1 : Vec F S192x1024 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__proj_kernel i arg0 harg0 arg1 harg1 arg2 harg2) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data of the call's pipeline -/

/-- The proof data on core `c`: the arrays as the region finds them; after the body at point `t` each input's
    buffer holds its block and the output's holds `out0_2` of the two blocks; the invariant is "the rest of
    the scoped memory and the generator register are untouched"; nothing is owed; the shares are full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the contents at entry. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's staging buffer holds its block when the body starts, at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation at a point -/

/-- What the body is started with at point `t`: the invariant, what is owed, and the three current staging buffers, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant
    and what is owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Step.lean ====
/-
  The attention kernel's body, read as ONE transition of the three carried scratch buffers
  (the running row maximum, the running row sum of exponentials, the running weighted sum of value rows)
  at a grid point (batch b, query tile qi, key tile ki), generic in the float instance:

    * if ki = 0 the state is reset (maximum -inf, sum 0, accumulator 0);
    * if ki < qi the key tile lies wholly below the diagonal and is folded in unmasked;
    * if ki = qi the key tile is the diagonal one and is folded in under the causal mask;
    * (if ki = 3 the output block is the accumulator divided by the sum — `outOf`).

  The four tests are the body's four conditionals, in program order; each later one sees the state the
  earlier ones left. Every payload reads the state as it was BEFORE its conditional's stores (the body
  loads before it stores), which is what the nesting of the `let`s below says.
-/
import proofs.«150456_j65506841199208_2_alg».proof.Proof.Gen.KernelIdeal.Skeleton

noncomputable section

namespace Cert.KernelIdeal.Hand

open Idealize.ShloMosaic Idealize.SL.Sem Cert.KernelIdeal Cert.KernelIdeal.Gen

variable {F : FTy → Type} [FloatOps F] [Named F]

/-- The key-tile coordinate is 0: the body's first conditional (the skeleton's scalar chain). -/
abbrev cnd1 (i : grid1.Coords) : Prop :=
  Scalar.cmpi .ne (Scalar.extui (Scalar.cmpi .eq (BitVec.ofNat 32 (i 2).val) 0#32)) 0#32 = 1#1
/-- The key tile is strictly below the query tile: the second conditional. -/
abbrev cnd2 (i : grid1.Coords) : Prop :=
  Scalar.cmpi .ne (Scalar.extui (Scalar.cmpi .slt (BitVec.ofNat 32 (i 2).val) (BitVec.ofNat 32 (i 1).val))) 0#32 = 1#1
/-- The key tile is the diagonal one: the third conditional. -/
abbrev cnd3 (i : grid1.Coords) : Prop :=
  Scalar.cmpi .ne (Scalar.extui (Scalar.cmpi .eq (BitVec.ofNat 32 (i 2).val) (BitVec.ofNat 32 (i 1).val))) 0#32 = 1#1
/-- The key tile is the last one: the fourth conditional. -/
abbrev cnd4 (i : grid1.Coords) : Prop := k1_cond4 i = 1#1

/-- The three carried scratch buffers: (row maximum, row sum, accumulator). -/
abbrev St (F : FTy → Type) [FloatOps F] : Type :=
  Vec F S1024x1 .f32 × Vec F S1024x1 .f32 × Vec F S1024x64 .f32

/-- The reset state. -/
def stInit : St F := (k1_pay1, k1_pay2, k1_pay3)

/-- An unmasked key tile folded into the state. -/
def stBelow (q k v : Vec F S1x1024x64 .bf16) (s : St F) : St F :=
  (k1_pay4 (k1_pay9 q k s.1), k1_pay12 q k s.1 s.2.1, k1_pay13 q k v s.1 s.2.2)

/-- The diagonal key tile folded into the state under the causal mask (`a1`, `a2` the tile coordinates as words). -/
def stDiag (a1 a2 : BitVec 32) (q k v : Vec F S1x1024x64 .bf16) (s : St F) : St F :=
  (k1_pay6 (k1_pay16 a1 a2 q k s.1), k1_pay19 a1 a2 q k s.1 s.2.1,
    k1_pay5 (k1_pay14 v) (k1_pay17 a1 a2 q k s.1) (k1_pay18 a1 a2 q k s.1) s.2.2)

open Classical in
/-- The state after the body at coordinates `i`, from the three input blocks and the state before. -/
def stepSt (i : grid1.Coords) (q k v : Vec F S1x1024x64 .bf16) (s : St F) : St F :=
  let s1 : St F := if cnd1 i then stInit else s
  let s2 : St F := if cnd2 i then stBelow q k v s1 else s1
  if cnd3 i then stDiag (BitVec.ofNat 32 (i 1).val) (BitVec.ofNat 32 (i 2).val) q k v s2 else s2

/-- The output block the last key tile's point stores: the accumulator times the reciprocal of the row sum. -/
def outOf (s : St F) : Vec F S1x1024x64 .f32 := k1_pay7 s.2.2 s.2.1

open Classical in
/-- Where the state is reset, the state before does not matter. -/
theorem stepSt_of_cnd1 (i : grid1.Coords) (q k v : Vec F S1x1024x64 .bf16) (s s' : St F) (h : cnd1 i) :
    stepSt i q k v s = stepSt i q k v s' := by
  unfold stepSt; simp only [if_pos h]

end Cert.KernelIdeal.Hand

end
-- ==== Proof.KI.R1Lib.lean ====
/-
  Whole-buffer loads and stores: a store through the whole-shape rectangle at zero offsets leaves its payload, whatever
  was stored before; a load through that rectangle reads the contents. Stated once over an abstract view, and for the
  raw contents of a whole memref that read a given block.
-/
import Idealize.ShloMosaic.Lib.Pipeline.FrameBody
import Idealize.ShloMosaic.Lib.WholeRead

noncomputable section

namespace Cert.KernelIdeal.Hand

open Idealize.ShloMosaic Idealize.SL.Sem

/-- The zero offsets of rank 2 and 3 as the constant function. -/
theorem zero2 : (![0, 0] : Fin 2 → ℕ) = fun _ => 0 := by
  funext a; fin_cases a <;> rfl
theorem zero3 : (![0, 0, 0] : Fin 3 → ℕ) = fun _ => 0 := by
  funext a; fin_cases a <;> rfl

section
variable {Val : EltTy → Type} [∀ e, Nonempty (Val e)] {sig : RefSig} {κ : Kind} {sp : Space} {S : Shape} {e : EltTy}

/-- After a list of stores whose LAST one wrote the whole shape, the view reads that store's payload. -/
theorem read_writes_whole (v : View sig κ sp S e) (f : v.ty.Contents Val) {off : Fin S.rank → ℕ} (hz : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero hz inb y⟩),
    View.canon_cons_unit_zero hz inb w L]

/-- A whole-shape load of what such a list of stores left reads the last store's payload. -/
theorem readCov_whole (v : View sig κ sp S e) {off : Fin S.rank → ℕ} (hz : off = fun _ => 0)
    (inb inb' : ∀ a, off a + S.size a ≤ S.size a) (w : S.Idx → Val e) (L : List (View.Piece Val S e)) :
    v.readCov ((⟨Rect.unit off S.size inb, w⟩ : View.Piece Val S e) :: L) (Rect.unit off S.size inb').toLoadRect = w := by
  rw [View.readCov_eq_canon_ld _ _ _ (fun y => ⟨_, List.mem_cons_self, View.mem_set_unit_zero hz inb y⟩),
    View.canon_cons_unit_zero hz inb w L, View.ld_unit_zero hz inb']

/-- A whole-shape load through a whole memref held at the raw contents that read `X` reads `X`. -/
theorem readAt_whole_unread {m : Memref sig κ sp S e} (h : m.IsWhole) (X : S.Idx → Val e) {off : Fin S.rank → ℕ}
    (hz : off = fun _ => 0) (inb : ∀ a, off a + S.size a ≤ S.size a) :
    View.readAt Val m.view (Rect.unit off S.size inb).toLoadRect (h.unread X) = X := by
  funext x
  rw [h.readAt_unread X _ x]
  exact congrFun (View.ld_unit_zero hz inb X) x
end

end Cert.KernelIdeal.Hand

end
-- ==== Proof.KI.R1Body.lean ====
/-
  The body of the attention kernel run at one grid point: on whole buffers holding the three input blocks, the
  output block and the three carried scratch buffers (row maximum, row sum, accumulator) at a state `s`, the body
  leaves the inputs as they were, the scratch at `stepSt` of the point's coordinates, and the output block at
  `outOf` of that state where the key tile is the last one (untouched elsewhere). The four conditionals of the
  body are decided per case; each store writes its whole buffer, so a buffer reads back as the last payload
  stored into it.
-/
import proofs.«150456_j65506841199208_2_alg».proof.Proof.KI.Step
import proofs.«150456_j65506841199208_2_alg».proof.Proof.Gen.KernelIdeal.Launch
import proofs.«150456_j65506841199208_2_alg».proof.Proof.Gen.KernelIdeal.Points
import Idealize.ShloMosaic.Lib.Pipeline.FrameBody
import Idealize.ShloMosaic.Lib.WholeRead
import proofs.«150456_j65506841199208_2_alg».proof.Proof.KI.R1Lib
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

set_option maxHeartbeats 1000000 in
/-- The first key tile, which is also the diagonal one (query tile 0): the state is reset, then the diagonal tile is folded in under the mask. -/
theorem run_reset_diag (c : Dev nD) (E : Set ℕ) (i : grid1.Coords)
    (arg3 : Memref sig .tc .vmem S1x1024x64 .bf16) (harg3 : arg3.IsWhole) (arg4 : Memref sig .tc .vmem S1x1024x64 .bf16) (harg4 : arg4.IsWhole)
    (arg5 : Memref sig .tc .vmem S1x1024x64 .bf16) (harg5 : arg5.IsWhole) (arg6 : Memref sig .tc .vmem S1x1024x64 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x64 .f32) (harg9 : arg9.IsWhole)
    (q k v : Vec F S1x1024x64 .bf16) (o : Vec F S1x1024x64 .f32) (s : St F) (K : PUnit → sProp 𝕄)
    (h1 : cnd1 i) (h2 : ¬ cnd2 i) (h3 : cnd3 i) (h4 : ¬ cnd4 i) :
    iprop(owns (c : Thread nD τ) arg3 fullShare q ∗ owns (c : Thread nD τ) arg4 fullShare k ∗ owns (c : Thread nD τ) arg5 fullShare v
          ∗ owns (c : Thread nD τ) arg6 fullShare o
          ∗ owns (c : Thread nD τ) arg7 fullShare s.1 ∗ owns (c : Thread nD τ) arg8 fullShare s.2.1 ∗ owns (c : Thread nD τ) arg9 fullShare s.2.2
          ∗ (iprop(owns (c : Thread nD τ) arg3 fullShare q ∗ owns (c : Thread nD τ) arg4 fullShare k ∗ owns (c : Thread nD τ) arg5 fullShare v
              ∗ owns (c : Thread nD τ) arg6 fullShare (o)
              ∗ owns (c : Thread nD τ) arg7 fullShare ((stDiag (BitVec.ofNat 32 (i 1).val) (BitVec.ofNat 32 (i 2).val) q k v stInit).1)
              ∗ owns (c : Thread nD τ) arg8 fullShare ((stDiag (BitVec.ofNat 32 (i 1).val) (BitVec.ofNat 32 (i 2).val) q k v stInit).2.1)
              ∗ owns (c : Thread nD τ) arg9 fullShare ((stDiag (BitVec.ofNat 32 (i 1).val) (BitVec.ofNat 32 (i 2).val) q k v stInit).2.2)) -∗ K ⟨⟩))
        ⊢ wp frame (wpE (defs₀ (F := F)) Variants.none c none) E
            (cc1__attn_kernel i arg3 harg3 arg4 harg4 arg5 harg5 arg6 harg6 arg7 harg7 arg8 harg8 arg9 harg9) K := by
  simp only [cc1__attn_kernel_eq_skeleton]; unfold cc1__attn_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg9.eq_unread hf9
  sl_exec (disch := first | exact h1 | exact h2 | exact h3 | exact h4)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    refine (read_writes_whole (S := S1024x1) _ _ zero2 _ _ _).trans ?_
    sl_unfold_run_names
    simp only [stInit, stBelow, stDiag, outOf,
        readAt_whole_unread (S := S1x1024x64) _ _ zero3, readAt_whole_unread (S := S1024x1) _ _ zero2,
        readAt_whole_unread (S := S1024x64) _ _ zero2, readCov_whole (S := S1024x1) _ zero2,
        readCov_whole (S := S1024x64) _ zero2, readCov_whole (S := S1x1024x64) _ zero3] <;> rfl
  isplitl [H8]
  · iexists _; isplitr
    swap; · iexact H8
    ipureintro
    refine (read_writes_whole (S := S1024x1) _ _ zero2 _ _ _).trans ?_
    sl_unfold_run_names
    simp only [stInit, stBelow, stDiag, outOf,
        readAt_whole_unread (S := S1x1024x64) _ _ zero3, readAt_whole_unread (S := S1024x1) _ _ zero2,
        readAt_whole_unread (S := S1024x64) _ _ zero2, readCov_whole (S := S1024x1) _ zero2,
        readCov_whole (S := S1024x64) _ zero2, readCov_whole (S := S1x1024x64) _ zero3] <;> rfl
  iexists _; isplitr
  swap; · iexact H9
  ipureintro
  refine (read_writes_whole (S := S1024x64) _ _ zero2 _ _ _).trans ?_
  sl_unfold_run_names
  simp only [stInit, stBelow, stDiag, outOf,
      readAt_whole_unread (S := S1x1024x64) _ _ zero3, readAt_whole_unread (S := S1024x1) _ _ zero2,
      readAt_whole_unread (S := S1024x64) _ _ zero2, readCov_whole (S := S1024x1) _ zero2,
      readCov_whole (S := S1024x64) _ zero2, readCov_whole (S := S1x1024x64) _ zero3] <;> rfl

set_option maxHeartbeats 1000000 in
/-- The first key tile, strictly below the diagonal: the state is reset, then the tile is folded in unmasked. -/
theorem run_reset_below (c : Dev nD) (E : Set ℕ) (i : grid1.Coords)
    (arg3 : Memref sig .tc .vmem S1x1024x64 .bf16) (harg3 : arg3.IsWhole) (arg4 : Memref sig .tc .vmem S1x1024x64 .bf16) (harg4 : arg4.IsWhole)
    (arg5 : Memref sig .tc .vmem S1x1024x64 .bf16) (harg5 : arg5.IsWhole) (arg6 : Memref sig .tc .vmem S1x1024x64 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x64 .f32) (harg9 : arg9.IsWhole)
    (q k v : Vec F S1x1024x64 .bf16) (o : Vec F S1x1024x64 .f32) (s : St F) (K : PUnit → sProp 𝕄)
    (h1 : cnd1 i) (h2 : cnd2 i) (h3 : ¬ cnd3 i) (h4 : ¬ cnd4 i) :
    iprop(owns (c : Thread nD τ) arg3 fullShare q ∗ owns (c : Thread nD τ) arg4 fullShare k ∗ owns (c : Thread nD τ) arg5 fullShare v
          ∗ owns (c : Thread nD τ) arg6 fullShare o
          ∗ owns (c : Thread nD τ) arg7 fullShare s.1 ∗ owns (c : Thread nD τ) arg8 fullShare s.2.1 ∗ owns (c : Thread nD τ) arg9 fullShare s.2.2
          ∗ (iprop(owns (c : Thread nD τ) arg3 fullShare q ∗ owns (c : Thread nD τ) arg4 fullShare k ∗ owns (c : Thread nD τ) arg5 fullShare v
              ∗ owns (c : Thread nD τ) arg6 fullShare (o)
              ∗ owns (c : Thread nD τ) arg7 fullShare ((stBelow q k v stInit).1)
              ∗ owns (c : Thread nD τ) arg8 fullShare ((stBelow q k v stInit).2.1)
              ∗ owns (c : Thread nD τ) arg9 fullShare ((stBelow q k v stInit).2.2)) -∗ K ⟨⟩))
        ⊢ wp frame (wpE (defs₀ (F := F)) Variants.none c none) E
            (cc1__attn_kernel i arg3 harg3 arg4 harg4 arg5 harg5 arg6 harg6 arg7 harg7 arg8 harg8 arg9 harg9) K := by
  simp only [cc1__attn_kernel_eq_skeleton]; unfold cc1__attn_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg9.eq_unread hf9
  sl_exec (disch := first | exact h1 | exact h2 | exact h3 | exact h4)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    refine (read_writes_whole (S := S1024x1) _ _ zero2 _ _ _).trans ?_
    sl_unfold_run_names
    simp only [stInit, stBelow, stDiag, outOf,
        readAt_whole_unread (S := S1x1024x64) _ _ zero3, readAt_whole_unread (S := S1024x1) _ _ zero2,
        readAt_whole_unread (S := S1024x64) _ _ zero2, readCov_whole (S := S1024x1) _ zero2,
        readCov_whole (S := S1024x64) _ zero2, readCov_whole (S := S1x1024x64) _ zero3] <;> rfl
  isplitl [H8]
  · iexists _; isplitr
    swap; · iexact H8
    ipureintro
    refine (read_writes_whole (S := S1024x1) _ _ zero2 _ _ _).trans ?_
    sl_unfold_run_names
    simp only [stInit, stBelow, stDiag, outOf,
        readAt_whole_unread (S := S1x1024x64) _ _ zero3, readAt_whole_unread (S := S1024x1) _ _ zero2,
        readAt_whole_unread (S := S1024x64) _ _ zero2, readCov_whole (S := S1024x1) _ zero2,
        readCov_whole (S := S1024x64) _ zero2, readCov_whole (S := S1x1024x64) _ zero3] <;> rfl
  iexists _; isplitr
  swap; · iexact H9
  ipureintro
  refine (read_writes_whole (S := S1024x64) _ _ zero2 _ _ _).trans ?_
  sl_unfold_run_names
  simp only [stInit, stBelow, stDiag, outOf,
      readAt_whole_unread (S := S1x1024x64) _ _ zero3, readAt_whole_unread (S := S1024x1) _ _ zero2,
      readAt_whole_unread (S := S1024x64) _ _ zero2, readCov_whole (S := S1024x1) _ zero2,
      readCov_whole (S := S1024x64) _ zero2, readCov_whole (S := S1x1024x64) _ zero3] <;> rfl

set_option maxHeartbeats 1000000 in
/-- A later key tile strictly below the diagonal: folded in unmasked. -/
theorem run_below (c : Dev nD) (E : Set ℕ) (i : grid1.Coords)
    (arg3 : Memref sig .tc .vmem S1x1024x64 .bf16) (harg3 : arg3.IsWhole) (arg4 : Memref sig .tc .vmem S1x1024x64 .bf16) (harg4 : arg4.IsWhole)
    (arg5 : Memref sig .tc .vmem S1x1024x64 .bf16) (harg5 : arg5.IsWhole) (arg6 : Memref sig .tc .vmem S1x1024x64 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x64 .f32) (harg9 : arg9.IsWhole)
    (q k v : Vec F S1x1024x64 .bf16) (o : Vec F S1x1024x64 .f32) (s : St F) (K : PUnit → sProp 𝕄)
    (h1 : ¬ cnd1 i) (h2 : cnd2 i) (h3 : ¬ cnd3 i) (h4 : ¬ cnd4 i) :
    iprop(owns (c : Thread nD τ) arg3 fullShare q ∗ owns (c : Thread nD τ) arg4 fullShare k ∗ owns (c : Thread nD τ) arg5 fullShare v
          ∗ owns (c : Thread nD τ) arg6 fullShare o
          ∗ owns (c : Thread nD τ) arg7 fullShare s.1 ∗ owns (c : Thread nD τ) arg8 fullShare s.2.1 ∗ owns (c : Thread nD τ) arg9 fullShare s.2.2
          ∗ (iprop(owns (c : Thread nD τ) arg3 fullShare q ∗ owns (c : Thread nD τ) arg4 fullShare k ∗ owns (c : Thread nD τ) arg5 fullShare v
              ∗ owns (c : Thread nD τ) arg6 fullShare (o)
              ∗ owns (c : Thread nD τ) arg7 fullShare ((stBelow q k v s).1)
              ∗ owns (c : Thread nD τ) arg8 fullShare ((stBelow q k v s).2.1)
              ∗ owns (c : Thread nD τ) arg9 fullShare ((stBelow q k v s).2.2)) -∗ K ⟨⟩))
        ⊢ wp frame (wpE (defs₀ (F := F)) Variants.none c none) E
            (cc1__attn_kernel i arg3 harg3 arg4 harg4 arg5 harg5 arg6 harg6 arg7 harg7 arg8 harg8 arg9 harg9) K := by
  simp only [cc1__attn_kernel_eq_skeleton]; unfold cc1__attn_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg9.eq_unread hf9
  sl_exec (disch := first | exact h1 | exact h2 | exact h3 | exact h4)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    refine (read_writes_whole (S := S1024x1) _ _ zero2 _ _ _).trans ?_
    sl_unfold_run_names
    simp only [stInit, stBelow, stDiag, outOf,
        readAt_whole_unread (S := S1x1024x64) _ _ zero3, readAt_whole_unread (S := S1024x1) _ _ zero2,
        readAt_whole_unread (S := S1024x64) _ _ zero2, readCov_whole (S := S1024x1) _ zero2,
        readCov_whole (S := S1024x64) _ zero2, readCov_whole (S := S1x1024x64) _ zero3] <;> rfl
  isplitl [H8]
  · iexists _; isplitr
    swap; · iexact H8
    ipureintro
    refine (read_writes_whole (S := S1024x1) _ _ zero2 _ _ _).trans ?_
    sl_unfold_run_names
    simp only [stInit, stBelow, stDiag, outOf,
        readAt_whole_unread (S := S1x1024x64) _ _ zero3, readAt_whole_unread (S := S1024x1) _ _ zero2,
        readAt_whole_unread (S := S1024x64) _ _ zero2, readCov_whole (S := S1024x1) _ zero2,
        readCov_whole (S := S1024x64) _ zero2, readCov_whole (S := S1x1024x64) _ zero3] <;> rfl
  iexists _; isplitr
  swap; · iexact H9
  ipureintro
  refine (read_writes_whole (S := S1024x64) _ _ zero2 _ _ _).trans ?_
  sl_unfold_run_names
  simp only [stInit, stBelow, stDiag, outOf,
      readAt_whole_unread (S := S1x1024x64) _ _ zero3, readAt_whole_unread (S := S1024x1) _ _ zero2,
      readAt_whole_unread (S := S1024x64) _ _ zero2, readCov_whole (S := S1024x1) _ zero2,
      readCov_whole (S := S1024x64) _ zero2, readCov_whole (S := S1x1024x64) _ zero3] <;> rfl

set_option maxHeartbeats 1000000 in
/-- A later diagonal key tile that is not the last: folded in under the mask. -/
theorem run_diag (c : Dev nD) (E : Set ℕ) (i : grid1.Coords)
    (arg3 : Memref sig .tc .vmem S1x1024x64 .bf16) (harg3 : arg3.IsWhole) (arg4 : Memref sig .tc .vmem S1x1024x64 .bf16) (harg4 : arg4.IsWhole)
    (arg5 : Memref sig .tc .vmem S1x1024x64 .bf16) (harg5 : arg5.IsWhole) (arg6 : Memref sig .tc .vmem S1x1024x64 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x64 .f32) (harg9 : arg9.IsWhole)
    (q k v : Vec F S1x1024x64 .bf16) (o : Vec F S1x1024x64 .f32) (s : St F) (K : PUnit → sProp 𝕄)
    (h1 : ¬ cnd1 i) (h2 : ¬ cnd2 i) (h3 : cnd3 i) (h4 : ¬ cnd4 i) :
    iprop(owns (c : Thread nD τ) arg3 fullShare q ∗ owns (c : Thread nD τ) arg4 fullShare k ∗ owns (c : Thread nD τ) arg5 fullShare v
          ∗ owns (c : Thread nD τ) arg6 fullShare o
          ∗ owns (c : Thread nD τ) arg7 fullShare s.1 ∗ owns (c : Thread nD τ) arg8 fullShare s.2.1 ∗ owns (c : Thread nD τ) arg9 fullShare s.2.2
          ∗ (iprop(owns (c : Thread nD τ) arg3 fullShare q ∗ owns (c : Thread nD τ) arg4 fullShare k ∗ owns (c : Thread nD τ) arg5 fullShare v
              ∗ owns (c : Thread nD τ) arg6 fullShare (o)
              ∗ owns (c : Thread nD τ) arg7 fullShare ((stDiag (BitVec.ofNat 32 (i 1).val) (BitVec.ofNat 32 (i 2).val) q k v s).1)
              ∗ owns (c : Thread nD τ) arg8 fullShare ((stDiag (BitVec.ofNat 32 (i 1).val) (BitVec.ofNat 32 (i 2).val) q k v s).2.1)
              ∗ owns (c : Thread nD τ) arg9 fullShare ((stDiag (BitVec.ofNat 32 (i 1).val) (BitVec.ofNat 32 (i 2).val) q k v s).2.2)) -∗ K ⟨⟩))
        ⊢ wp frame (wpE (defs₀ (F := F)) Variants.none c none) E
            (cc1__attn_kernel i arg3 harg3 arg4 harg4 arg5 harg5 arg6 harg6 arg7 harg7 arg8 harg8 arg9 harg9) K := by
  simp only [cc1__attn_kernel_eq_skeleton]; unfold cc1__attn_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg9.eq_unread hf9
  sl_exec (disch := first | exact h1 | exact h2 | exact h3 | exact h4)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    refine (read_writes_whole (S := S1024x1) _ _ zero2 _ _ _).trans ?_
    sl_unfold_run_names
    simp only [stInit, stBelow, stDiag, outOf,
        readAt_whole_unread (S := S1x1024x64) _ _ zero3, readAt_whole_unread (S := S1024x1) _ _ zero2,
        readAt_whole_unread (S := S1024x64) _ _ zero2, readCov_whole (S := S1024x1) _ zero2,
        readCov_whole (S := S1024x64) _ zero2, readCov_whole (S := S1x1024x64) _ zero3] <;> rfl
  isplitl [H8]
  · iexists _; isplitr
    swap; · iexact H8
    ipureintro
    refine (read_writes_whole (S := S1024x1) _ _ zero2 _ _ _).trans ?_
    sl_unfold_run_names
    simp only [stInit, stBelow, stDiag, outOf,
        readAt_whole_unread (S := S1x1024x64) _ _ zero3, readAt_whole_unread (S := S1024x1) _ _ zero2,
        readAt_whole_unread (S := S1024x64) _ _ zero2, readCov_whole (S := S1024x1) _ zero2,
        readCov_whole (S := S1024x64) _ zero2, readCov_whole (S := S1x1024x64) _ zero3] <;> rfl
  iexists _; isplitr
  swap; · iexact H9
  ipureintro
  refine (read_writes_whole (S := S1024x64) _ _ zero2 _ _ _).trans ?_
  sl_unfold_run_names
  simp only [stInit, stBelow, stDiag, outOf,
      readAt_whole_unread (S := S1x1024x64) _ _ zero3, readAt_whole_unread (S := S1024x1) _ _ zero2,
      readAt_whole_unread (S := S1024x64) _ _ zero2, readCov_whole (S := S1024x1) _ zero2,
      readCov_whole (S := S1024x64) _ zero2, readCov_whole (S := S1x1024x64) _ zero3] <;> rfl

set_option maxHeartbeats 1000000 in
/-- The last key tile, diagonal (query tile 3): folded in under the mask, then the output block is stored. -/
theorem run_diag_out (c : Dev nD) (E : Set ℕ) (i : grid1.Coords)
    (arg3 : Memref sig .tc .vmem S1x1024x64 .bf16) (harg3 : arg3.IsWhole) (arg4 : Memref sig .tc .vmem S1x1024x64 .bf16) (harg4 : arg4.IsWhole)
    (arg5 : Memref sig .tc .vmem S1x1024x64 .bf16) (harg5 : arg5.IsWhole) (arg6 : Memref sig .tc .vmem S1x1024x64 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x64 .f32) (harg9 : arg9.IsWhole)
    (q k v : Vec F S1x1024x64 .bf16) (o : Vec F S1x1024x64 .f32) (s : St F) (K : PUnit → sProp 𝕄)
    (h1 : ¬ cnd1 i) (h2 : ¬ cnd2 i) (h3 : cnd3 i) (h4 : cnd4 i) :
    iprop(owns (c : Thread nD τ) arg3 fullShare q ∗ owns (c : Thread nD τ) arg4 fullShare k ∗ owns (c : Thread nD τ) arg5 fullShare v
          ∗ owns (c : Thread nD τ) arg6 fullShare o
          ∗ owns (c : Thread nD τ) arg7 fullShare s.1 ∗ owns (c : Thread nD τ) arg8 fullShare s.2.1 ∗ owns (c : Thread nD τ) arg9 fullShare s.2.2
          ∗ (iprop(owns (c : Thread nD τ) arg3 fullShare q ∗ owns (c : Thread nD τ) arg4 fullShare k ∗ owns (c : Thread nD τ) arg5 fullShare v
              ∗ owns (c : Thread nD τ) arg6 fullShare (outOf (stDiag (BitVec.ofNat 32 (i 1).val) (BitVec.ofNat 32 (i 2).val) q k v s))
              ∗ owns (c : Thread nD τ) arg7 fullShare ((stDiag (BitVec.ofNat 32 (i 1).val) (BitVec.ofNat 32 (i 2).val) q k v s).1)
              ∗ owns (c : Thread nD τ) arg8 fullShare ((stDiag (BitVec.ofNat 32 (i 1).val) (BitVec.ofNat 32 (i 2).val) q k v s).2.1)
              ∗ owns (c : Thread nD τ) arg9 fullShare ((stDiag (BitVec.ofNat 32 (i 1).val) (BitVec.ofNat 32 (i 2).val) q k v s).2.2)) -∗ K ⟨⟩))
        ⊢ wp frame (wpE (defs₀ (F := F)) Variants.none c none) E
            (cc1__attn_kernel i arg3 harg3 arg4 harg4 arg5 harg5 arg6 harg6 arg7 harg7 arg8 harg8 arg9 harg9) K := by
  simp only [cc1__attn_kernel_eq_skeleton]; unfold cc1__attn_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg9.eq_unread hf9
  sl_exec (disch := first | exact h1 | exact h2 | exact h3 | exact h4)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    refine (read_writes_whole (S := S1x1024x64) _ _ zero3 _ _ _).trans ?_
    sl_unfold_run_names
    simp only [stInit, stBelow, stDiag, outOf,
        readAt_whole_unread (S := S1x1024x64) _ _ zero3, readAt_whole_unread (S := S1024x1) _ _ zero2,
        readAt_whole_unread (S := S1024x64) _ _ zero2, readCov_whole (S := S1024x1) _ zero2,
        readCov_whole (S := S1024x64) _ zero2, readCov_whole (S := S1x1024x64) _ zero3] <;> rfl
  isplitl [H7]
  · iexists _; isplitr
    swap; · iexact H7
    ipureintro
    refine (read_writes_whole (S := S1024x1) _ _ zero2 _ _ _).trans ?_
    sl_unfold_run_names
    simp only [stInit, stBelow, stDiag, outOf,
        readAt_whole_unread (S := S1x1024x64) _ _ zero3, readAt_whole_unread (S := S1024x1) _ _ zero2,
        readAt_whole_unread (S := S1024x64) _ _ zero2, readCov_whole (S := S1024x1) _ zero2,
        readCov_whole (S := S1024x64) _ zero2, readCov_whole (S := S1x1024x64) _ zero3] <;> rfl
  isplitl [H8]
  · iexists _; isplitr
    swap; · iexact H8
    ipureintro
    refine (read_writes_whole (S := S1024x1) _ _ zero2 _ _ _).trans ?_
    sl_unfold_run_names
    simp only [stInit, stBelow, stDiag, outOf,
        readAt_whole_unread (S := S1x1024x64) _ _ zero3, readAt_whole_unread (S := S1024x1) _ _ zero2,
        readAt_whole_unread (S := S1024x64) _ _ zero2, readCov_whole (S := S1024x1) _ zero2,
        readCov_whole (S := S1024x64) _ zero2, readCov_whole (S := S1x1024x64) _ zero3] <;> rfl
  iexists _; isplitr
  swap; · iexact H9
  ipureintro
  refine (read_writes_whole (S := S1024x64) _ _ zero2 _ _ _).trans ?_
  sl_unfold_run_names
  simp only [stInit, stBelow, stDiag, outOf,
      readAt_whole_unread (S := S1x1024x64) _ _ zero3, readAt_whole_unread (S := S1024x1) _ _ zero2,
      readAt_whole_unread (S := S1024x64) _ _ zero2, readCov_whole (S := S1024x1) _ zero2,
      readCov_whole (S := S1024x64) _ zero2, readCov_whole (S := S1x1024x64) _ zero3] <;> rfl

set_option maxHeartbeats 1000000 in
/-- A key tile above the diagonal that is not the last: nothing is stored. -/
theorem run_none (c : Dev nD) (E : Set ℕ) (i : grid1.Coords)
    (arg3 : Memref sig .tc .vmem S1x1024x64 .bf16) (harg3 : arg3.IsWhole) (arg4 : Memref sig .tc .vmem S1x1024x64 .bf16) (harg4 : arg4.IsWhole)
    (arg5 : Memref sig .tc .vmem S1x1024x64 .bf16) (harg5 : arg5.IsWhole) (arg6 : Memref sig .tc .vmem S1x1024x64 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x64 .f32) (harg9 : arg9.IsWhole)
    (q k v : Vec F S1x1024x64 .bf16) (o : Vec F S1x1024x64 .f32) (s : St F) (K : PUnit → sProp 𝕄)
    (h1 : ¬ cnd1 i) (h2 : ¬ cnd2 i) (h3 : ¬ cnd3 i) (h4 : ¬ cnd4 i) :
    iprop(owns (c : Thread nD τ) arg3 fullShare q ∗ owns (c : Thread nD τ) arg4 fullShare k ∗ owns (c : Thread nD τ) arg5 fullShare v
          ∗ owns (c : Thread nD τ) arg6 fullShare o
          ∗ owns (c : Thread nD τ) arg7 fullShare s.1 ∗ owns (c : Thread nD τ) arg8 fullShare s.2.1 ∗ owns (c : Thread nD τ) arg9 fullShare s.2.2
          ∗ (iprop(owns (c : Thread nD τ) arg3 fullShare q ∗ owns (c : Thread nD τ) arg4 fullShare k ∗ owns (c : Thread nD τ) arg5 fullShare v
              ∗ owns (c : Thread nD τ) arg6 fullShare (o)
              ∗ owns (c : Thread nD τ) arg7 fullShare (s.1)
              ∗ owns (c : Thread nD τ) arg8 fullShare (s.2.1)
              ∗ owns (c : Thread nD τ) arg9 fullShare (s.2.2)) -∗ K ⟨⟩))
        ⊢ wp frame (wpE (defs₀ (F := F)) Variants.none c none) E
            (cc1__attn_kernel i arg3 harg3 arg4 harg4 arg5 harg5 arg6 harg6 arg7 harg7 arg8 harg8 arg9 harg9) K := by
  simp only [cc1__attn_kernel_eq_skeleton]; unfold cc1__attn_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg9.eq_unread hf9
  sl_exec (disch := first | exact h1 | exact h2 | exact h3 | exact h4)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  iexists _; isplitr; · ipureintro; exact harg9.read_unread _
  iexact H9

set_option maxHeartbeats 1000000 in
/-- The last key tile, above the diagonal: only the output block is stored. -/
theorem run_out (c : Dev nD) (E : Set ℕ) (i : grid1.Coords)
    (arg3 : Memref sig .tc .vmem S1x1024x64 .bf16) (harg3 : arg3.IsWhole) (arg4 : Memref sig .tc .vmem S1x1024x64 .bf16) (harg4 : arg4.IsWhole)
    (arg5 : Memref sig .tc .vmem S1x1024x64 .bf16) (harg5 : arg5.IsWhole) (arg6 : Memref sig .tc .vmem S1x1024x64 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x64 .f32) (harg9 : arg9.IsWhole)
    (q k v : Vec F S1x1024x64 .bf16) (o : Vec F S1x1024x64 .f32) (s : St F) (K : PUnit → sProp 𝕄)
    (h1 : ¬ cnd1 i) (h2 : ¬ cnd2 i) (h3 : ¬ cnd3 i) (h4 : cnd4 i) :
    iprop(owns (c : Thread nD τ) arg3 fullShare q ∗ owns (c : Thread nD τ) arg4 fullShare k ∗ owns (c : Thread nD τ) arg5 fullShare v
          ∗ owns (c : Thread nD τ) arg6 fullShare o
          ∗ owns (c : Thread nD τ) arg7 fullShare s.1 ∗ owns (c : Thread nD τ) arg8 fullShare s.2.1 ∗ owns (c : Thread nD τ) arg9 fullShare s.2.2
          ∗ (iprop(owns (c : Thread nD τ) arg3 fullShare q ∗ owns (c : Thread nD τ) arg4 fullShare k ∗ owns (c : Thread nD τ) arg5 fullShare v
              ∗ owns (c : Thread nD τ) arg6 fullShare (outOf (s))
              ∗ owns (c : Thread nD τ) arg7 fullShare (s.1)
              ∗ owns (c : Thread nD τ) arg8 fullShare (s.2.1)
              ∗ owns (c : Thread nD τ) arg9 fullShare (s.2.2)) -∗ K ⟨⟩))
        ⊢ wp frame (wpE (defs₀ (F := F)) Variants.none c none) E
            (cc1__attn_kernel i arg3 harg3 arg4 harg4 arg5 harg5 arg6 harg6 arg7 harg7 arg8 harg8 arg9 harg9) K := by
  simp only [cc1__attn_kernel_eq_skeleton]; unfold cc1__attn_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg9.eq_unread hf9
  sl_exec (disch := first | exact h1 | exact h2 | exact h3 | exact h4)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    refine (read_writes_whole (S := S1x1024x64) _ _ zero3 _ _ _).trans ?_
    sl_unfold_run_names
    simp only [stInit, stBelow, stDiag, outOf,
        readAt_whole_unread (S := S1x1024x64) _ _ zero3, readAt_whole_unread (S := S1024x1) _ _ zero2,
        readAt_whole_unread (S := S1024x64) _ _ zero2, readCov_whole (S := S1024x1) _ zero2,
        readCov_whole (S := S1024x64) _ zero2, readCov_whole (S := S1x1024x64) _ zero3] <;> rfl
  isplitl [H7]
  · iexists _; isplitr; · ipureintro; exact harg7.read_unread _
    iexact H7
  isplitl [H8]
  · iexists _; isplitr; · ipureintro; exact harg8.read_unread _
    iexact H8
  iexists _; isplitr; · ipureintro; exact harg9.read_unread _
  iexact H9

/-- The four conditionals in closed form over the point's number `t = 16·b + 4·qi + ki`, decided over the grid. -/
theorem hcnd1 : ∀ t : Fin cfg1.N, cnd1 (grid1.coords t) ↔ t.val % 4 = 0 :=
  (by decide +kernel : ∀ t : Fin grid1.N, cnd1 (grid1.coords t) ↔ t.val % 4 = 0)
theorem hcnd2 : ∀ t : Fin cfg1.N, cnd2 (grid1.coords t) ↔ t.val % 4 < (t.val / 4) % 4 :=
  (by decide +kernel : ∀ t : Fin grid1.N, cnd2 (grid1.coords t) ↔ t.val % 4 < (t.val / 4) % 4)
theorem hcnd3 : ∀ t : Fin cfg1.N, cnd3 (grid1.coords t) ↔ t.val % 4 = (t.val / 4) % 4 :=
  (by decide +kernel : ∀ t : Fin grid1.N, cnd3 (grid1.coords t) ↔ t.val % 4 = (t.val / 4) % 4)
theorem hcnd4 : ∀ t : Fin cfg1.N, cnd4 (grid1.coords t) ↔ t.val % 4 = 3 :=
  (by decide +kernel : ∀ t : Fin grid1.N, cnd4 (grid1.coords t) ↔ t.val % 4 = 3)

open Classical in
set_option maxHeartbeats 1000000 in
/-- The body at grid point `t`, uniformly: the four conditionals are decided from the point's number, which leaves
    seven cases (the other nine combinations contradict the closed forms), each one of the runs above. -/
theorem sound_attn (c : Dev nD) (E : Set ℕ) (t : Fin cfg1.N)
    (arg3 : Memref sig .tc .vmem S1x1024x64 .bf16) (harg3 : arg3.IsWhole) (arg4 : Memref sig .tc .vmem S1x1024x64 .bf16) (harg4 : arg4.IsWhole)
    (arg5 : Memref sig .tc .vmem S1x1024x64 .bf16) (harg5 : arg5.IsWhole) (arg6 : Memref sig .tc .vmem S1x1024x64 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x64 .f32) (harg9 : arg9.IsWhole)
    (q k v : Vec F S1x1024x64 .bf16) (o : Vec F S1x1024x64 .f32) (s : St F) (K : PUnit → sProp 𝕄) :
    iprop(owns (c : Thread nD τ) arg3 fullShare q ∗ owns (c : Thread nD τ) arg4 fullShare k ∗ owns (c : Thread nD τ) arg5 fullShare v
          ∗ owns (c : Thread nD τ) arg6 fullShare o
          ∗ owns (c : Thread nD τ) arg7 fullShare s.1 ∗ owns (c : Thread nD τ) arg8 fullShare s.2.1 ∗ owns (c : Thread nD τ) arg9 fullShare s.2.2
          ∗ (iprop(owns (c : Thread nD τ) arg3 fullShare q ∗ owns (c : Thread nD τ) arg4 fullShare k ∗ owns (c : Thread nD τ) arg5 fullShare v
              ∗ owns (c : Thread nD τ) arg6 fullShare (if cnd4 (grid1.coords t) then outOf (stepSt (grid1.coords t) q k v s) else o)
              ∗ owns (c : Thread nD τ) arg7 fullShare (stepSt (grid1.coords t) q k v s).1
              ∗ owns (c : Thread nD τ) arg8 fullShare (stepSt (grid1.coords t) q k v s).2.1
              ∗ owns (c : Thread nD τ) arg9 fullShare (stepSt (grid1.coords t) q k v s).2.2) -∗ K ⟨⟩))
        ⊢ wp frame (wpE (defs₀ (F := F)) Variants.none c none) E
            (cc1__attn_kernel (grid1.coords t) arg3 harg3 arg4 harg4 arg5 harg5 arg6 harg6 arg7 harg7 arg8 harg8 arg9 harg9) K := by
  have hN : t.val < 64 := lt_of_lt_of_eq t.isLt Gen.N_1
  have e1 := hcnd1 t; have e2 := hcnd2 t; have e3 := hcnd3 t; have e4 := hcnd4 t
  by_cases h1 : cnd1 (grid1.coords t)
  · by_cases h2 : cnd2 (grid1.coords t)
    · by_cases h3 : cnd3 (grid1.coords t)
      · by_cases h4 : cnd4 (grid1.coords t)
        · exfalso; rw [e1] at h1; rw [e2] at h2; rw [e3] at h3; rw [e4] at h4; omega
        · exfalso; rw [e1] at h1; rw [e2] at h2; rw [e3] at h3; rw [e4] at h4; omega
      · by_cases h4 : cnd4 (grid1.coords t)
        · exfalso; rw [e1] at h1; rw [e2] at h2; rw [e3] at h3; rw [e4] at h4; omega
        · simp only [stepSt, if_pos h1, if_pos h2, if_neg h3, if_neg h4]
          exact run_reset_below c E _ arg3 harg3 arg4 harg4 arg5 harg5 arg6 harg6 arg7 harg7 arg8 harg8 arg9 harg9 q k v o s K h1 h2 h3 h4
    · by_cases h3 : cnd3 (grid1.coords t)
      · by_cases h4 : cnd4 (grid1.coords t)
        · exfalso; rw [e1] at h1; rw [e2] at h2; rw [e3] at h3; rw [e4] at h4; omega
        · simp only [stepSt, if_pos h1, if_neg h2, if_pos h3, if_neg h4]
          exact run_reset_diag c E _ arg3 harg3 arg4 harg4 arg5 harg5 arg6 harg6 arg7 harg7 arg8 harg8 arg9 harg9 q k v o s K h1 h2 h3 h4
      · by_cases h4 : cnd4 (grid1.coords t)
        · exfalso; rw [e1] at h1; rw [e2] at h2; rw [e3] at h3; rw [e4] at h4; omega
        · exfalso; rw [e1] at h1; rw [e2] at h2; rw [e3] at h3; rw [e4] at h4; omega
  · by_cases h2 : cnd2 (grid1.coords t)
    · by_cases h3 : cnd3 (grid1.coords t)
      · by_cases h4 : cnd4 (grid1.coords t)
        · exfalso; rw [e1] at h1; rw [e2] at h2; rw [e3] at h3; rw [e4] at h4; omega
        · exfalso; rw [e1] at h1; rw [e2] at h2; rw [e3] at h3; rw [e4] at h4; omega
      · by_cases h4 : cnd4 (grid1.coords t)
        · exfalso; rw [e1] at h1; rw [e2] at h2; rw [e3] at h3; rw [e4] at h4; omega
        · simp only [stepSt, if_neg h1, if_pos h2, if_neg h3, if_neg h4]
          exact run_below c E _ arg3 harg3 arg4 harg4 arg5 harg5 arg6 harg6 arg7 harg7 arg8 harg8 arg9 harg9 q k v o s K h1 h2 h3 h4
    · by_cases h3 : cnd3 (grid1.coords t)
      · by_cases h4 : cnd4 (grid1.coords t)
        · simp only [stepSt, if_neg h1, if_neg h2, if_pos h3, if_pos h4]
          exact run_diag_out c E _ arg3 harg3 arg4 harg4 arg5 harg5 arg6 harg6 arg7 harg7 arg8 harg8 arg9 harg9 q k v o s K h1 h2 h3 h4
        · simp only [stepSt, if_neg h1, if_neg h2, if_pos h3, if_neg h4]
          exact run_diag c E _ arg3 harg3 arg4 harg4 arg5 harg5 arg6 harg6 arg7 harg7 arg8 harg8 arg9 harg9 q k v o s K h1 h2 h3 h4
      · by_cases h4 : cnd4 (grid1.coords t)
        · simp only [stepSt, if_neg h1, if_neg h2, if_neg h3, if_pos h4]
          exact run_out c E _ arg3 harg3 arg4 harg4 arg5 harg5 arg6 harg6 arg7 harg7 arg8 harg8 arg9 harg9 q k v o s K h1 h2 h3 h4
        · simp only [stepSt, if_neg h1, if_neg h2, if_neg h3, if_neg h4]
          exact run_none c E _ arg3 harg3 arg4 harg4 arg5 harg5 arg6 harg6 arg7 harg7 arg8 harg8 arg9 harg9 q k v o s K h1 h2 h3 h4

end Cert.KernelIdeal.Hand

end
-- ==== Proof.KI.R1.lean ====
/-
  The attention pallas_call as one region of a several-region run, at the contents `V` the region is entered with:
  what the three carried scratch buffers hold after each grid point (`stAt`: the body's transition `stepSt` iterated along
  the grid's order, which runs the key tiles innermost), the region's invariant between points (the scratch at `stAt`
  of the point before; before the first point at anything), the proof data, and the body obligation at every point.
  The output block is stored only at the last key tile of each query tile and written back there; at every other
  point its buffer is handed back as it was found.
-/
import proofs.«150456_j65506841199208_2_alg».proof.Proof.KI.Step
import proofs.«150456_j65506841199208_2_alg».proof.Proof.KI.R1Body
import proofs.«150456_j65506841199208_2_alg».proof.Proof.Gen.KernelIdeal.Launch
import proofs.«150456_j65506841199208_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, the block
    index has not moved): for any proof data over `V`'s arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The memrefs the body is called with -/

abbrev ms1_0 (t : Fin cfg1.N) : Memref sig .tc .vmem S1x1024x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x64 .f32 := win1_3.stage (cfg1.slots t 3)
abbrev hs1_3 (t : Fin cfg1.N) : (ms1_3 t).IsWhole := hstage1_3 ((cfg1.slots t 3).cast nbuf1_3)
/-- The three scratch operands: whole scoped buffers of the kernel's own. -/
abbrev sc0 : Memref sig .tc .vmem S1024x1 .f32 := Memref.whole cc1_scratch0
abbrev sc1 : Memref sig .tc .vmem S1024x1 .f32 := Memref.whole cc1_scratch1
abbrev sc2 : Memref sig .tc .vmem S1024x64 .f32 := Memref.whole cc1_scratch2

/-! ## The carried state, point by point -/

/-- What the three scratch buffers hold after the body at position `n` of the grid's order: the body's transition at the
    point's coordinates and input blocks, from what the position before left (at the first position the state is reset
    whatever it was, so the start value is immaterial: the reset state is written). -/
def stAt (c : Dev nD) : (n : ℕ) → n < cfg1.N → St F
  | 0, hn => stepSt (grid1.coords ⟨0, hn⟩) (iblk1 V c 0 ⟨0, hn⟩) (iblk1 V c 1 ⟨0, hn⟩) (iblk1 V c 2 ⟨0, hn⟩) stInit
  | n + 1, hn => stepSt (grid1.coords ⟨n + 1, hn⟩) (iblk1 V c 0 ⟨n + 1, hn⟩) (iblk1 V c 1 ⟨n + 1, hn⟩) (iblk1 V c 2 ⟨n + 1, hn⟩)
      (stAt c n (Nat.lt_of_succ_lt hn))

theorem stAt_zero (c : Dev nD) (t : Fin cfg1.N) (h : t.val = 0) :
    stAt V c t.val t.isLt = stepSt (grid1.coords t) (iblk1 V c 0 t) (iblk1 V c 1 t) (iblk1 V c 2 t) stInit := by
  obtain ⟨n, hn⟩ := t
  cases n with
  | zero => rfl
  | succ n => exact absurd h (Nat.succ_ne_zero n)

theorem stAt_pos (c : Dev nD) (t : Fin cfg1.N) (h : t.val ≠ 0) :
    stAt V c t.val t.isLt = stepSt (grid1.coords t) (iblk1 V c 0 t) (iblk1 V c 1 t) (iblk1 V c 2 t)
      (stAt V c (t.val - 1) (Nat.lt_of_le_of_lt (Nat.sub_le _ _) t.isLt)) := by
  obtain ⟨n, hn⟩ := t
  cases n with
  | zero => exact absurd rfl h
  | succ n => rfl

/-! ## The region's invariant between points -/

/-- Before the first point: every scoped buffer that is no staging buffer of this call at anything, and the generator
    register at some state. Afterwards: the same with the three scratch buffers at what the point before left. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ owns (c : Thread nD τ) sc0 fullShare (stAt V c n hn).1
      ∗ owns (c : Thread nD τ) sc1 fullShare (stAt V c n hn).2.1
      ∗ owns (c : Thread nD τ) sc2 fullShare (stAt V c n hn).2.2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ owns (c : Thread nD τ) sc0 fullShare (stAt V c n hn).1
      ∗ owns (c : Thread nD τ) sc1 fullShare (stAt V c n hn).2.1
      ∗ owns (c : Thread nD τ) sc2 fullShare (stAt V c n hn).2.2) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ owns (c : Thread nD τ) sc0 fullShare (stAt V c (n - 1) (by omega)).1
      ∗ owns (c : Thread nD τ) sc1 fullShare (stAt V c (n - 1) (by omega)).2.1
      ∗ owns (c : Thread nD τ) sc2 fullShare (stAt V c (n - 1) (by omega)).2.2) ∗ (∃ r, prngReg c r)) := by
  cases n with
  | zero => exact absurd rfl hz
  | succ n => rfl

/-- The class invariant with the scratch operands as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ d, owns (c : Thread nD τ) sc0 fullShare d)
      ∗ (∃ d, owns (c : Thread nD τ) sc1 fullShare d)
      ∗ (∃ d, owns (c : Thread nD τ) sc2 fullShare d)) ∗ (∃ r, prngReg c r)) := by
  unfold Pipeline.ΦA; rw [scopedRest1_eq]; simp only [sc0, sc1, sc2, owns_whole]; try rfl

/-! ## The proof data -/

/-- The proof data of the attention pipeline on core `c`: the arrays as the region finds them; after the body at point
    `t` each input's buffer at its block and the output's at the block the state after `t` gives (consulted only where the
    block is stored and written back: the last key tile); the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outOf (stAt V c t.val t.isLt)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outOf (stAt V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## Where the output window is idle -/

/-- The inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- The output is live exactly at the last key tile's points, where it is written back; -/
theorem liveAt1_3 : ∀ t : Fin cfg1.N, t.val % 4 = 3 → cfg1.idle 3 (grid1.coords t) = false :=
  (by decide +kernel : ∀ t : Fin grid1.N, t.val % 4 = 3 → idle1 3 (grid1.coords t) = false)
/-- elsewhere it is idle and not written back. -/
theorem idleAt1_3 : ∀ t : Fin cfg1.N, ¬ t.val % 4 = 3 → cfg1.idle 3 (grid1.coords t) = true :=
  (by decide +kernel : ∀ t : Fin grid1.N, ¬ t.val % 4 = 3 → idle1 3 (grid1.coords t) = true)
theorem noFlush1_3 : ∀ t : Fin cfg1.N, ¬ t.val % 4 = 3 → (cfg1.win 3).flush t = false :=
  (by decide +kernel : ∀ t : Fin grid1.N, ¬ t.val % 4 = 3 → win1_3.flush t = false)

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

open Classical in
set_option maxHeartbeats 4000000 in
/-- The body at any point. The inputs' buffers hold their blocks; the invariant hands the body the three scratch buffers at
    what the point before left (at anything at the first point, where the body resets them); the body's one triple gives
    them back at this point's state, the output's buffer at the stored block where the last key tile's conditional holds
    and untouched elsewhere; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h4 : t.val % 4 = 3
  · -- the last key tile: the output block is stored, and written back
    have hc4 : cnd4 (grid1.coords t) := (hcnd4 t).mpr h4
    have hz : t.val ≠ 0 := by omega
    rw [show (dat1 V c).leavesExact 3 t = owns (c : Thread nD τ) (ms1_3 t) fullShare ((dat1 V c).after 3 t) from by
      unfold Dat.leavesExact; rw [liveAt1_3 t h4], after1_3]
    rw [stAt_pos V c t hz, PhiS_castSucc V c t, PhiS_pos V c _ _ hz]
    iintro ⟨⟨⟨E0, E1, E2, E3, E4, HS0, HS1, HS2⟩, Hg⟩, Ho, ⟨%d0, H0⟩, ⟨%d1, H1⟩, ⟨%d2, H2⟩, ⟨%d3, H3⟩⟩
    iapply (sound_attn c Set.univ t (ms1_0 t) (hs1_0 t) (ms1_1 t) (hs1_1 t) (ms1_2 t) (hs1_2 t) (ms1_3 t) (hs1_3 t)
      sc0 (Memref.isWhole_whole _) sc1 (Memref.isWhole_whole _) sc2 (Memref.isWhole_whole _)
      (iblk1 V c 0 t) (iblk1 V c 1 t) (iblk1 V c 2 t) _ (stAt V c (t.val - 1) (Nat.lt_of_le_of_lt (Nat.sub_le _ _) t.isLt)) _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    rw [if_pos hc4]
    iintro ⟨H0, H1, H2, H3, HS0, HS1, HS2⟩
    isplitl [E0 E1 E2 E3 E4 HS0 HS1 HS2 Hg]
    · isplitr [Hg]
      · isplitl [E0]; · iexact E0
        isplitl [E1]; · iexact E1
        isplitl [E2]; · iexact E2
        isplitl [E3]; · iexact E3
        isplitl [E4]; · iexact E4
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    iexact H3
  · -- any other point: the output's buffer is handed back as found
    have hc4 : ¬ cnd4 (grid1.coords t) := fun h => h4 ((hcnd4 t).mp h)
    rw [Dat.leavesExact_idle (dat1 V c) 3 t (idleAt1_3 t h4) (noFlush1_3 t h4)]
    by_cases hz : t.val = 0
    · -- the first point: the scratch buffers hold anything, and the body resets them
      have hc1 : cnd1 (grid1.coords t) := (hcnd1 t).mpr (by omega)
      rw [stAt_zero V c t hz, PhiS_castSucc V c t, PhiS_zero V c _ _ hz, PhiA1_eq]
      iintro ⟨⟨⟨E0, E1, E2, E3, E4, ⟨%e0, HS0⟩, ⟨%e1, HS1⟩, ⟨%e2, HS2⟩⟩, Hg⟩, Ho, ⟨%d0, H0⟩, ⟨%d1, H1⟩, ⟨%d2, H2⟩, ⟨%d3, H3⟩⟩
      iapply (sound_attn c Set.univ t (ms1_0 t) (hs1_0 t) (ms1_1 t) (hs1_1 t) (ms1_2 t) (hs1_2 t) (ms1_3 t) (hs1_3 t)
        sc0 (Memref.isWhole_whole _) sc1 (Memref.isWhole_whole _) sc2 (Memref.isWhole_whole _)
        (iblk1 V c 0 t) (iblk1 V c 1 t) (iblk1 V c 2 t) _ (e0, e1, e2) _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      rw [if_neg hc4, stepSt_of_cnd1 (grid1.coords t) (iblk1 V c 0 t) (iblk1 V c 1 t) (iblk1 V c 2 t) (e0, e1, e2) stInit hc1]
      iintro ⟨H0, H1, H2, H3, HS0, HS1, HS2⟩
      isplitl [E0 E1 E2 E3 E4 HS0 HS1 HS2 Hg]
      · isplitr [Hg]
        · isplitl [E0]; · iexact E0
          isplitl [E1]; · iexact E1
          isplitl [E2]; · iexact E2
          isplitl [E3]; · iexact E3
          isplitl [E4]; · iexact E4
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexists _; iexact H3
    · rw [stAt_pos V c t hz, PhiS_castSucc V c t, PhiS_pos V c _ _ hz]
      iintro ⟨⟨⟨E0, E1, E2, E3, E4, HS0, HS1, HS2⟩, Hg⟩, Ho, ⟨%d0, H0⟩, ⟨%d1, H1⟩, ⟨%d2, H2⟩, ⟨%d3, H3⟩⟩
      iapply (sound_attn c Set.univ t (ms1_0 t) (hs1_0 t) (ms1_1 t) (hs1_1 t) (ms1_2 t) (hs1_2 t) (ms1_3 t) (hs1_3 t)
        sc0 (Memref.isWhole_whole _) sc1 (Memref.isWhole_whole _) sc2 (Memref.isWhole_whole _)
        (iblk1 V c 0 t) (iblk1 V c 1 t) (iblk1 V c 2 t) _ (stAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      rw [if_neg hc4]
      iintro ⟨H0, H1, H2, H3, HS0, HS1, HS2⟩
      isplitl [E0 E1 E2 E3 E4 HS0 HS1 HS2 Hg]
      · isplitr [Hg]
        · isplitl [E0]; · iexact E0
          isplitl [E1]; · iexact E1
          isplitl [E2]; · iexact E2
          isplitl [E3]; · iexact E3
          isplitl [E4]; · iexact E4
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class invariant back: the scratch buffers' named contents are forgotten. -/
theorem hout1 (c : Dev nD) : (dat1 V c).Φ (Fin.last cfg1.N) ⊢ Pipeline.ΦA spec1 c := by
  have hN : cfg1.N = 64 := N_1
  rw [show (dat1 V c).Φ (Fin.last cfg1.N) = PhiS V c (Fin.last cfg1.N).val (Nat.le_of_lt_succ (Fin.last cfg1.N).isLt) from rfl,
    PhiS_pos V c _ _ (by rw [Fin.val_last]; omega), PhiA1_eq]
  iintro ⟨⟨E0, E1, E2, E3, E4, HS0, HS1, HS2⟩, Hg⟩
  isplitr [Hg]
  · isplitl [E0]; · iexact E0
    isplitl [E1]; · iexact E1
    isplitl [E2]; · iexact E2
    isplitl [E3]; · iexact E3
    isplitl [E4]; · iexact E4
    isplitl [HS0]; · iexists _; iexact HS0
    isplitl [HS1]; · iexists _; iexact HS1
    iexists _; iexact HS2
  iexact Hg

end Cert.KernelIdeal.Hand

end
-- ==== Proof.KI.Run.lean ====
/-
  The whole run of the program, generic in the float instance: @main is a host stretch (the three weight matrices
  concatenated), the projection pallas_call, a host stretch (the projected array sliced into q, k, v), the attention
  pallas_call. The buffer contents at each of the five boundaries are a fold from the launch memory: a host stretch
  applies its operations; a pallas_call leaves each of its arrays at what the pipeline's write-backs leave
  (an input as entered) and every other buffer as entered. Each pallas_call is a segment over the thread state "every unscoped
  buffer at the boundary's contents, the generator register at some state, nothing owed", built from its body obligation.
  The run ends with the result buffer at the last boundary's contents and the four arguments as launched.
-/
import proofs.«150456_j65506841199208_2_alg».proof.Proof.KI.R0
import proofs.«150456_j65506841199208_2_alg».proof.Proof.KI.R1
import proofs.«150456_j65506841199208_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the concatenation (the projection's entry). -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- At the projection's exit. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After the slicing (the attention's entry). -/
abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b
/-- At the attention's exit. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)

/-! ### The arguments end as launched -/

/-- A buffer no operation of the first stretch writes keeps its launch contents through it. -/
theorem W1_keep (c : Dev nD) (r : Ref sig .tc) (h : r ∉ hostOps0_W) : W1 m ρ c (Proc.devRef .tc r) = W0 m ρ c (Proc.devRef .tc r) :=
  StableHlo.after_of_writes_sub hostOps0 _ hostOps0_writes h
/-- A buffer no operation of the second stretch writes keeps its contents through it. -/
theorem W3_keep (c : Dev nD) (r : Ref sig .tc) (h : r ∉ hostOps1_W) : W3 m ρ c (Proc.devRef .tc r) = W2 m ρ c (Proc.devRef .tc r) :=
  StableHlo.after_of_writes_sub hostOps1 _ hostOps1_writes h

/-- The activations are the projection's input window: the pipeline leaves an input's array as entered. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_keep m ρ c main_arg0 (by decide)
    _ = W1 m ρ c (Proc.devRef .tc main_arg0) := (W2_arr m ρ c 0).trans (((dat0 (U1 m ρ) c).arrAt_in 0 rfl _).trans (A_eq0 (U1 m ρ) c 0))
    _ = W0 m ρ c (Proc.devRef .tc main_arg0) := W1_keep m ρ c main_arg0 (by decide)
    _ = m ((c : Thread nD τ).loc main_arg0) := rfl
/-- A weight matrix is read by the concatenation only: no pallas_call stages it and no host operation writes it. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_keep m ρ c main_arg1 (by decide)
    _ = W1 m ρ c (Proc.devRef .tc main_arg1) := W2_of_ne m ρ c main_arg1 (by decide)
    _ = W0 m ρ c (Proc.devRef .tc main_arg1) := W1_keep m ρ c main_arg1 (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_keep m ρ c main_arg2 (by decide)
    _ = W1 m ρ c (Proc.devRef .tc main_arg2) := W2_of_ne m ρ c main_arg2 (by decide)
    _ = W0 m ρ c (Proc.devRef .tc main_arg2) := W1_keep m ρ c main_arg2 (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_keep m ρ c main_arg3 (by decide)
    _ = W1 m ρ c (Proc.devRef .tc main_arg3) := W2_of_ne m ρ c main_arg3 (by decide)
    _ = W0 m ρ c (Proc.devRef .tc main_arg3) := W1_keep m ρ c main_arg3 (by decide)
    _ = m ((c : Thread nD τ).loc main_arg3) := rfl

/-! ## The proof data family and the thread state -/

/-- Both pipelines' proof data, each at its region's entry contents: a literal match on the pipeline. -/
def pdats : (p : Fin 2) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U3 m ρ) c
abbrev 𝒱₀ : Variants := Variants.none
abbrev Lz : GSem nD τ sig → Finset Unit := fun _ => ∅
abbrev lvz : GSem nD τ sig → Unit → ℕ := fun _ _ => 0
/-- What rides beside the buffers through every segment: the generator register at some state, and nothing owed. -/
abbrev Rr (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (W4 m ρ c) ∗ ∃ r, prngReg c r)

/-! ## The two pallas_calls as segments -/

set_option backward.isDefEq.respectTransparency.types false in
/-- The projection over the thread state: entered from every unscoped buffer at `W1`, left at `W2`. -/
def reg0 : Pipeline.RegionSeg (pcfgs (F := F)) adm (pdats m ρ) () defs₀ 𝒱₀ Lz lvz 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ Lz lvz 0 fun _ _ => rfl
  pre c := iprop(StableHlo.held (c : Thread nD τ) (Pipeline.ucRefs τ sig) (W1 m ρ c) ∗ Rr c)
  post c := iprop(StableHlo.held (c : Thread nD τ) (Pipeline.ucRefs τ sig) (W2 m ρ c) ∗ Rr c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention over the thread state: entered from every unscoped buffer at `W3`, left at `W4`. Its invariant takes the
    generator register and the scoped buffers it does not stage in, and gives them back (the scratch buffers' contents
    forgotten) after the last point. -/
def reg1 : Pipeline.RegionSeg (pcfgs (F := F)) adm (pdats m ρ) () defs₀ 𝒱₀ Lz lvz 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ Lz lvz 1 fun _ _ => rfl
  pre c := iprop(StableHlo.held (c : Thread nD τ) (Pipeline.ucRefs τ sig) (W3 m ρ c) ∗ Rr c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = (dat1 (U3 m ρ) c).Φ (Fin.last cfg1.N) from rfl]
    have h := hout1 (U3 m ρ) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ Lz lvz) :=
  [ .host (hseg hostOps0 hostOps0_sub hostOps0_fresh (W0 m ρ)),
    .region (reg0 m ρ),
    .host (hseg hostOps1 hostOps1_sub hostOps1_fresh (W2 m ρ)),
    .region (reg1 m ρ) ]
/-- @main is the run of the segments. -/
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting, with
    the result buffer at the last boundary's contents and the four argument arrays as launched. -/
theorem run_main : θ_run defs (onTc (τ := τ) (main (F := F))) ⟨m, fun _ => 0, ρ⟩ (fun r => ∀ c : Dev nD,
      r.2.mem ((c.tc : Thread nD τ).loc main_v5) = W4 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ Lz lvz m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rr c)) (Tₙ := Tend m ρ)
    (hch := ⟨fun _ => .rfl, fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v5 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.KernelIdeal.Hand

end
-- ==== Proof.KI.R1Array.lean ====
/-
  The attention pipeline's blocks read at an index of their arrays, and its output array put together from the
  blocks the last key tile of every query tile writes back.
-/
import proofs.«150456_j65506841199208_2_alg».proof.Proof.KI.R1
import Idealize.ShloMosaic.Lib.ValueIdx
import Idealize.ShloMosaic.Lib.Pipeline.Value

noncomputable section

namespace Cert.KernelIdeal.Hand

open Cert.KernelIdeal Cert.KernelIdeal.Gen Idealize.ShloMosaic Idealize.ShloMosaic.ValueIdx
open Idealize.ShloMosaic.TcCoe Idealize.SL.Sem

/-! ## The printed index maps, decided over the grid -/

/-- At point t = 16·b + 4·qi + ki the query and output windows sit at block (b, qi, 0), the key and value windows at
    block (b, min ki qi, 0). -/
theorem idx_facts1 : ∀ t : Fin cfg1.N,
    win1_0.index t (0 : Fin 3) = t.val / 16 ∧ win1_0.index t (1 : Fin 3) = (t.val / 4) % 4 ∧ win1_0.index t (2 : Fin 3) = 0
    ∧ win1_1.index t (0 : Fin 3) = t.val / 16 ∧ win1_1.index t (1 : Fin 3) = min (t.val % 4) ((t.val / 4) % 4) ∧ win1_1.index t (2 : Fin 3) = 0
    ∧ win1_2.index t (0 : Fin 3) = t.val / 16 ∧ win1_2.index t (1 : Fin 3) = min (t.val % 4) ((t.val / 4) % 4) ∧ win1_2.index t (2 : Fin 3) = 0
    ∧ win1_3.index t (0 : Fin 3) = t.val / 16 ∧ win1_3.index t (1 : Fin 3) = (t.val / 4) % 4 ∧ win1_3.index t (2 : Fin 3) = 0 :=
  (by decide +kernel : ∀ t : Fin grid1.N, _)

/-! ## The input blocks at an index -/

section Blocks
variable {F : FTy → Type} [FloatOps F] [Named F]
variable (V : (c : Dev nD) → (b : Ref sig .tc) → Buf (Elt F) ((c : Thread nD τ).loc b))

/-- Row r, column e of the query block at point t is row qi·1024 + r of batch b of the query array. -/
theorem iblk1_0_apply (c : Dev nD) (t : Fin cfg1.N) (r : Fin 1024) (e : Fin 64) (b : Fin 4) (n : Fin 4096)
    (hb : b.val = t.val / 16) (hn : n.val = ((t.val / 4) % 4) * 1024 + r.val) :
    iblk1 V c 0 t (ix3 0 r e) = V c main_v2 (ix3 b n e) := by
  show V c main_v2 (((cfg1.win 0).blk t).view.emb (ix3 0 r e)) = V c main_v2 (ix3 b n e)
  refine congrArg (V c main_v2) ?_
  obtain ⟨e0, e1, e2, -⟩ := idx_facts1 t
  funext a; apply Fin.ext
  match a with
  | ⟨0, _⟩ => show win1_0.index t (0 : Fin 3) * 1 + 1 * 0 = b.val; omega
  | ⟨1, _⟩ => show win1_0.index t (1 : Fin 3) * 1024 + 1 * r.val = n.val; omega
  | ⟨2, _⟩ => show win1_0.index t (2 : Fin 3) * 64 + 1 * e.val = e.val; omega

/-- Row r, column e of the key block at point t is row (min ki qi)·1024 + r of batch b of the key array. -/
theorem iblk1_1_apply (c : Dev nD) (t : Fin cfg1.N) (r : Fin 1024) (e : Fin 64) (b : Fin 4) (n : Fin 4096)
    (hb : b.val = t.val / 16) (hn : n.val = (min (t.val % 4) ((t.val / 4) % 4)) * 1024 + r.val) :
    iblk1 V c 1 t (ix3 0 r e) = V c main_v3 (ix3 b n e) := by
  show V c main_v3 (((cfg1.win 1).blk t).view.emb (ix3 0 r e)) = V c main_v3 (ix3 b n e)
  refine congrArg (V c main_v3) ?_
  obtain ⟨-, -, -, e0, e1, e2, -⟩ := idx_facts1 t
  funext a; apply Fin.ext
  match a with
  | ⟨0, _⟩ => show win1_1.index t (0 : Fin 3) * 1 + 1 * 0 = b.val; omega
  | ⟨1, _⟩ => show win1_1.index t (1 : Fin 3) * 1024 + 1 * r.val = n.val; omega
  | ⟨2, _⟩ => show win1_1.index t (2 : Fin 3) * 64 + 1 * e.val = e.val; omega

/-- Row r, column e of the value block at point t is row (min ki qi)·1024 + r of batch b of the value array. -/
theorem iblk1_2_apply (c : Dev nD) (t : Fin cfg1.N) (r : Fin 1024) (e : Fin 64) (b : Fin 4) (n : Fin 4096)
    (hb : b.val = t.val / 16) (hn : n.val = (min (t.val % 4) ((t.val / 4) % 4)) * 1024 + r.val) :
    iblk1 V c 2 t (ix3 0 r e) = V c main_v4 (ix3 b n e) := by
  show V c main_v4 (((cfg1.win 2).blk t).view.emb (ix3 0 r e)) = V c main_v4 (ix3 b n e)
  refine congrArg (V c main_v4) ?_
  obtain ⟨-, -, -, -, -, -, e0, e1, e2, -⟩ := idx_facts1 t
  funext a; apply Fin.ext
  match a with
  | ⟨0, _⟩ => show win1_2.index t (0 : Fin 3) * 1 + 1 * 0 = b.val; omega
  | ⟨1, _⟩ => show win1_2.index t (1 : Fin 3) * 1024 + 1 * r.val = n.val; omega
  | ⟨2, _⟩ => show win1_2.index t (2 : Fin 3) * 64 + 1 * e.val = e.val; omega

end Blocks

/-! ## The output array from the blocks written back -/

section Output
variable (V : (c : Dev nD) → (b : Ref sig .tc) → Buf (Elt Ideal) ((c : Thread nD τ).loc b))

/-- An index of the output array is in point t's block iff each coordinate is in the block's range on its axis. -/
theorem mem_blk1_3 (t : Fin cfg1.N) (i : S4x4096x64.Idx) :
    i ∈ ((cfg1.win 3).blk t).view.set ↔ ∀ a : Fin 3, win1_3.index t a * S1x1024x64.size a ≤ (i a).val
      ∧ (i a).val < win1_3.index t a * S1x1024x64.size a + S1x1024x64.size a := by
  show i ∈ ((View.whole main_v5).slice (win1_3.rect t)).set ↔ _
  rw [View.set_slice_whole, Rect.mem_set_unit]
  exact Iff.rfl

/-- What a last-key-tile point writes back is its block of the whole-array function G, when the block the point's
    state gives is G there entry by entry. -/
theorem flushed1_3_eq (c : Dev nD) (G : S4x4096x64.Idx → EReal)
    (hblk : ∀ t : Fin cfg1.N, t.val % 4 = 3 → ∀ (r : Fin 1024) (h : Fin 64) (b : Fin 4) (n : Fin 4096),
      b.val = t.val / 16 → n.val = ((t.val / 4) % 4) * 1024 + r.val →
      (dat1 (F := Ideal) V c).after 3 t (ix3 0 r h) = G (ix3 b n h))
    (t : Fin cfg1.N) (ht : t.val % 4 = 3) :
    (dat1 (F := Ideal) V c).flushed 3 t = ((cfg1.win 3).blk t).view.read (Elt Ideal) G := by
  show (cfg1.win 3).cut (grid1.coords t) ((dat1 (F := Ideal) V c).after 3 t) = _
  have hN : t.val < 64 := Nat.lt_of_lt_of_eq t.isLt N_1
  funext j
  obtain ⟨j0, r, h, rfl⟩ : ∃ (j0 : Fin 1) (r : Fin 1024) (h : Fin 64), j = ix3 j0 r h :=
    ⟨j 0, j 1, j 2, eq_ix3 (n0 := 1) (n1 := 1024) (n2 := 64) j⟩
  obtain rfl : j0 = 0 := Subsingleton.elim _ _
  show (dat1 (F := Ideal) V c).after 3 t (ix3 0 r h) = G (((cfg1.win 3).blk t).view.emb (ix3 0 r h))
  refine (hblk t ht r h ⟨t.val / 16, by omega⟩ ⟨((t.val / 4) % 4) * 1024 + r.val, by omega⟩ rfl rfl).trans (congrArg G ?_)
  obtain ⟨-, -, -, -, -, -, -, -, -, e0, e1, e2⟩ := idx_facts1 t
  funext a; apply Fin.ext
  match a with
  | ⟨0, _⟩ => show t.val / 16 = win1_3.index t (0 : Fin 3) * 1 + 1 * 0; omega
  | ⟨1, _⟩ => show ((t.val / 4) % 4) * 1024 + r.val = win1_3.index t (1 : Fin 3) * 1024 + 1 * r.val; omega
  | ⟨2, _⟩ => show h.val = win1_3.index t (2 : Fin 3) * 64 + 1 * h.val; omega

/-- Every index of the output array is in the block of a point that writes back: row n of batch b in that of the last
    key tile of query tile n / 1024. -/
theorem cover1_3 (i : S4x4096x64.Idx) :
    ∃ t : Fin cfg1.N, (cfg1.win 3).flush t = true ∧ i ∈ ((cfg1.win 3).blk t).view.set := by
  have h0 : (i 0).val < 4 := (i 0).isLt
  have h1 : (i 1).val < 4096 := (i 1).isLt
  have h2 : (i 2).val < 64 := (i 2).isLt
  obtain ⟨t, ht⟩ : ∃ t : Fin cfg1.N, t.val = 16 * (i 0).val + 4 * ((i 1).val / 1024) + 3 :=
    ⟨⟨16 * (i 0).val + 4 * ((i 1).val / 1024) + 3, Nat.lt_of_lt_of_eq (by omega) N_1.symm⟩, rfl⟩
  refine ⟨t, (flush1_3 t).mpr (by omega), ?_⟩
  obtain ⟨-, -, -, -, -, -, -, -, -, e0, e1, e2⟩ := idx_facts1 t
  rw [mem_blk1_3]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1024 ≤ (i 1).val ∧ (i 1).val < win1_3.index t (1 : Fin 3) * 1024 + 1024; omega
  | ⟨2, _⟩ => show win1_3.index t (2 : Fin 3) * 64 ≤ (i 2).val ∧ (i 2).val < win1_3.index t (2 : Fin 3) * 64 + 64; omega

/-- The output array after the region is G, when every block written back is G on its rows. -/
theorem attn_final (c : Dev nD) (G : S4x4096x64.Idx → EReal)
    (hblk : ∀ t : Fin cfg1.N, t.val % 4 = 3 → ∀ (r : Fin 1024) (h : Fin 64) (b : Fin 4) (n : Fin 4096),
      b.val = t.val / 16 → n.val = ((t.val / 4) % 4) * 1024 + r.val →
      (dat1 (F := Ideal) V c).after 3 t (ix3 0 r h) = G (ix3 b n h)) :
    (dat1 (F := Ideal) V c).arrAt 3 cfg1.N = G :=
  (dat1 (F := Ideal) V c).arrAt_eq_of_cover 3 G (fun t hf => flushed1_3_eq V c G hblk t ((flush1_3 t).mp hf)) cover1_3

end Output

end Cert.KernelIdeal.Hand

end
-- ==== Proof.LibSoftmaxSpec.lean ====
/-
  Softmax-weighted sums on the extended reals, and the one-pass ("online") way of computing them block by block.

  For scores `z i` (a real number, or -inf for a masked position) and values `v i`, the softmax-weighted sum is
      ∑ i, (exp (z i - M) / ∑ i', exp (z i' - M)) * v i,        M the maximum of the scores,
  with exp (-inf) = 0, so that masked positions carry weight zero.

  The one-pass computation keeps a triple (running maximum m, running sum of exponentials l, running weighted sum a),
  starts it at (-inf, 0, 0), and folds the blocks in one after the other:
      m' = max m (max of the block's scores)
      l' = exp (m - m') * l + ∑ c, exp (z c - m')
      a' = exp (m - m') * a + ∑ c, exp (z c - m') * v c
  and answers a * (1 / l) at the end.
-/
import Mathlib.Data.EReal.Basic
import Mathlib.Algebra.BigOperators.Group.Finset.Basic
import Idealize.ShloMosaic.PureOps.Ideal

noncomputable section

namespace OnlineSoftmax

open Idealize.ShloMosaic

/-- The maximum of finitely many scores, as a fold of `max` from -inf. -/
def rowMax {ι : Type} [Fintype ι] (z : ι → EReal) : EReal := (Finset.univ : Finset ι).fold max ⊥ z

/-- The softmax-weighted sum of `v` under the scores `z`. -/
def softmaxSum {ι : Type} [Fintype ι] (z v : ι → EReal) : EReal :=
  ∑ i, Ideal.div (Ideal.exp (z i - rowMax z)) (∑ i', Ideal.exp (z i' - rowMax z)) * v i

/-- One block folded into the running (maximum, sum of exponentials, weighted sum). -/
def fold1 {κ : Type} [Fintype κ] (z v : κ → EReal) (s : EReal × EReal × EReal) : EReal × EReal × EReal :=
  (max s.1 (rowMax z),
   Ideal.exp (s.1 - max s.1 (rowMax z)) * s.2.1 + ∑ c, Ideal.exp (z c - max s.1 (rowMax z)),
   Ideal.exp (s.1 - max s.1 (rowMax z)) * s.2.2 + ∑ c, Ideal.exp (z c - max s.1 (rowMax z)) * v c)

/-- The first `n` blocks folded in, in order, from (-inf, 0, 0). -/
def foldN {κ : Type} [Fintype κ] : (n : ℕ) → (Fin n → κ → EReal) → (Fin n → κ → EReal) → EReal × EReal × EReal
  | 0, _, _ => (⊥, 0, 0)
  | n + 1, z, v => fold1 (z (Fin.last n)) (v (Fin.last n)) (foldN n (fun j => z j.castSucc) (fun j => v j.castSucc))

/-- What the one-pass computation answers. -/
def onlineOut (s : EReal × EReal × EReal) : EReal := s.2.2 * Ideal.div 1 s.2.1

end OnlineSoftmax

end
-- ==== Proof.LibOnlineSoftmax.lean ====
/-
  The one-pass ("online") computation of a softmax-weighted sum agrees with its two-pass definition.

  Everything is reduced to real arithmetic.  For a score x (a real number or -inf) and a real level M, the
  weight of x against M is the real number exp (x - M), read as 0 when x = -inf.  Weights against two levels
  differ by a constant factor:  exp (M - M') * exp (x - M) = exp (x - M').  With M the maximum of the scores,
  the softmax-weighted sum is  (∑ i, weight i * v i) / (∑ i, weight i),  and the running triple of the
  one-pass computation holds, after any number of blocks, the running maximum together with the two sums of
  the blocks seen so far taken against that running maximum.
-/
import proofs.«150456_j65506841199208_2_alg».proof.Proof.LibSoftmaxSpec
import Mathlib.Data.EReal.Inv
import Mathlib.Algebra.BigOperators.Fin

noncomputable section

namespace OnlineSoftmax

open Idealize.ShloMosaic

/-! ### The maximum of finitely many scores -/

/-- The maximum lies below a bound exactly when every score does. -/
theorem rowMax_le_iff {ι : Type} [Fintype ι] (z : ι → EReal) (a : EReal) :
    rowMax z ≤ a ↔ ∀ i, z i ≤ a := by
  unfold rowMax
  rw [Finset.fold_max_le]
  simp

/-- Every score lies below the maximum. -/
theorem le_rowMax {ι : Type} [Fintype ι] (z : ι → EReal) (i : ι) : z i ≤ rowMax z :=
  (rowMax_le_iff z _).1 le_rfl i

/-- The maximum lies below any bound of all the scores. -/
theorem rowMax_le {ι : Type} [Fintype ι] (z : ι → EReal) (a : EReal) (h : ∀ i, z i ≤ a) :
    rowMax z ≤ a :=
  (rowMax_le_iff z a).2 h

/-- The maximum is the supremum of the scores over all positions. -/
theorem rowMax_eq_sup {ι : Type} [Fintype ι] (z : ι → EReal) : rowMax z = Finset.univ.sup z := by
  apply le_antisymm
  · exact rowMax_le z _ (fun i => Finset.le_sup (Finset.mem_univ i))
  · exact Finset.sup_le (fun i _ => le_rowMax z i)

/-- Scores none of which is +inf have a maximum that is not +inf. -/
theorem rowMax_ne_top {ι : Type} [Fintype ι] (z : ι → EReal) (hz : ∀ i, z i ≠ ⊤) :
    rowMax z ≠ ⊤ := by
  have h : rowMax z < ⊤ := by
    unfold rowMax
    rw [Finset.fold_max_lt]
    exact ⟨bot_lt_top, fun i _ => lt_top_iff_ne_top.2 (hz i)⟩
  exact ne_of_lt h

/-- One score that is not -inf keeps the maximum away from -inf. -/
theorem rowMax_ne_bot {ι : Type} [Fintype ι] (z : ι → EReal) (h : ∃ i, z i ≠ ⊥) :
    rowMax z ≠ ⊥ := by
  obtain ⟨i, hi⟩ := h
  intro hb
  exact hi (le_bot_iff.1 (hb ▸ le_rowMax z i))

/-- Scores that are real or -inf, one of them real, have a real maximum. -/
theorem rowMax_eq_coe {ι : Type} [Fintype ι] (z : ι → EReal) (hz : ∀ i, z i ≠ ⊤)
    (h : ∃ i, z i ≠ ⊥) : ∃ M : ℝ, rowMax z = (M : EReal) :=
  ⟨(rowMax z).toReal, (EReal.coe_toReal (rowMax_ne_top z hz) (rowMax_ne_bot z h)).symm⟩

/-- The maximum does not change under a re-indexing of the positions. -/
theorem rowMax_equiv {ι ι' : Type} [Fintype ι] [Fintype ι'] (e : ι ≃ ι') (z : ι' → EReal) :
    rowMax (fun i => z (e i)) = rowMax z := by
  apply eq_of_forall_ge_iff
  intro a
  rw [rowMax_le_iff, rowMax_le_iff]
  constructor
  · intro h i'
    simpa using h (e.symm i')
  · intro h i
    exact h (e i)

/-- The maximum over n + 1 blocks is the larger of the maximum over the first n blocks and the maximum of
    the last block. -/
theorem rowMax_pairs_succ {κ : Type} [Fintype κ] (n : ℕ) (z : Fin (n + 1) → κ → EReal) :
    rowMax (fun p : Fin (n + 1) × κ => z p.1 p.2)
      = max (rowMax (fun p : Fin n × κ => z p.1.castSucc p.2)) (rowMax (z (Fin.last n))) := by
  apply eq_of_forall_ge_iff
  intro a
  rw [max_le_iff, rowMax_le_iff, rowMax_le_iff, rowMax_le_iff]
  constructor
  · intro h
    exact ⟨fun p => h (p.1.castSucc, p.2), fun c => h (Fin.last n, c)⟩
  · rintro ⟨h1, h2⟩ ⟨j, c⟩
    induction j using Fin.lastCases with
    | last => exact h2 c
    | cast j => exact h1 (j, c)

/-! ### Real coercion and finite sums -/

/-- The inclusion of the reals in the extended reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over n + 1 blocks splits into the sum over the first n blocks and the sum over the last block. -/
theorem sum_pairs_succ {κ : Type} [Fintype κ] (n : ℕ) (f : Fin (n + 1) → κ → ℝ) :
    ∑ p : Fin (n + 1) × κ, f p.1 p.2
      = ∑ p : Fin n × κ, f p.1.castSucc p.2 + ∑ c, f (Fin.last n) c := by
  rw [Fintype.sum_prod_type, Fintype.sum_prod_type, Fin.sum_univ_castSucc]

/-! ### Weights -/

/-- The weight of a score x against a real level M: the real number exp (x - M), zero for x = -inf. -/
def wt (x : EReal) (M : ℝ) : ℝ := (Ideal.exp (x - (M : EReal))).toReal

/-- A score of -inf has weight zero. -/
theorem wt_bot (M : ℝ) : wt ⊥ M = 0 := by
  unfold wt
  rw [EReal.bot_sub, Ideal.exp_bot, EReal.toReal_zero]

/-- A real score r has weight exp (r - M). -/
theorem wt_coe (r M : ℝ) : wt (r : EReal) M = Real.exp (r - M) := by
  unfold wt
  rw [← EReal.coe_sub, Ideal.exp_coe, EReal.toReal_coe]

/-- For a score that is not +inf, exp (x - M) is the weight, as an extended real. -/
theorem exp_sub_coe {x : EReal} (hx : x ≠ ⊤) (M : ℝ) :
    Ideal.exp (x - (M : EReal)) = ((wt x M : ℝ) : EReal) := by
  induction x with
  | bot => rw [wt_bot, EReal.bot_sub, Ideal.exp_bot, EReal.coe_zero]
  | coe r => rw [wt_coe, ← EReal.coe_sub, Ideal.exp_coe]
  | top => exact absurd rfl hx

/-- Weights are nonnegative. -/
theorem wt_nonneg (x : EReal) (M : ℝ) : 0 ≤ wt x M := by
  induction x with
  | bot => rw [wt_bot]
  | coe r => rw [wt_coe]; exact (Real.exp_pos _).le
  | top => unfold wt; rw [EReal.top_sub_coe, Ideal.exp_top, EReal.toReal_top]

/-- A real score has a positive weight. -/
theorem wt_pos {x : EReal} (hx : x ≠ ⊤) (hx' : x ≠ ⊥) (M : ℝ) : 0 < wt x M := by
  lift x to ℝ using ⟨hx, hx'⟩
  rw [wt_coe]
  exact Real.exp_pos _

/-- Changing the level: exp (M - M') * exp (x - M) = exp (x - M'), for x real or -inf. -/
theorem wt_shift {x : EReal} (hx : x ≠ ⊤) (M M' : ℝ) : wt (M : EReal) M' * wt x M = wt x M' := by
  induction x with
  | bot => rw [wt_bot, wt_bot, mul_zero]
  | coe r =>
    rw [wt_coe, wt_coe, wt_coe, ← Real.exp_add]
    congr 1
    ring
  | top => exact absurd rfl hx

/-- When one score is real and none is +inf, the weights have a positive sum. -/
theorem sum_wt_pos {ι : Type} [Fintype ι] (z : ι → EReal) (hz : ∀ i, z i ≠ ⊤) (hfin : ∃ i, z i ≠ ⊥)
    (M : ℝ) : 0 < ∑ i, wt (z i) M := by
  obtain ⟨i0, hi0⟩ := hfin
  exact Finset.sum_pos' (fun i _ => wt_nonneg _ _) ⟨i0, Finset.mem_univ _, wt_pos (hz i0) hi0 M⟩

/-! ### The softmax-weighted sum in real arithmetic -/

/-- With M the (real) maximum of the scores, the softmax-weighted sum is
    (∑ i, exp (z i - M) * v i) / (∑ i, exp (z i - M)), computed in the reals. -/
theorem softmaxSum_eq_coe {ι : Type} [Fintype ι] (z v : ι → EReal) (M : ℝ)
    (hM : rowMax z = (M : EReal)) (hz : ∀ i, z i ≠ ⊤) (hfin : ∃ i, z i ≠ ⊥)
    (hv : ∀ i, ∃ r : ℝ, v i = (r : EReal)) :
    softmaxSum z v
      = (((∑ i, wt (z i) M * (v i).toReal) * (∑ i, wt (z i) M)⁻¹ : ℝ) : EReal) := by
  have hL : (∑ i, wt (z i) M) ≠ 0 := ne_of_gt (sum_wt_pos z hz hfin M)
  have hE : ∀ i, Ideal.exp (z i - (M : EReal)) = ((wt (z i) M : ℝ) : EReal) :=
    fun i => exp_sub_coe (hz i) M
  have hS : (∑ i, ((wt (z i) M : ℝ) : EReal)) = ((∑ i, wt (z i) M : ℝ) : EReal) :=
    (coe_sum _ _).symm
  unfold softmaxSum
  rw [hM]
  simp only [hE]
  have hRHS : (((∑ i, wt (z i) M * (v i).toReal) * (∑ i, wt (z i) M)⁻¹ : ℝ) : EReal)
      = ∑ i, ((wt (z i) M * (v i).toReal * (∑ i, wt (z i) M)⁻¹ : ℝ) : EReal) := by
    rw [Finset.sum_mul (Finset.univ : Finset ι) (fun i => wt (z i) M * (v i).toReal), coe_sum]
  rw [hS, hRHS]
  refine Finset.sum_congr rfl (fun i _ => ?_)
  obtain ⟨r, hr⟩ := hv i
  rw [Ideal.div_coe hL, hr, EReal.toReal_coe, ← EReal.coe_mul, ← EReal.coe_mul]
  congr 1
  rw [one_div]
  ring

/-! ### One block of the one-pass computation in real arithmetic -/

/-- One block folded into a running triple whose two sums are real and whose new maximum M' is real:
    the new sums are the old ones rescaled by exp (m - M') plus the block's sums against M'. -/
theorem fold1_coe {κ : Type} [Fintype κ] (z v : κ → EReal) (hz : ∀ c, z c ≠ ⊤)
    (hv : ∀ c, ∃ r : ℝ, v c = (r : EReal)) (m : EReal) (hm : m ≠ ⊤) (L A M' : ℝ)
    (hM' : max m (rowMax z) = (M' : EReal)) :
    fold1 z v (m, (L : EReal), (A : EReal))
      = ((M' : EReal), ((wt m M' * L + ∑ c, wt (z c) M' : ℝ) : EReal),
          ((wt m M' * A + ∑ c, wt (z c) M' * (v c).toReal : ℝ) : EReal)) := by
  have hE : ∀ c, Ideal.exp (z c - (M' : EReal)) = ((wt (z c) M' : ℝ) : EReal) :=
    fun c => exp_sub_coe (hz c) M'
  have hv' : ∀ c, v c = (((v c).toReal : ℝ) : EReal) := by
    intro c
    obtain ⟨r, hr⟩ := hv c
    rw [hr, EReal.toReal_coe]
  unfold fold1
  dsimp only
  rw [hM', exp_sub_coe hm M']
  simp only [hE]
  refine Prod.ext rfl (Prod.ext ?_ ?_)
  · dsimp only
    rw [EReal.coe_add, EReal.coe_mul, coe_sum]
  · dsimp only
    rw [EReal.coe_add, EReal.coe_mul, coe_sum]
    congr 1
    refine Finset.sum_congr rfl (fun c _ => ?_)
    rw [EReal.coe_mul, ← hv' c]

/-! ### The invariant of the one-pass computation -/

/-- After n blocks the running triple is (m, L, A) with m the maximum of the scores seen so far and L, A
    real, and against every real level M' one has
      exp (m - M') * L = ∑ exp (z - M')   and   exp (m - M') * A = ∑ exp (z - M') * v
    over the positions seen so far.  (For n = 0 all of these are zero.) -/
theorem foldN_inv {κ : Type} [Fintype κ] : ∀ (n : ℕ) (z v : Fin n → κ → EReal),
    (∀ j c, z j c ≠ ⊤) → (∀ hn : 0 < n, ∃ c, z ⟨0, hn⟩ c ≠ ⊥) →
    (∀ j c, ∃ r : ℝ, v j c = (r : EReal)) →
    ∃ L A : ℝ,
      foldN n z v = (rowMax (fun p : Fin n × κ => z p.1 p.2), (L : EReal), (A : EReal)) ∧
      ∀ M' : ℝ,
        wt (rowMax (fun p : Fin n × κ => z p.1 p.2)) M' * L = ∑ p : Fin n × κ, wt (z p.1 p.2) M' ∧
        wt (rowMax (fun p : Fin n × κ => z p.1 p.2)) M' * A
          = ∑ p : Fin n × κ, wt (z p.1 p.2) M' * (v p.1 p.2).toReal
  | 0, z, v, _, _, _ => by
    have hR : rowMax (fun p : Fin 0 × κ => z p.1 p.2) = ⊥ :=
      le_bot_iff.1 (rowMax_le _ _ (fun p => p.1.elim0))
    refine ⟨0, 0, ?_, fun M' => ⟨?_, ?_⟩⟩
    · rw [hR, EReal.coe_zero]
      rfl
    · simp
    · simp
  | n + 1, z, v, hz, hz0, hv => by
    obtain ⟨L, A, hfold, hinv⟩ := foldN_inv n (fun j => z j.castSucc) (fun j => v j.castSucc)
      (fun j c => hz _ c) (fun _ => hz0 (Nat.succ_pos n)) (fun j c => hv _ c)
    obtain ⟨c0, hc0⟩ := hz0 (Nat.succ_pos n)
    have hR := rowMax_pairs_succ n z
    obtain ⟨M, hM⟩ := rowMax_eq_coe (fun p : Fin (n + 1) × κ => z p.1 p.2) (fun p => hz _ _)
      ⟨(⟨0, Nat.succ_pos n⟩, c0), hc0⟩
    have hm : rowMax (fun p : Fin n × κ => z p.1.castSucc p.2) ≠ ⊤ :=
      rowMax_ne_top _ (fun p => hz _ _)
    have hstep : foldN (n + 1) z v
        = fold1 (z (Fin.last n)) (v (Fin.last n))
            (foldN n (fun j => z j.castSucc) (fun j => v j.castSucc)) := rfl
    rw [hstep, hfold,
      fold1_coe (z (Fin.last n)) (v (Fin.last n)) (fun c => hz _ c) (fun c => hv _ c) _ hm L A M
        (hR ▸ hM), hM]
    refine ⟨_, _, rfl, fun M' => ⟨?_, ?_⟩⟩
    · rw [sum_pairs_succ n (fun j c => wt (z j c) M'), ← (hinv M').1, mul_add, Finset.mul_sum,
        ← mul_assoc, wt_shift hm]
      congr 1
      exact Finset.sum_congr rfl (fun c _ => wt_shift (hz _ c) M M')
    · rw [sum_pairs_succ n (fun j c => wt (z j c) M' * (v j c).toReal), ← (hinv M').2, mul_add,
        Finset.mul_sum, ← mul_assoc, wt_shift hm]
      congr 1
      refine Finset.sum_congr rfl (fun c _ => ?_)
      rw [← mul_assoc, wt_shift (hz _ c) M M']

/-! ### The three statements -/

/-- The one-pass computation over n ≥ 1 blocks — scores real or -inf, a real score in the first block,
    real values — answers the softmax-weighted sum over all positions of all the blocks. -/
theorem online_eq {κ : Type} [Fintype κ] (n : ℕ) (hn : 0 < n) (z v : Fin n → κ → EReal)
    (hz : ∀ j c, z j c ≠ ⊤) (hz0 : ∃ c, z ⟨0, hn⟩ c ≠ ⊥)
    (hv : ∀ j c, ∃ r : ℝ, v j c = (r : EReal)) :
    onlineOut (foldN n z v)
      = softmaxSum (fun p : Fin n × κ => z p.1 p.2) (fun p : Fin n × κ => v p.1 p.2) := by
  obtain ⟨L, A, hfold, hinv⟩ := foldN_inv n z v hz (fun _ => hz0) hv
  obtain ⟨c0, hc0⟩ := hz0
  have hfin : ∃ p : Fin n × κ, z p.1 p.2 ≠ ⊥ := ⟨(⟨0, hn⟩, c0), hc0⟩
  obtain ⟨M, hM⟩ := rowMax_eq_coe (fun p : Fin n × κ => z p.1 p.2) (fun p => hz _ _) hfin
  have h1 : wt (M : EReal) M = 1 := by rw [wt_coe, sub_self, Real.exp_zero]
  obtain ⟨hL, hA⟩ := hinv M
  rw [hM, h1, one_mul] at hL hA
  have hL0 : L ≠ 0 := by
    rw [hL]
    exact ne_of_gt (sum_wt_pos _ (fun p => hz _ _) hfin M)
  rw [softmaxSum_eq_coe _ _ M hM (fun p => hz _ _) hfin (fun p => hv _ _), hfold]
  unfold onlineOut
  dsimp only
  rw [Ideal.div_coe hL0, one_mul, ← EReal.coe_mul, ← hL, ← hA, one_div]

/-- Positions masked to -inf carry weight zero, so they may be dropped from a softmax-weighted sum. -/
theorem softmaxSum_subtype {ι : Type} [Fintype ι] (P : ι → Prop) [DecidablePred P] (z v : ι → EReal)
    (hmask : ∀ i, ¬ P i → z i = ⊥) (hfin : ∃ i, P i ∧ z i ≠ ⊥) (hz : ∀ i, z i ≠ ⊤)
    (hv : ∀ i, ∃ r : ℝ, v i = (r : EReal)) :
    softmaxSum z v = softmaxSum (fun i : {i // P i} => z i) (fun i : {i // P i} => v i) := by
  obtain ⟨i0, hP0, hi0⟩ := hfin
  have hR : rowMax (fun i : {i // P i} => z i) = rowMax z := by
    apply eq_of_forall_ge_iff
    intro a
    rw [rowMax_le_iff, rowMax_le_iff]
    constructor
    · intro h i
      by_cases hi : P i
      · exact h ⟨i, hi⟩
      · rw [hmask i hi]
        exact bot_le
    · intro h i
      exact h i
  obtain ⟨M, hM⟩ := rowMax_eq_coe z hz ⟨i0, hi0⟩
  have key : ∀ f : ι → ℝ, (∀ i, ¬ P i → f i = 0) → ∑ i, f i = ∑ i : {i // P i}, f i := by
    intro f hf
    rw [← Finset.sum_subtype (Finset.univ.filter P) (by simp) f, Finset.sum_filter_of_ne]
    intro i _ hne
    by_contra hi
    exact hne (hf i hi)
  rw [softmaxSum_eq_coe z v M hM hz ⟨i0, hi0⟩ hv,
    softmaxSum_eq_coe (fun i : {i // P i} => z i) (fun i : {i // P i} => v i) M (hR.trans hM)
      (fun i => hz i) ⟨⟨i0, hP0⟩, hi0⟩ (fun i => hv i),
    key (fun i => wt (z i) M * (v i).toReal) (fun i hi => by rw [hmask i hi, wt_bot, zero_mul]),
    key (fun i => wt (z i) M) (fun i hi => by rw [hmask i hi, wt_bot])]

/-- A softmax-weighted sum does not change under a re-indexing of the positions. -/
theorem softmaxSum_equiv {ι ι' : Type} [Fintype ι] [Fintype ι'] (e : ι ≃ ι') (z v : ι' → EReal) :
    softmaxSum (fun i => z (e i)) (fun i => v (e i)) = softmaxSum z v := by
  unfold softmaxSum
  rw [rowMax_equiv e z, Equiv.sum_comp e (fun i' => Ideal.exp (z i' - rowMax z))]
  exact Equiv.sum_comp e
    (fun i' => Ideal.div (Ideal.exp (z i' - rowMax z)) (∑ i'', Ideal.exp (z i'' - rowMax z)) * v i')

end OnlineSoftmax

end
-- ==== Proof.LibSoftmaxBlocks.lean ====
/-
  A softmax-weighted sum over 4096 positions whose scores are -inf from position n·1024 on is the softmax-weighted sum
  over the first n blocks of 1024 positions, indexed (block, position in the block): the masked tail carries weight zero,
  and (j, c) ↦ j·1024 + c is a bijection from the pairs onto the positions below n·1024.
  Also: the blockwise fold over a family indexed by the natural numbers.
-/
import proofs.«150456_j65506841199208_2_alg».proof.Proof.LibOnlineSoftmax

noncomputable section

namespace OnlineSoftmax

/-- Pairs (block, position in the block) onto the positions below n·1024. -/
def blkEquiv (n : ℕ) (hn : n ≤ 4) : Fin n × Fin 1024 ≃ {s : Fin 4096 // s.val < n * 1024} where
  toFun p := ⟨⟨p.1.val * 1024 + p.2.val, by have := p.1.isLt; have := p.2.isLt; omega⟩, by
    show p.1.val * 1024 + p.2.val < n * 1024
    have := p.1.isLt; have := p.2.isLt; omega⟩
  invFun s := (⟨s.1.val / 1024, by have := s.2; omega⟩, ⟨s.1.val % 1024, by omega⟩)
  left_inv p := by
    have h1 := p.1.isLt; have h2 := p.2.isLt
    apply Prod.ext
    · apply Fin.ext; show (p.1.val * 1024 + p.2.val) / 1024 = p.1.val; omega
    · apply Fin.ext; show (p.1.val * 1024 + p.2.val) % 1024 = p.2.val; omega
  right_inv s := by
    apply Subtype.ext; apply Fin.ext
    show s.1.val / 1024 * 1024 + s.1.val % 1024 = s.1.val; omega

theorem blkEquiv_val (n : ℕ) (hn : n ≤ 4) (p : Fin n × Fin 1024) : ((blkEquiv n hn p).1 : Fin 4096).val = p.1.val * 1024 + p.2.val := rfl

/-- The masked tail dropped and the rest re-indexed by blocks. -/
theorem softmaxSum_blocks (n : ℕ) (hn : n ≤ 4) (z v : Fin 4096 → EReal)
    (hmask : ∀ s : Fin 4096, ¬ s.val < n * 1024 → z s = ⊥) (hfin : ∃ s : Fin 4096, s.val < n * 1024 ∧ z s ≠ ⊥)
    (hz : ∀ s, z s ≠ ⊤) (hv : ∀ s, ∃ r : ℝ, v s = (r : EReal)) :
    softmaxSum z v = softmaxSum (fun p : Fin n × Fin 1024 => z (blkEquiv n hn p).1) (fun p : Fin n × Fin 1024 => v (blkEquiv n hn p).1) := by
  rw [softmaxSum_subtype (fun s : Fin 4096 => s.val < n * 1024) z v hmask hfin hz hv]
  exact (softmaxSum_equiv (blkEquiv n hn) (fun i : {s : Fin 4096 // s.val < n * 1024} => z i) (fun i => v i)).symm

/-- The first `n` blocks of a family indexed by the natural numbers folded in, in order, from (-inf, 0, 0). -/
def foldNat {κ : Type} [Fintype κ] (Z W : ℕ → κ → EReal) : ℕ → EReal × EReal × EReal
  | 0 => (⊥, 0, 0)
  | n + 1 => fold1 (Z n) (W n) (foldNat Z W n)

theorem foldNat_eq_foldN {κ : Type} [Fintype κ] (Z W : ℕ → κ → EReal) (n : ℕ) :
    foldNat Z W n = foldN n (fun j => Z j.val) (fun j => W j.val) := by
  induction n with
  | zero => rfl
  | succ n ih => show fold1 (Z n) (W n) (foldNat Z W n) = fold1 (Z n) (W n) (foldN n _ _); rw [ih]; rfl

end OnlineSoftmax

end
-- ==== Proof.KI.AttnDefs.lean ====
/-
  Causal attention over given query, key and value arrays ([4, 4096, 64] each), entry by entry, and the same scores laid
  out by key tile: key position j·1024 + c is position c of key tile j.
-/
import proofs.«150456_j65506841199208_2_alg».proof.Proof.LibSoftmaxBlocks
import Idealize.ShloMosaic.Lib.ValueIdx

noncomputable section

namespace Cert.AttnQKV

open Idealize.ShloMosaic Idealize.ShloMosaic.ValueIdx OnlineSoftmax

abbrev AIdx : Type := (⟨3, ![4, 4096, 64]⟩ : Shape).Idx

/-- The scaled score of query position `tq` against key position `s`. -/
def score (Q K : AIdx → EReal) (b : Fin 4) (tq s : Fin 4096) : EReal :=
  (∑ e : Fin 64, Q (ix3 b tq e) * K (ix3 b s e)) * Ideal.ofBits .f32 0x3E000000#32

/-- The score under the causal mask. -/
def masked (Q K : AIdx → EReal) (b : Fin 4) (tq s : Fin 4096) : EReal :=
  if s.val ≤ tq.val then score Q K b tq s else ⊥

/-- One entry of the attention output over the arrays Q, K, V. -/
def attn (Q K Vv : AIdx → EReal) (b : Fin 4) (tq : Fin 4096) (h : Fin 64) : EReal :=
  softmaxSum (masked Q K b tq) (fun s => Vv (ix3 b s h))

/-- Position `c` of key tile `j` (taken modulo the axis for a tile number beyond the axis: never used there). -/
def keyPos (j : ℕ) (cc : Fin 1024) : Fin 4096 := ⟨(j * 1024 + cc.val) % 4096, Nat.mod_lt _ (by norm_num)⟩

theorem keyPos_val (j : ℕ) (hj : j < 4) (cc : Fin 1024) : (keyPos j cc).val = j * 1024 + cc.val := by
  show (j * 1024 + cc.val) % 4096 = _
  have := cc.isLt; omega

/-- The masked scores of query position `tq`, key tile by key tile. -/
def zRow (Q K : AIdx → EReal) (b : Fin 4) (tq : Fin 4096) (j : ℕ) (cc : Fin 1024) : EReal := masked Q K b tq (keyPos j cc)
/-- Column `h` of the values, key tile by key tile. -/
def vRow (Vv : AIdx → EReal) (b : Fin 4) (h : Fin 64) (j : ℕ) (cc : Fin 1024) : EReal := Vv (ix3 b (keyPos j cc) h)

end Cert.AttnQKV

end
-- ==== Proof.KI.AttnArray.lean ====
/-
  The attention pipeline's output array is causal softmax attention over the query, key and value arrays, given that
  every block written back holds, row by row, the one-pass softmax computation over the key tiles up to the diagonal:
  the one-pass computation answers the softmax-weighted sum over those tiles' positions, and the key positions after
  them are masked, so they carry no weight.
-/
import proofs.«150456_j65506841199208_2_alg».proof.Proof.KI.R1Array
import proofs.«150456_j65506841199208_2_alg».proof.Proof.KI.AttnDefs

noncomputable section

namespace Cert.KernelIdeal.Hand

open Cert.KernelIdeal Cert.KernelIdeal.Gen Idealize.ShloMosaic Idealize.ShloMosaic.ValueIdx OnlineSoftmax Cert.AttnQKV
open Idealize.ShloMosaic.TcCoe Idealize.SL.Sem

/-- The scale, the pattern of 1/8, is a real number. -/
theorem scale_real : ∃ x : ℝ, Ideal.ofBits .f32 0x3E000000#32 = (x : EReal) :=
  ⟨1 / 8, by simp [Ideal.ofBits, Ideal.ieee, -EReal.coe_mul]; norm_num⟩

section Scores
variable (Q K Vv : AIdx → EReal)
variable (hQ : ∀ j, ∃ x : ℝ, Q j = (x : EReal)) (hK : ∀ j, ∃ x : ℝ, K j = (x : EReal)) (hV : ∀ j, ∃ x : ℝ, Vv j = (x : EReal))
include hQ hK

/-- A score of real queries and keys is a real number. -/
theorem score_real (b : Fin 4) (tq s : Fin 4096) : ∃ x : ℝ, score Q K b tq s = (x : EReal) := by
  choose q hq using hQ
  choose k hk using hK
  obtain ⟨σ, hσ⟩ := scale_real
  refine ⟨(∑ e : Fin 64, q (ix3 b tq e) * k (ix3 b s e)) * σ, ?_⟩
  unfold score
  rw [hσ, EReal.coe_mul, coe_sum]
  refine congrArg (· * (σ : EReal)) (Finset.sum_congr rfl fun e _ => ?_)
  rw [hq, hk, EReal.coe_mul]

/-- A masked score is a real number or -inf, never +inf. -/
theorem masked_ne_top (b : Fin 4) (tq s : Fin 4096) : masked Q K b tq s ≠ ⊤ := by
  unfold masked
  split
  · obtain ⟨x, hx⟩ := score_real Q K hQ hK b tq s
    rw [hx]; exact EReal.coe_ne_top x
  · exact bot_ne_top

/-- At or before the query position a masked score is a real number, not -inf. -/
theorem masked_ne_bot (b : Fin 4) (tq s : Fin 4096) (hs : s.val ≤ tq.val) : masked Q K b tq s ≠ ⊥ := by
  unfold masked
  rw [if_pos hs]
  obtain ⟨x, hx⟩ := score_real Q K hQ hK b tq s
  rw [hx]; exact EReal.coe_ne_bot x

include hV

/-- Row n = qi·1024 + r of a batch: the one-pass computation over key tiles 0 … qi answers the attention output there. -/
theorem online_row (b : Fin 4) (n : Fin 4096) (h : Fin 64) (qi : ℕ) (r : Fin 1024) (hqi : qi < 4)
    (hn : n.val = qi * 1024 + r.val) :
    onlineOut (foldNat (zRow Q K b n) (vRow Vv b h) (qi + 1)) = Cert.AttnQKV.attn Q K Vv b n h := by
  have hr : r.val < 1024 := r.isLt
  have hle : qi + 1 ≤ 4 := hqi
  have hz : ∀ (j : Fin (qi + 1)) (cc : Fin 1024), zRow Q K b n j.val cc ≠ ⊤ :=
    fun j cc => masked_ne_top Q K hQ hK b n _
  have hz0 : ∃ cc : Fin 1024, zRow Q K b n 0 cc ≠ ⊥ :=
    ⟨0, masked_ne_bot Q K hQ hK b n _ (by rw [keyPos_val 0 (by omega)]; show 0 * 1024 + 0 ≤ n.val; omega)⟩
  have hv : ∀ (j : Fin (qi + 1)) (cc : Fin 1024), ∃ x : ℝ, vRow Vv b h j.val cc = (x : EReal) := fun j cc => hV _
  have hmask : ∀ s : Fin 4096, ¬ s.val < (qi + 1) * 1024 → masked Q K b n s = ⊥ := fun s hs => by
    unfold masked; exact if_neg (by omega)
  have hfin : ∃ s : Fin 4096, s.val < (qi + 1) * 1024 ∧ masked Q K b n s ≠ ⊥ :=
    ⟨⟨0, by norm_num⟩, by show 0 < (qi + 1) * 1024; omega, masked_ne_bot Q K hQ hK b n _ (Nat.zero_le _)⟩
  have hkey : ∀ p : Fin (qi + 1) × Fin 1024, keyPos p.1.val p.2 = ((blkEquiv (qi + 1) hle p).1 : Fin 4096) := fun p =>
    Fin.ext (by rw [keyPos_val _ (by have := p.1.isLt; omega), blkEquiv_val])
  have e1 : (fun p : Fin (qi + 1) × Fin 1024 => zRow Q K b n p.1.val p.2)
      = fun p : Fin (qi + 1) × Fin 1024 => masked Q K b n (blkEquiv (qi + 1) hle p).1 :=
    funext fun p => by unfold zRow; rw [hkey]
  have e2 : (fun p : Fin (qi + 1) × Fin 1024 => vRow Vv b h p.1.val p.2)
      = fun p : Fin (qi + 1) × Fin 1024 => Vv (ix3 b (blkEquiv (qi + 1) hle p).1 h) :=
    funext fun p => by unfold vRow; rw [hkey]
  rw [foldNat_eq_foldN]
  refine (online_eq (qi + 1) (Nat.succ_pos qi) (fun j => zRow Q K b n j.val) (fun j => vRow Vv b h j.val) hz hz0 hv).trans ?_
  unfold Cert.AttnQKV.attn
  refine Eq.trans ?_ (softmaxSum_blocks (qi + 1) hle (masked Q K b n) (fun s => Vv (ix3 b s h)) hmask hfin
    (masked_ne_top Q K hQ hK b n) (fun s => hV _)).symm
  exact congrArg₂ softmaxSum e1 e2

end Scores

/-- The output array after the attention region is causal softmax attention over the arrays Q, K, V, when every block
    written back holds in each row the one-pass computation over the key tiles up to the query tile's own. -/
theorem kernel_attn (V : (c : Dev nD) → (b : Ref sig .tc) → Buf (Elt Ideal) ((c : Thread nD τ).loc b)) (c : Dev nD)
    (Q K Vv : S4x4096x64.Idx → EReal)
    (hQ : ∀ j, ∃ x : ℝ, Q j = (x : EReal)) (hK : ∀ j, ∃ x : ℝ, K j = (x : EReal)) (hV : ∀ j, ∃ x : ℝ, Vv j = (x : EReal))
    (hout : ∀ t : Fin cfg1.N, t.val % 4 = 3 → ∀ (r : Fin 1024) (h : Fin 64) (b : Fin 4) (n : Fin 4096),
      b.val = t.val / 16 → n.val = ((t.val / 4) % 4) * 1024 + r.val →
      outOf (stAt (F := Ideal) V c t.val t.isLt) (ix3 0 r h)
        = onlineOut (foldNat (zRow Q K b n) (vRow Vv b h) ((t.val / 4) % 4 + 1))) :
    (dat1 (F := Ideal) V c).arrAt 3 cfg1.N
      = fun j : S4x4096x64.Idx => Cert.AttnQKV.attn Q K Vv (j 0) (j 1) (j 2) := by
  refine attn_final V c _ ?_
  intro t ht r h b n hb hn
  rw [after1_3, hout t ht r h b n hb hn]
  show _ = Cert.AttnQKV.attn Q K Vv b n h
  exact online_row Q K Vv hQ hK hV b n h ((t.val / 4) % 4) r (Nat.mod_lt _ (by norm_num)) hn

end Cert.KernelIdeal.Hand

end
-- ==== Proof.LibKeepdims.lean ====
/-
  Layout operations a keepdims reduction meets, read at an index written by coordinates: a vector cast to a one-column
  matrix, a one-column matrix broadcast along its rows, a vector seen as a [1, 1, a] block and back, and a load through a
  unit-stride rectangle that offsets only the last axis of a rank-3 block.
-/
import Idealize.ShloMosaic.Lib.Pipeline.Value
import Idealize.ShloMosaic.Lib.ValueIdx

namespace Idealize.ShloMosaic.Keepdims

open Idealize.ShloMosaic Idealize.ShloMosaic.ValueIdx

variable {α : Type}

/-- An `[a]` vector cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a]` block cast to `[a]` reads, at `i`, the operand at `(0, 0, i)`. -/
theorem shapeCast_11a_a_apply {a : ℕ} (x : (⟨3, ![1, 1, a]⟩ : Shape).Idx → α) (h : (⟨3, ![1, 1, a]⟩ : Shape).ShapeCasts ⟨1, ![a]⟩)
    (i : Fin a) : shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

/-- An `[a]` vector cast to `[1, 1, a]` reads, at `(u, v, i)`, the operand at `i`. -/
theorem shapeCast_a_11a_apply {a : ℕ} (x : (⟨1, ![a]⟩ : Shape).Idx → α) (h : (⟨1, ![a]⟩ : Shape).ShapeCasts ⟨3, ![1, 1, a]⟩)
    (u v : Fin 1) (i : Fin a) : shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]; simp)

/-- A load through the unit-stride rectangle of sizes `[n0, n1, m]` at offsets `[0, 0, o]` of an `[n0, n1, n2]` block
    reads, at `(a, b, j)`, the block at `(a, b, o + j)`. -/
theorem ld_last3_apply {Val : EltTy → Type} {e : EltTy} {n0 n1 n2 m : ℕ} (o : ℕ) (X : (⟨3, ![n0, n1, n2]⟩ : Shape).Idx → Val e)
    (inb : ∀ a, (![0, 0, o] : Fin 3 → ℕ) a + (![n0, n1, m] : Fin 3 → ℕ) a ≤ (⟨3, ![n0, n1, n2]⟩ : Shape).size a)
    (a : Fin n0) (b : Fin n1) (j : Fin m) (k : Fin n2) (hk : k.val = o + j.val) :
    View.ld X (Rect.unit (s := ⟨3, ![n0, n1, n2]⟩) ![0, 0, o] ![n0, n1, m] inb) (ix3 a b j) = X (ix3 a b k) := by
  show X _ = X _
  refine congrArg X (funext fun ax => Fin.ext ?_)
  match ax with
  | ⟨0, _⟩ => show 0 + 1 * a.val = a.val; omega
  | ⟨1, _⟩ => show 0 + 1 * b.val = b.val; omega
  | ⟨2, _⟩ => show o + 1 * j.val = k.val; omega

end Idealize.ShloMosaic.Keepdims
-- ==== Proof.KI.StepValue.lean ====
/-
  The attention call's carried state, row by row, at the ideal (extended-real) instance.

  Row r of the three carried buffers is a triple (running maximum, running sum of exponentials, running weighted
  sum of one value column).  Folding a key tile into the state acts on every row as one step of the one-pass
  softmax computation: the new maximum is the larger of the old one and the row's largest score, the two sums are
  rescaled by exp (old maximum - new maximum) and the tile's exponentials (times the value column) are added.  On the
  diagonal tile the scores right of the diagonal are replaced by -inf before the step.  The stored output is the
  weighted sum times the reciprocal of the sum of exponentials.
-/
import proofs.«150456_j65506841199208_2_alg».proof.Proof.KI.Step
import proofs.«150456_j65506841199208_2_alg».proof.Proof.LibOnlineSoftmax
import proofs.«150456_j65506841199208_2_alg».proof.Proof.LibKeepdims
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx Idealize.ShloMosaic.Keepdims

/-! ## The constants -/

/-- The pattern 0xFF800000 denotes -inf. -/
theorem ofBits_neg_inf : Ideal.ofBits .f32 0xFF800000#32 = ⊥ := by simp [Ideal.ofBits, Ideal.ieee]

/-- The pattern 0x3F800000 denotes 1. -/
theorem ofBits_one : Ideal.ofBits .f32 0x3F800000#32 = 1 := by
  simp [Ideal.ofBits, Ideal.ieee, -EReal.coe_mul]; norm_num

/-- The mask's fill value is -inf, by the certificate's table of named constants. -/
theorem neg_big_eq : Named.named (F := Ideal) κ "neg_big" (φ := .f32) 0xF149F2CA#32 = ⊥ :=
  IdealRules.named_const.ideal_named_scalar _ _ _ _ rfl

/-! ## The two row reductions -/

/-- Column c put back into the row index r is the entry (r, c). -/
theorem lift_row (r c : Fin 1024) : reduces_S1024x1024_S1024.lift (ix1 r) c = ix2 r c :=
  funext fun a => Fin.ext (by match a with | ⟨0, _⟩ => rfl | ⟨1, _⟩ => rfl)

/-- The maximum over the columns of a [1024, 1024] block, at row r: the maximum of that row's entries. -/
theorem rowMaxRed (P : FVec Ideal S1024x1024 .f32) (hacc : (0xFF800000#32 : BitVec 32) = 0xFF800000#32) (r : Fin 1024) :
    multiReduction .maximumf [1] S1024 P 0xFF800000#32 reduces_S1024x1024_S1024 (.inl rfl) hacc (ix1 r)
      = OnlineSoftmax.rowMax (fun c : Fin 1024 => P (ix2 r c)) := by
  refine (Ideal.multiReduction_maximumf_single P 0xFF800000#32 reduces_S1024x1024_S1024 (.inl rfl) hacc (ix1 r)).trans ?_
  show (Finset.univ : Finset (Fin 1024)).fold max (Ideal.ofBits .f32 0xFF800000#32) _ = _
  rw [ofBits_neg_inf]
  unfold OnlineSoftmax.rowMax
  congr 1
  funext c
  exact congrArg P (lift_row r c)

/-- The sum over the columns of a [1024, 1024] block, at row r: the sum of that row's entries. -/
theorem rowSumRed (P : FVec Ideal S1024x1024 .f32) (hacc : (0x00000000#32 : BitVec 32) = 0x00000000#32) (r : Fin 1024) :
    multiReduction .add [1] S1024 P 0x00000000#32 reduces_S1024x1024_S1024 (.inl rfl) hacc (ix1 r)
      = ∑ c : Fin 1024, P (ix2 r c) := by
  refine (Ideal.multiReduction_add_single P 0x00000000#32 reduces_S1024x1024_S1024 (.inl rfl) hacc (ix1 r)).trans ?_
  exact Finset.sum_congr rfl fun c _ => congrArg P (lift_row r c)

/-! ## The two products' dimension numbers -/

/-- Scores: queries times keys transposed, contracting the last axis of both. -/
abbrev scoreDims : DotDims S1024x64 S1024x64 S1024x1024 := dot_S1024x64_S1024x64_S1024x1024_1_1_0_0_n_n
/-- Weights times values: contracting the weights' columns with the values' rows. -/
abbrev pvDims : DotDims S1024x1024 S1024x64 S1024x64 := dot_S1024x1024_S1024x64_S1024x64_1_0_0_1_n_n

/-- The left operand's row is the output's row. -/
theorem scoreDims_lhs_0 (i : S1024x1024.Idx) (q : scoreDims.contr.Idx) : (scoreDims.lhsIdx i q 0).val = (i 0).val := by
  unfold DotDims.lhsIdx
  rw [dif_neg (show ¬(0 : Fin S1024x64.rank) ∈ scoreDims.lhsBatch by decide), dif_pos (show (0 : Fin S1024x64.rank) ∈ scoreDims.lhsNonContracting by decide)]
  rfl
/-- The left operand's column is the contraction coordinate. -/
theorem scoreDims_lhs_1 (i : S1024x1024.Idx) (q : scoreDims.contr.Idx) : (scoreDims.lhsIdx i q 1).val = (q ⟨0, by decide⟩).val :=
  scoreDims.lhsIdx_val_of_single rfl i q
/-- The right operand's row is the output's column. -/
theorem scoreDims_rhs_0 (i : S1024x1024.Idx) (q : scoreDims.contr.Idx) : (scoreDims.rhsIdx i q 0).val = (i 1).val := by
  unfold DotDims.rhsIdx
  rw [dif_neg (show ¬(0 : Fin S1024x64.rank) ∈ scoreDims.rhsBatch by decide), dif_pos (show (0 : Fin S1024x64.rank) ∈ scoreDims.rhsNonContracting by decide)]
  rfl
/-- The right operand's column is the contraction coordinate. -/
theorem scoreDims_rhs_1 (i : S1024x1024.Idx) (q : scoreDims.contr.Idx) : (scoreDims.rhsIdx i q 1).val = (q ⟨0, by decide⟩).val :=
  scoreDims.rhsIdx_val_of_single rfl i q

/-- The left operand's row is the output's row. -/
theorem pvDims_lhs_0 (i : S1024x64.Idx) (q : pvDims.contr.Idx) : (pvDims.lhsIdx i q 0).val = (i 0).val := by
  unfold DotDims.lhsIdx
  rw [dif_neg (show ¬(0 : Fin S1024x1024.rank) ∈ pvDims.lhsBatch by decide), dif_pos (show (0 : Fin S1024x1024.rank) ∈ pvDims.lhsNonContracting by decide)]
  rfl
/-- The left operand's column is the contraction coordinate. -/
theorem pvDims_lhs_1 (i : S1024x64.Idx) (q : pvDims.contr.Idx) : (pvDims.lhsIdx i q 1).val = (q ⟨0, by decide⟩).val :=
  pvDims.lhsIdx_val_of_single rfl i q
/-- The right operand's row is the contraction coordinate. -/
theorem pvDims_rhs_0 (i : S1024x64.Idx) (q : pvDims.contr.Idx) : (pvDims.rhsIdx i q 0).val = (q ⟨0, by decide⟩).val :=
  pvDims.rhsIdx_val_of_single rfl i q
/-- The right operand's column is the output's column. -/
theorem pvDims_rhs_1 (i : S1024x64.Idx) (q : pvDims.contr.Idx) : (pvDims.rhsIdx i q 1).val = (i 1).val := by
  unfold DotDims.rhsIdx
  rw [dif_neg (show ¬(1 : Fin S1024x64.rank) ∈ pvDims.rhsBatch by decide), dif_pos (show (1 : Fin S1024x64.rank) ∈ pvDims.rhsNonContracting by decide)]
  rfl

/-- Entry (r, c) of the product of a [1024, 64] block with the transpose of another: row r against row c. -/
theorem score_apply (A B : FVec Ideal S1024x64 .bf16) (r c : Fin 1024) :
    matmul scoreDims none A B (constant (F := Ideal) S1024x1024 .f32 0x00000000#32) (ix2 r c)
      = ∑ e : Fin 64, A (ix2 r e) * B (ix2 c e) := by
  simp only [Idealize.ShloMosaic.matmul]
  rw [Ideal.matmul_constant_zero_apply, ← Equiv.sum_comp (contrEquiv1 scoreDims 64 rfl rfl).symm]
  refine Finset.sum_congr rfl fun e _ => ?_
  have he := contrEquiv1_symm_val scoreDims 64 rfl rfl e
  have el : scoreDims.lhsIdx (ix2 r c) ((contrEquiv1 scoreDims 64 rfl rfl).symm e) = ix2 r e := funext fun a => Fin.ext (by
    match a with
    | ⟨0, _⟩ => exact scoreDims_lhs_0 _ _
    | ⟨1, _⟩ => exact (scoreDims_lhs_1 _ _).trans he)
  have er : scoreDims.rhsIdx (ix2 r c) ((contrEquiv1 scoreDims 64 rfl rfl).symm e) = ix2 c e := funext fun a => Fin.ext (by
    match a with
    | ⟨0, _⟩ => exact scoreDims_rhs_0 _ _
    | ⟨1, _⟩ => exact (scoreDims_rhs_1 _ _).trans he)
  rw [el, er]

/-- Entry (r, h) of the product of a [1024, 1024] block with a [1024, 64] block: row r against column h. -/
theorem pv_apply (W : FVec Ideal S1024x1024 .bf16) (V : FVec Ideal S1024x64 .bf16) (r : Fin 1024) (h : Fin 64) :
    matmul pvDims none W V (constant (F := Ideal) S1024x64 .f32 0x00000000#32) (ix2 r h)
      = ∑ c : Fin 1024, W (ix2 r c) * V (ix2 c h) := by
  simp only [Idealize.ShloMosaic.matmul]
  rw [Ideal.matmul_constant_zero_apply, ← Equiv.sum_comp (contrEquiv1 pvDims 1024 rfl rfl).symm]
  refine Finset.sum_congr rfl fun c _ => ?_
  have hc := contrEquiv1_symm_val pvDims 1024 rfl rfl c
  have el : pvDims.lhsIdx (ix2 r h) ((contrEquiv1 pvDims 1024 rfl rfl).symm c) = ix2 r c := funext fun a => Fin.ext (by
    match a with
    | ⟨0, _⟩ => exact pvDims_lhs_0 _ _
    | ⟨1, _⟩ => exact (pvDims_lhs_1 _ _).trans hc)
  have er : pvDims.rhsIdx (ix2 r h) ((contrEquiv1 pvDims 1024 rfl rfl).symm c) = ix2 c h := funext fun a => Fin.ext (by
    match a with
    | ⟨0, _⟩ => exact (pvDims_rhs_0 _ _).trans hc
    | ⟨1, _⟩ => exact pvDims_rhs_1 _ _)
  rw [el, er]

/-! ## The scores -/

/-- The score of query row r against key row c: their inner product, scaled. -/
def scoreBlk (q k : Vec Ideal S1x1024x64 .bf16) (r c : Fin 1024) : EReal :=
  (∑ e : Fin 64, q (ix3 0 r e) * k (ix3 0 c e)) * Ideal.ofBits .f32 0x3E000000#32

/-- The unmasked score block at entry (r, c). -/
theorem k1_pay8_apply (q k : Vec Ideal S1x1024x64 .bf16) (r c : Fin 1024) :
    k1_pay8 (F := Ideal) q k (ix2 r c) = scoreBlk q k r c := by
  unfold k1_pay8 scoreBlk
  rw [mulf_apply, broadcast_apply]
  refine congrArg₂ (· * ·) ?_ rfl
  refine (score_apply _ _ r c).trans ?_
  refine Finset.sum_congr rfl fun e _ => ?_
  rw [shapeCast_1ab_ab_apply, shapeCast_1ab_ab_apply]

/-! ## One key tile folded into the state, over any score block -/

/-- The new running maximum: the old one against the row maxima of the score block P. -/
def vMax (P : FVec Ideal S1024x1024 .f32) (m : FVec Ideal S1024x1 .f32) : FVec Ideal S1024x1 .f32 :=
  maximumf m (shapeCast S1024x1 (multiReduction .maximumf [1] S1024 P 0xFF800000#32 reduces_S1024x1024_S1024 (.inl rfl) rfl) shapeCasts_S1024_S1024x1)
/-- The rescaling factor exp (old maximum - new maximum). -/
def vScale (M m : FVec Ideal S1024x1 .f32) : FVec Ideal S1024x1 .f32 := exp (subf m M)
/-- The block of exponentials exp (score - new maximum). -/
def vExp (P : FVec Ideal S1024x1024 .f32) (M : FVec Ideal S1024x1 .f32) : FVec Ideal S1024x1024 .f32 :=
  exp (subf P (broadcastTo S1024x1024 M broadcasts_S1024x1_S1024x1024))
/-- The new running sum: the old one rescaled plus the row sums of the exponentials. -/
def vSum (E : FVec Ideal S1024x1 .f32) (X : FVec Ideal S1024x1024 .f32) (l : FVec Ideal S1024x1 .f32) : FVec Ideal S1024x1 .f32 :=
  shapeCast S1024x1 (addf (mulf E l) (shapeCast S1024x1 (multiReduction .add [1] S1024 X 0x00000000#32 reduces_S1024x1024_S1024 (.inl rfl) rfl) shapeCasts_S1024_S1024x1)) shapeCasts_S1024x1_S1024x1

/-- The new running maximum at row r. -/
theorem vMax_apply (P : FVec Ideal S1024x1024 .f32) (m : FVec Ideal S1024x1 .f32) (r : Fin 1024) :
    vMax P m (ix2 r (0 : Fin 1)) = max (m (ix2 r (0 : Fin 1))) (OnlineSoftmax.rowMax fun c : Fin 1024 => P (ix2 r c)) := by
  unfold vMax
  rw [maximumf_apply, shapeCast_a_a1_apply, rowMaxRed]

/-- The rescaling factor at row r. -/
theorem vScale_apply (M m : FVec Ideal S1024x1 .f32) (j : S1024x1.Idx) :
    vScale M m j = Ideal.exp (m j - M j) := rfl

/-- The block of exponentials at entry (r, c). -/
theorem vExp_apply (P : FVec Ideal S1024x1024 .f32) (M : FVec Ideal S1024x1 .f32) (r c : Fin 1024) :
    vExp P M (ix2 r c) = Ideal.exp (P (ix2 r c) - M (ix2 r (0 : Fin 1))) := by
  show Ideal.exp (P (ix2 r c) - broadcastTo S1024x1024 M broadcasts_S1024x1_S1024x1024 (ix2 r c)) = _
  rw [broadcastTo_a1_ab_apply]

/-- The new running sum at row r. -/
theorem vSum_apply (E : FVec Ideal S1024x1 .f32) (X : FVec Ideal S1024x1024 .f32) (l : FVec Ideal S1024x1 .f32) (r : Fin 1024) :
    vSum E X l (ix2 r (0 : Fin 1)) = E (ix2 r (0 : Fin 1)) * l (ix2 r (0 : Fin 1)) + ∑ c : Fin 1024, X (ix2 r c) := by
  unfold vSum
  rw [shapeCast_self, addf_apply, mulf_apply, shapeCast_a_a1_apply, rowSumRed]

/-- The new running weighted sum at entry (r, h): the old one rescaled plus the exponentials' row against the value column. -/
theorem k1_pay5_apply (V : FVec Ideal S1024x64 .bf16) (E : FVec Ideal S1024x1 .f32) (X : FVec Ideal S1024x1024 .f32)
    (a : Vec Ideal S1024x64 .f32) (r : Fin 1024) (h : Fin 64) :
    k1_pay5 (F := Ideal) V E X a (ix2 r h)
      = E (ix2 r (0 : Fin 1)) * a (ix2 r h) + ∑ c : Fin 1024, X (ix2 r c) * V (ix2 c h) := by
  unfold k1_pay5
  rw [shapeCast_self, addf_apply, mulf_apply, broadcastTo_a1_ab_apply, pv_apply]
  rfl

/-- Row r of the carried state, with column h of the accumulator. -/
def rowSt (s : St Ideal) (r : Fin 1024) (h : Fin 64) : EReal × EReal × EReal :=
  (s.1 (ix2 r 0), s.2.1 (ix2 r 0), s.2.2 (ix2 r h))

/-- Over any score block P and value block V, the tile's update of the state acts on row r as one step of the one-pass
    softmax computation with the scores P (r, ·) and the values V (·, h). -/
theorem vstep_row (P : FVec Ideal S1024x1024 .f32) (V : FVec Ideal S1024x64 .bf16) (s : St Ideal) (r : Fin 1024) (h : Fin 64) :
    rowSt (vMax P s.1, vSum (vScale (vMax P s.1) s.1) (vExp P (vMax P s.1)) s.2.1,
        k1_pay5 (F := Ideal) V (vScale (vMax P s.1) s.1) (vExp P (vMax P s.1)) s.2.2) r h
      = OnlineSoftmax.fold1 (fun c : Fin 1024 => P (ix2 r c)) (fun c : Fin 1024 => V (ix2 c h)) (rowSt s r h) := by
  unfold OnlineSoftmax.fold1 rowSt
  dsimp only
  rw [vSum_apply, k1_pay5_apply, vScale_apply, vMax_apply]
  simp only [vExp_apply, vMax_apply]

/-! ## The causal mask -/

/-- The word n * 1024 + t, for a tile coordinate n < 4 and an offset t < 1024, read as a signed number. -/
theorem word_val (n t : ℕ) (hn : n < 4) (ht : t < 1024) :
    (IntOp.addi (Scalar.muli (BitVec.ofNat 32 n) 1024#32) (BitVec.ofNat 32 t)).toInt = ((n * 1024 + t : ℕ) : ℤ) := by
  unfold IntOp.addi Scalar.muli IntOp.muli
  rw [BitVec.toInt_eq_toNat_cond]
  simp only [BitVec.toNat_add, BitVec.toNat_mul, BitVec.toNat_ofNat]
  have h1 : n % 2 ^ 32 = n := Nat.mod_eq_of_lt (by omega)
  have h2 : t % 2 ^ 32 = t := Nat.mod_eq_of_lt (by omega)
  have h3 : (1024 : ℕ) % 2 ^ 32 = 1024 := by norm_num
  rw [h1, h2, h3]
  have h4 : n * 1024 % 2 ^ 32 = n * 1024 := Nat.mod_eq_of_lt (by omega)
  rw [h4]
  have h5 : (n * 1024 + t) % 2 ^ 32 = n * 1024 + t := Nat.mod_eq_of_lt (by omega)
  rw [h5, if_pos (by omega)]

/-- On the diagonal tile the signed comparison of the global row n * 1024 + r with the global column n * 1024 + c
    is the comparison of r with c: nothing overflows. -/
theorem mask_word (n : ℕ) (hn : n < 4) (r c : Fin 1024) :
    IntOp.cmpi .sge (IntOp.addi (Scalar.muli (BitVec.ofNat 32 n) 1024#32) (BitVec.ofNat 32 r.val))
      (IntOp.addi (Scalar.muli (BitVec.ofNat 32 n) 1024#32) (BitVec.ofNat 32 c.val))
      = if c.val ≤ r.val then 1#1 else 0#1 := by
  unfold IntOp.cmpi
  simp only [BitVec.sle, word_val n _ hn r.isLt, word_val n _ hn c.isLt]
  by_cases h : c.val ≤ r.val
  · rw [if_pos h, decide_eq_true (by omega)]; rfl
  · rw [if_neg h, decide_eq_false (by omega)]; rfl

/-- The masked score block of the diagonal tile at entry (r, c): the score on and left of the diagonal, -inf right of it. -/
theorem k1_pay15_apply (n : ℕ) (hn : n < 4) (q k : Vec Ideal S1x1024x64 .bf16) (r c : Fin 1024) :
    k1_pay15 (F := Ideal) (BitVec.ofNat 32 n) (BitVec.ofNat 32 n) q k (ix2 r c)
      = if c.val ≤ r.val then scoreBlk q k r c else ⊥ := by
  have e : k1_pay15 (F := Ideal) (BitVec.ofNat 32 n) (BitVec.ofNat 32 n) q k (ix2 r c)
      = Scalar.select (IntOp.cmpi .sge
            (IntOp.addi (Scalar.muli (BitVec.ofNat 32 n) 1024#32) (iota .tc S1024x1024 32 [0] iota_S1024x1024_d0_w32 (ix2 r c)))
            (IntOp.addi (Scalar.muli (BitVec.ofNat 32 n) 1024#32) (iota .tc S1024x1024 32 [1] iota_S1024x1024_d1_w32 (ix2 r c))))
          (k1_pay8 (F := Ideal) q k (ix2 r c)) (Named.named (F := Ideal) κ "neg_big" (φ := .f32) 0xF149F2CA#32) := rfl
  rw [e, iota_single_apply, iota_single_apply, k1_pay8_apply, neg_big_eq]
  show Scalar.select (IntOp.cmpi .sge (IntOp.addi _ (BitVec.ofNat 32 r.val)) (IntOp.addi _ (BitVec.ofNat 32 c.val))) _ _ = _
  rw [mask_word n hn r c]
  by_cases hcr : c.val ≤ r.val
  · rw [if_pos hcr, if_pos hcr, select_one]
  · rw [if_neg hcr, if_neg hcr, select_zero]

/-! ## The payloads are these operations -/

/-- Storing a [1024, 1] value casts it to its own shape. -/
theorem k1_pay4_eq (x : FVec Ideal S1024x1 .f32) : k1_pay4 (F := Ideal) x = x := shapeCast_self _ _
/-- Storing a [1024, 1] value casts it to its own shape. -/
theorem k1_pay6_eq (x : FVec Ideal S1024x1 .f32) : k1_pay6 (F := Ideal) x = x := shapeCast_self _ _
/-- The value block without its unit axis, at entry (c, h). -/
theorem k1_pay14_apply (v : Vec Ideal S1x1024x64 .bf16) (c : Fin 1024) (h : Fin 64) :
    k1_pay14 (F := Ideal) v (ix2 c h) = v (ix3 0 c h) :=
  shapeCast_1ab_ab_apply _ _ c h

/-! ## The state, row by row -/

/-- Row r of the reset state: (-inf, 0, 0). -/
theorem stInit_row (r : Fin 1024) (h : Fin 64) : rowSt (stInit (F := Ideal)) r h = (⊥, 0, 0) := by
  unfold rowSt stInit k1_pay1 k1_pay2 k1_pay3
  dsimp only
  rw [shapeCast_self, shapeCast_self, shapeCast_self, broadcast_apply, broadcast_apply, broadcast_apply]
  show (Ideal.ofBits .f32 0xFF800000#32, Ideal.ofBits .f32 0x00000000#32, Ideal.ofBits .f32 0x00000000#32) = _
  rw [ofBits_neg_inf, Ideal.ofBits_zero_f32]

/-- An unmasked key tile acts on row r as one step of the one-pass softmax computation with that row's scores
    against the tile's keys and column h of the tile's values. -/
theorem stBelow_row (q k v : Vec Ideal S1x1024x64 .bf16) (s : St Ideal) (r : Fin 1024) (h : Fin 64) :
    rowSt (stBelow q k v s) r h
      = OnlineSoftmax.fold1 (fun c : Fin 1024 => scoreBlk q k r c) (fun c => v (ix3 0 c h)) (rowSt s r h) := by
  have h0 := vstep_row (k1_pay8 (F := Ideal) q k) (k1_pay14 (F := Ideal) v) s r h
  simp only [k1_pay8_apply, k1_pay14_apply] at h0
  have e : stBelow q k v s
      = (vMax (k1_pay8 (F := Ideal) q k) s.1,
          vSum (vScale (vMax (k1_pay8 (F := Ideal) q k) s.1) s.1) (vExp (k1_pay8 (F := Ideal) q k) (vMax (k1_pay8 (F := Ideal) q k) s.1)) s.2.1,
          k1_pay5 (F := Ideal) (k1_pay14 (F := Ideal) v) (vScale (vMax (k1_pay8 (F := Ideal) q k) s.1) s.1)
            (vExp (k1_pay8 (F := Ideal) q k) (vMax (k1_pay8 (F := Ideal) q k) s.1)) s.2.2) := by
    unfold stBelow
    rw [k1_pay4_eq]
    rfl
  rw [e]
  exact h0

/-- The diagonal key tile acts on row r as one step of the one-pass softmax computation with that row's scores
    masked to -inf right of the diagonal. -/
theorem stDiag_row (n : ℕ) (hn : n < 4) (q k v : Vec Ideal S1x1024x64 .bf16) (s : St Ideal) (r : Fin 1024) (h : Fin 64) :
    rowSt (stDiag (BitVec.ofNat 32 n) (BitVec.ofNat 32 n) q k v s) r h
      = OnlineSoftmax.fold1 (fun c : Fin 1024 => if c.val ≤ r.val then scoreBlk q k r c else ⊥)
          (fun c => v (ix3 0 c h)) (rowSt s r h) := by
  have h0 := vstep_row (k1_pay15 (F := Ideal) (BitVec.ofNat 32 n) (BitVec.ofNat 32 n) q k) (k1_pay14 (F := Ideal) v) s r h
  simp only [k1_pay15_apply n hn, k1_pay14_apply] at h0
  have e : stDiag (BitVec.ofNat 32 n) (BitVec.ofNat 32 n) q k v s
      = (vMax (k1_pay15 (F := Ideal) (BitVec.ofNat 32 n) (BitVec.ofNat 32 n) q k) s.1,
          vSum (vScale (vMax (k1_pay15 (F := Ideal) (BitVec.ofNat 32 n) (BitVec.ofNat 32 n) q k) s.1) s.1)
            (vExp (k1_pay15 (F := Ideal) (BitVec.ofNat 32 n) (BitVec.ofNat 32 n) q k)
              (vMax (k1_pay15 (F := Ideal) (BitVec.ofNat 32 n) (BitVec.ofNat 32 n) q k) s.1)) s.2.1,
          k1_pay5 (F := Ideal) (k1_pay14 (F := Ideal) v)
            (vScale (vMax (k1_pay15 (F := Ideal) (BitVec.ofNat 32 n) (BitVec.ofNat 32 n) q k) s.1) s.1)
            (vExp (k1_pay15 (F := Ideal) (BitVec.ofNat 32 n) (BitVec.ofNat 32 n) q k)
              (vMax (k1_pay15 (F := Ideal) (BitVec.ofNat 32 n) (BitVec.ofNat 32 n) q k) s.1)) s.2.2) := by
    unfold stDiag
    rw [k1_pay6_eq]
    rfl
  rw [e]
  exact h0

/-- The stored output at entry (0, r, h): the weighted sum times the reciprocal of the sum of exponentials. -/
theorem outOf_row (s : St Ideal) (r : Fin 1024) (h : Fin 64) :
    outOf s (ix3 0 r h) = OnlineSoftmax.onlineOut (rowSt s r h) := by
  unfold outOf k1_pay7 OnlineSoftmax.onlineOut rowSt
  rw [shapeCast_ab_1ab_apply, mulf_apply, broadcastTo_a1_ab_apply, divf_apply, broadcast_apply]
  show s.2.2 (ix2 r h) * Ideal.div (Ideal.ofBits .f32 0x3F800000#32) (s.2.1 (ix2 r 0)) = _
  rw [ofBits_one]

end Cert.KernelIdeal.Hand

end
-- ==== Proof.KI.AttnRows.lean ====
/-
  The carried state of the attention kernel, row by row, is the one-pass softmax fold over the key tiles met so far.
  Fix a batch b and a query tile qi. Along the grid's order the key-tile coordinate ki runs innermost: at ki = 0 the state is
  reset; every key tile ki ≤ qi is folded in (unmasked below the diagonal, under the causal mask on it), and the tiles ki > qi
  leave the state alone. So after the point (b, qi, ki) row r of the state (column h of the accumulator) is the fold of the key
  tiles 0 … min(ki, qi) of the masked scores of query position qi·1024 + r — read off the q, k, v arrays through the
  points' blocks.
-/
import proofs.«150456_j65506841199208_2_alg».proof.Proof.KI.R1Array
import proofs.«150456_j65506841199208_2_alg».proof.Proof.KI.StepValue
import proofs.«150456_j65506841199208_2_alg».proof.Proof.KI.AttnDefs

set_option maxRecDepth 16384

noncomputable section

namespace Cert.KernelIdeal.Hand

open Idealize.ShloMosaic Idealize.ShloMosaic.TcCoe Idealize.ShloMosaic.ValueIdx
open Idealize.SL.Sem
open Cert.KernelIdeal Cert.KernelIdeal.Gen OnlineSoftmax Cert.AttnQKV

variable (V : (c : Dev nD) → (b : Ref sig .tc) → Buf (Elt Ideal) ((c : Thread nD τ).loc b)) (c : Dev nD)

/-- The q, k, v arrays as the attention pallas_call finds them. -/
abbrev Qa : S4x4096x64.Idx → EReal := V c main_v2
abbrev Ka : S4x4096x64.Idx → EReal := V c main_v3
abbrev Va : S4x4096x64.Idx → EReal := V c main_v4

/-- The grid's coordinates of a point: the query tile and the key tile. -/
theorem coords1_facts : ∀ t : Fin cfg1.N, ((grid1.coords t) 1).val = (t.val / 4) % 4 ∧ ((grid1.coords t) 2).val = t.val % 4 :=
  (by decide +kernel : ∀ t : Fin grid1.N, ((grid1.coords t) 1).val = (t.val / 4) % 4 ∧ ((grid1.coords t) 2).val = t.val % 4)

/-- A score inside the point's q and k blocks is the score of the arrays at the block's positions. -/
theorem scoreBlk_blocks (t : Fin cfg1.N) (r cc : Fin 1024) (b : Fin 4) (tq : Fin 4096)
    (hb : b.val = t.val / 16) (htq : tq.val = ((t.val / 4) % 4) * 1024 + r.val) :
    scoreBlk (iblk1 V c 0 t) (iblk1 V c 1 t) r cc
      = score (Qa V c) (Ka V c) b tq (keyPos (min (t.val % 4) ((t.val / 4) % 4)) cc) := by
  have hN : t.val < 64 := lt_of_lt_of_eq t.isLt N_1
  unfold scoreBlk score
  refine congrArg (· * _) (Finset.sum_congr rfl fun e _ => ?_)
  rw [iblk1_0_apply V c t r e b tq hb htq,
    iblk1_1_apply V c t cc e b (keyPos (min (t.val % 4) ((t.val / 4) % 4)) cc) hb (keyPos_val _ (by omega) cc)]

/-- A value inside the point's v block. -/
theorem v_blocks (t : Fin cfg1.N) (cc : Fin 1024) (h : Fin 64) (b : Fin 4) (hb : b.val = t.val / 16) :
    iblk1 V c 2 t (ix3 0 cc h) = vRow (Va V c) b h (min (t.val % 4) ((t.val / 4) % 4)) cc := by
  have hN : t.val < 64 := lt_of_lt_of_eq t.isLt N_1
  unfold vRow
  exact iblk1_2_apply V c t cc h b (keyPos (min (t.val % 4) ((t.val / 4) % 4)) cc) hb (keyPos_val _ (by omega) cc)

open Classical in
/-- One point's transition, row by row: a key tile at or below the diagonal is folded in — from the reset state at the first
    key tile —, a key tile above the diagonal leaves the row's state alone. -/
theorem step_row (t : Fin cfg1.N) (s : St Ideal) (r : Fin 1024) (h : Fin 64) (b : Fin 4) (tq : Fin 4096)
    (hb : b.val = t.val / 16) (htq : tq.val = ((t.val / 4) % 4) * 1024 + r.val) :
    rowSt (stepSt (grid1.coords t) (iblk1 V c 0 t) (iblk1 V c 1 t) (iblk1 V c 2 t) s) r h
      = if t.val % 4 ≤ (t.val / 4) % 4 then
          fold1 (zRow (Qa V c) (Ka V c) b tq (t.val % 4)) (vRow (Va V c) b h (t.val % 4))
            (if t.val % 4 = 0 then (⊥, 0, 0) else rowSt s r h)
        else rowSt s r h := by
  have hN : t.val < 64 := lt_of_lt_of_eq t.isLt N_1
  obtain ⟨hc1, hc2⟩ := coords1_facts t
  have e1 := hcnd1 t; have e2 := hcnd2 t; have e3 := hcnd3 t
  unfold stepSt
  by_cases hle : t.val % 4 ≤ (t.val / 4) % 4
  · rw [if_pos hle]
    have hmin : min (t.val % 4) ((t.val / 4) % 4) = t.val % 4 := Nat.min_eq_left hle
    by_cases hlt : t.val % 4 < (t.val / 4) % 4
    · -- a key tile strictly below the diagonal: unmasked
      have h3 : ¬ cnd3 (grid1.coords t) := fun hh => by have := e3.mp hh; omega
      have hz : (fun cc : Fin 1024 => scoreBlk (iblk1 V c 0 t) (iblk1 V c 1 t) r cc) = zRow (Qa V c) (Ka V c) b tq (t.val % 4) := by
        funext cc
        rw [scoreBlk_blocks V c t r cc b tq hb htq, hmin]
        unfold zRow masked
        rw [if_pos (by rw [keyPos_val _ (by omega) cc, htq]; have := cc.isLt; omega)]
      have hv : (fun cc : Fin 1024 => iblk1 V c 2 t (ix3 0 cc h)) = vRow (Va V c) b h (t.val % 4) := by
        funext cc; rw [v_blocks V c t cc h b hb, hmin]
      by_cases h0 : t.val % 4 = 0
      · simp only [if_pos (e1.mpr h0), if_pos (e2.mpr hlt), if_neg h3, if_pos h0]
        rw [stBelow_row, stInit_row, hz, hv]
      · simp only [if_neg (fun hh => h0 (e1.mp hh)), if_pos (e2.mpr hlt), if_neg h3, if_neg h0]
        rw [stBelow_row, hz, hv]
    · -- the diagonal key tile: under the causal mask
      have heq : t.val % 4 = (t.val / 4) % 4 := by omega
      have h2 : ¬ cnd2 (grid1.coords t) := fun hh => hlt (e2.mp hh)
      have hw1 : BitVec.ofNat 32 ((grid1.coords t) 1).val = BitVec.ofNat 32 (t.val % 4) := by rw [hc1, heq]
      have hw2 : BitVec.ofNat 32 ((grid1.coords t) 2).val = BitVec.ofNat 32 (t.val % 4) := by rw [hc2]
      have hz : (fun cc : Fin 1024 => if cc.val ≤ r.val then scoreBlk (iblk1 V c 0 t) (iblk1 V c 1 t) r cc else ⊥)
          = zRow (Qa V c) (Ka V c) b tq (t.val % 4) := by
        funext cc
        unfold zRow masked
        have hk : (keyPos (t.val % 4) cc).val = (t.val % 4) * 1024 + cc.val := keyPos_val _ (by omega) cc
        by_cases hcr : cc.val ≤ r.val
        · rw [if_pos hcr, if_pos (by rw [hk, htq]; omega), scoreBlk_blocks V c t r cc b tq hb htq, hmin]
        · rw [if_neg hcr, if_neg (by rw [hk, htq]; omega)]
      have hv : (fun cc : Fin 1024 => iblk1 V c 2 t (ix3 0 cc h)) = vRow (Va V c) b h (t.val % 4) := by
        funext cc; rw [v_blocks V c t cc h b hb, hmin]
      by_cases h0 : t.val % 4 = 0
      · simp only [if_pos (e1.mpr h0), if_neg h2, if_pos (e3.mpr heq), if_pos h0]
        rw [hw1, hw2, stDiag_row (t.val % 4) (by omega), stInit_row, hz, hv]
      · simp only [if_neg (fun hh => h0 (e1.mp hh)), if_neg h2, if_pos (e3.mpr heq), if_neg h0]
        rw [hw1, hw2, stDiag_row (t.val % 4) (by omega), hz, hv]
  · -- a key tile above the diagonal: nothing happens
    rw [if_neg hle]
    have h1 : ¬ cnd1 (grid1.coords t) := fun hh => by have := e1.mp hh; omega
    have h2 : ¬ cnd2 (grid1.coords t) := fun hh => by have := e2.mp hh; omega
    have h3 : ¬ cnd3 (grid1.coords t) := fun hh => by have := e3.mp hh; omega
    simp only [if_neg h1, if_neg h2, if_neg h3]

/-- After the point at position `n` of the grid's order, row `r` of the state is the fold of the key tiles 0 … min(ki, qi). -/
theorem rowSt_stAt : ∀ (n : ℕ) (hn : n < cfg1.N) (r : Fin 1024) (h : Fin 64) (b : Fin 4) (tq : Fin 4096),
    b.val = n / 16 → tq.val = ((n / 4) % 4) * 1024 + r.val →
    rowSt (stAt V c n hn) r h = foldNat (zRow (Qa V c) (Ka V c) b tq) (vRow (Va V c) b h) (min (n % 4) ((n / 4) % 4) + 1) := by
  intro n
  induction n with
  | zero =>
    intro hn r h b tq hb htq
    have hs := step_row V c ⟨0, hn⟩ stInit r h b tq hb htq
    rw [stAt_zero V c ⟨0, hn⟩ rfl]
    refine hs.trans ?_
    simp only [Nat.zero_mod, Nat.zero_div, le_refl, if_true, Nat.min_self]
    rfl
  | succ n ih =>
    intro hn r h b tq hb htq
    have hN : n + 1 < 64 := lt_of_lt_of_eq hn N_1
    have hs := step_row V c ⟨n + 1, hn⟩ (stAt V c n (Nat.lt_of_succ_lt hn)) r h b tq hb htq
    rw [stAt_pos V c ⟨n + 1, hn⟩ (Nat.succ_ne_zero n)]
    refine hs.trans ?_
    show (if (n + 1) % 4 ≤ ((n + 1) / 4) % 4 then _ else _) = _
    by_cases hle : (n + 1) % 4 ≤ ((n + 1) / 4) % 4
    · rw [if_pos hle, Nat.min_eq_left hle]
      by_cases h0 : (n + 1) % 4 = 0
      · rw [if_pos h0, h0]; rfl
      · rw [if_neg h0]
        have hb' : b.val = n / 16 := by rw [hb]; omega
        have htq' : tq.val = ((n / 4) % 4) * 1024 + r.val := by rw [htq]; congr 2; omega
        rw [ih (Nat.lt_of_succ_lt hn) r h b tq hb' htq']
        have e : min (n % 4) ((n / 4) % 4) + 1 = (n + 1) % 4 := by
          have : (n / 4) % 4 = ((n + 1) / 4) % 4 := by omega
          rw [Nat.min_eq_left (by omega)]; omega
        rw [e]; rfl
    · rw [if_neg hle]
      have hb' : b.val = n / 16 := by rw [hb]; omega
      have htq' : tq.val = ((n / 4) % 4) * 1024 + r.val := by rw [htq]; congr 2; omega
      rw [ih (Nat.lt_of_succ_lt hn) r h b tq hb' htq']
      have e : min (n % 4) ((n / 4) % 4) = min ((n + 1) % 4) (((n + 1) / 4) % 4) := by
        have : (n / 4) % 4 = ((n + 1) / 4) % 4 := by omega
        rw [Nat.min_eq_right (by omega), Nat.min_eq_right (by omega)]; exact this
      rw [e]

/-- The output block the last key tile's point stores, entry by entry: the one-pass answer over the key tiles 0 … qi. -/
theorem outOf_stAt (t : Fin cfg1.N) (ht : t.val % 4 = 3) (r : Fin 1024) (h : Fin 64) (b : Fin 4) (tq : Fin 4096)
    (hb : b.val = t.val / 16) (htq : tq.val = ((t.val / 4) % 4) * 1024 + r.val) :
    outOf (stAt V c t.val t.isLt) (ix3 0 r h)
      = onlineOut (foldNat (zRow (Qa V c) (Ka V c) b tq) (vRow (Va V c) b h) ((t.val / 4) % 4 + 1)) := by
  rw [outOf_row, rowSt_stAt V c t.val t.isLt r h b tq hb htq, Nat.min_eq_right (by omega)]

end Cert.KernelIdeal.Hand

end
-- ==== Proof.KI.R0Value.lean ====
/-
  The projection call's output block, entry by entry, at the ideal (extended-real) instance.

  The body casts both input blocks to the narrow format (the identity on ideal values), multiplies the
  [1024,1024] row tile by the transposed [192,1024] weight — contracting the last axis of both — into a
  zero accumulator, casts the product to the narrow format and stores it over the whole [1,1024,192]
  output block. So entry (0, r, j) of the block is  ∑ c, x0 (0, r, c) * x1 (j, c).
-/
import proofs.«150456_j65506841199208_2_alg».proof.Proof.KI.R0
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx

/-! ## The product's dimension numbers: which operand coordinate each output / contraction coordinate feeds -/

/-- The product's dimension numbers: rows × contraction times (columns × contraction) transposed. -/
abbrev projDims : DotDims S1024x1024 S192x1024 S1024x192 := dot_S1024x1024_S192x1024_S1024x192_1_1_0_0_n_n

/-- The left operand's row is the output's row. -/
theorem projDims_lhs_0 (i : S1024x192.Idx) (q : projDims.contr.Idx) : (projDims.lhsIdx i q 0).val = (i 0).val := by
  unfold DotDims.lhsIdx
  rw [dif_neg (show ¬(0 : Fin S1024x1024.rank) ∈ projDims.lhsBatch by decide), dif_pos (show (0 : Fin S1024x1024.rank) ∈ projDims.lhsNonContracting by decide)]
  rfl
/-- The left operand's column is the contraction coordinate. -/
theorem projDims_lhs_1 (i : S1024x192.Idx) (q : projDims.contr.Idx) : (projDims.lhsIdx i q 1).val = (q ⟨0, by decide⟩).val :=
  projDims.lhsIdx_val_of_single rfl i q
/-- The right operand's row is the output's column. -/
theorem projDims_rhs_0 (i : S1024x192.Idx) (q : projDims.contr.Idx) : (projDims.rhsIdx i q 0).val = (i 1).val := by
  unfold DotDims.rhsIdx
  rw [dif_neg (show ¬(0 : Fin S192x1024.rank) ∈ projDims.rhsBatch by decide), dif_pos (show (0 : Fin S192x1024.rank) ∈ projDims.rhsNonContracting by decide)]
  rfl
/-- The right operand's column is the contraction coordinate. -/
theorem projDims_rhs_1 (i : S1024x192.Idx) (q : projDims.contr.Idx) : (projDims.rhsIdx i q 1).val = (q ⟨0, by decide⟩).val :=
  projDims.rhsIdx_val_of_single rfl i q

/-! ## The payload at an entry -/

/-- The stored value at entry (0, r, j): the row r of the tile against the row j of the weight. -/
theorem k0_pay1_apply (v0 : Vec Ideal S1x1024x1024 .f32) (v3 : Vec Ideal S192x1024 .f32) (r : Fin 1024) (j : Fin 192) :
    k0_pay1 (F := Ideal) v0 v3 (ix3 0 r j) = ∑ c : Fin 1024, v0 (ix3 0 r c) * v3 (ix2 j c) := by
  unfold k0_pay1
  -- the added unit axis: entry (0, r, j) of the stored block is entry (r, j) of the product
  rw [shapeCast_apply _ _ (ix3 0 r j) (ix2 r j) (by rw [Shape.rowMajor_val_two, Shape.rowMajor_val_three]; simp)]
  rw [truncf_apply]
  simp only [Idealize.ShloMosaic.matmul]
  rw [Ideal.matmul_constant_zero_apply,
    ← Equiv.sum_comp (contrEquiv1 projDims 1024 rfl rfl).symm]
  refine Finset.sum_congr rfl fun c _ => ?_
  have hc := contrEquiv1_symm_val projDims 1024 rfl rfl c
  have el : projDims.lhsIdx (ix2 r j) ((contrEquiv1 projDims 1024 rfl rfl).symm c) = ix2 r c := funext fun a => Fin.ext (by
    match a with
    | ⟨0, _⟩ => exact projDims_lhs_0 _ _
    | ⟨1, _⟩ => exact (projDims_lhs_1 _ _).trans hc)
  have er : projDims.rhsIdx (ix2 r j) ((contrEquiv1 projDims 1024 rfl rfl).symm c) = ix2 j c := funext fun a => Fin.ext (by
    match a with
    | ⟨0, _⟩ => exact projDims_rhs_0 _ _
    | ⟨1, _⟩ => exact (projDims_rhs_1 _ _).trans hc)
  rw [el, er, truncf_apply, truncf_apply, shapeCast_self,
    shapeCast_apply _ _ (ix2 r c) (ix3 0 r c) (by rw [Shape.rowMajor_val_two, Shape.rowMajor_val_three]; simp)]

/-! ## The output block at an entry -/

/-- The whole-buffer offsets are zero. -/
theorem zero3 : (![0, 0, 0] : Fin 3 → Nat) = fun _ => 0 := by
  funext a; match a with | ⟨0, _⟩ => rfl | ⟨1, _⟩ => rfl | ⟨2, _⟩ => rfl
theorem zero2 : (![0, 0] : Fin 2 → Nat) = fun _ => 0 := by
  funext a; match a with | ⟨0, _⟩ => rfl | ⟨1, _⟩ => rfl

/-- The output block is the payload of the two input blocks: the one write is of the whole buffer and the two
    reads are of whole buffers. -/
theorem out0_2_eq (x0 : Vec Ideal S1x1024x1024 .f32) (x1 : Vec Ideal S192x1024 .f32) :
    out0_2 (F := Ideal) x0 x1 = k0_pay1 (F := Ideal) x0 x1 := by
  unfold out0_2
  rw [View.canon_unit_zero zero3, View.ld_unit_zero (S := S1x1024x1024) zero3, View.ld_unit_zero (S := S192x1024) zero2]

/-- Entry (0, r, j) of the output block: row r of the activations' tile against row j of the weight. -/
theorem out0_2_apply (x0 : Vec Ideal S1x1024x1024 .f32) (x1 : Vec Ideal S192x1024 .f32) (r : Fin 1024) (j : Fin 192) :
    out0_2 (F := Ideal) x0 x1 (ix3 0 r j) = ∑ c : Fin 1024, x0 (ix3 0 r c) * x1 (ix2 j c) := by
  rw [out0_2_eq, k0_pay1_apply]

end Cert.KernelIdeal.Hand

end
-- ==== Proof.KI.R0Array.lean ====
/-
  The projection call's output ARRAY after the region, as one function of the two arrays it reads.

  Each of the 16 grid points (batch b, row tile s) writes back the block [b, 1024 s … 1024 s + 1023, 0 … 191]
  of the output; by the block's entry formula that block is the restriction of

      P (b, r, j) = ∑ e, X (b, r, e) * W (j, e)

  (X the activations, W the concatenated weight, both as the region finds them), because the activations'
  block moves with the output's block and the weight's block is the whole weight at every point. The 16
  blocks tile the output, so after the region the output array is P.
-/
import proofs.«150456_j65506841199208_2_alg».proof.Proof.KI.R0Value

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

/-- The projected array of activations `X` and a weight `W` (one row per output feature):
    entry (b, r, j) is the row (b, r) of `X` against the row j of `W`. -/
def projArr (X : S4x4096x1024.Idx → EReal) (W : S192x1024.Idx → EReal) : S4x4096x192.Idx → EReal :=
  fun j => ∑ e : Fin 1024, X (ix3 (j 0) (j 1) e) * W (ix2 (j 2) e)

/-- Its entry at an index, for rewriting. -/
theorem projArr_apply (X : S4x4096x1024.Idx → EReal) (W : S192x1024.Idx → EReal) (j : S4x4096x192.Idx) :
    projArr X W j = ∑ e : Fin 1024, X (ix3 (j 0) (j 1) e) * W (ix2 (j 2) e) := rfl

/-- The three index maps over the grid: the activations' block moves with the output's block (batch and row
    tile) and spans the whole contraction axis; the weight's block never moves; the output's block at point
    t is (t / 4, t % 4, 0). -/
theorem proj_idx_facts : ∀ t : Fin cfg0.N,
    win0_0.index t (0 : Fin 3) = win0_2.index t (0 : Fin 3)
    ∧ win0_0.index t (1 : Fin 3) = win0_2.index t (1 : Fin 3)
    ∧ win0_0.index t (2 : Fin 3) = 0
    ∧ win0_1.index t (0 : Fin 2) = 0
    ∧ win0_1.index t (1 : Fin 2) = 0
    ∧ win0_2.index t (0 : Fin 3) ≤ 3
    ∧ win0_2.index t (1 : Fin 3) ≤ 3
    ∧ win0_2.index t (2 : Fin 3) = 0 :=
  (by decide +kernel : ∀ t : Fin grid0.N, _)

/-- Every (batch, row tile) is some point's output block. -/
theorem proj_idx_onto : ∀ (q0 : Fin 4) (q1 : Fin 4), ∃ t : Fin cfg0.N, win0_2.index t = ![q0.val, q1.val, 0] :=
  (by decide +kernel : ∀ (q0 : Fin 4) (q1 : Fin 4), ∃ t : Fin grid0.N, win0_2.index t = ![q0.val, q1.val, 0])

section AtV

variable (V : (c : Dev nD) → (b : Ref sig .tc) → Buf (Elt Ideal) ((c : Thread nD τ).loc b))

/-- What point `t` writes back is block `t` of the projected array. -/
theorem proj_flushed_eq (c : Dev nD) (t : Fin cfg0.N) :
    (dat0 (F := Ideal) V c).flushed 2 t
      = ((cfg0.win 2).blk t).view.read (Elt Ideal) (projArr (V c main_arg0) (V c main_v0)) := by
  show (cfg0.win 2).cut (grid0.coords t) ((dat0 (F := Ideal) V c).after 2 t) = _
  rw [after0_2]
  obtain ⟨e0, e1, e2, e3, e4, e5, e6, e7⟩ := proj_idx_facts t
  funext y
  obtain ⟨z, r, j, rfl⟩ : ∃ (z : Fin 1) (r : Fin 1024) (j : Fin 192), y = ix3 z r j := ⟨y 0, y 1, y 2, eq_ix3 y⟩
  obtain rfl : z = 0 := Subsingleton.elim _ _
  show out0_2 (F := Ideal) (iblk0 V c 0 t) (iblk0 V c 1 t) (ix3 0 r j) = projArr (V c main_arg0) (V c main_v0) (((cfg0.win 2).blk t).view.emb (ix3 0 r j))
  rw [out0_2_apply]
  unfold projArr
  refine Finset.sum_congr rfl fun e _ => ?_
  -- the activations' block entry (0, r, e) sits in the array at the output block's batch and row, column e
  have h0 : iblk0 V c 0 t (ix3 0 r e)
      = V c main_arg0 (ix3 ((((cfg0.win 2).blk t).view.emb (ix3 0 r j)) 0) ((((cfg0.win 2).blk t).view.emb (ix3 0 r j)) 1) e) := by
    show V c main_arg0 (((cfg0.win 0).blk t).view.emb (ix3 0 r e)) = _
    refine congrArg _ (funext fun a => Fin.ext ?_)
    match a with
    | ⟨0, _⟩ => show win0_0.index t (0 : Fin 3) * 1 + 1 * (0 : Fin 1).val = win0_2.index t (0 : Fin 3) * 1 + 1 * (0 : Fin 1).val; omega
    | ⟨1, _⟩ => show win0_0.index t (1 : Fin 3) * 1024 + 1 * r.val = win0_2.index t (1 : Fin 3) * 1024 + 1 * r.val; omega
    | ⟨2, _⟩ => show win0_0.index t (2 : Fin 3) * 1024 + 1 * e.val = e.val; omega
  -- the weight's block is the whole weight; the output block's column is the output's column
  have h1 : iblk0 V c 1 t (ix2 j e) = V c main_v0 (ix2 ((((cfg0.win 2).blk t).view.emb (ix3 0 r j)) 2) e) := by
    show V c main_v0 (((cfg0.win 1).blk t).view.emb (ix2 j e)) = _
    refine congrArg _ (funext fun a => Fin.ext ?_)
    match a with
    | ⟨0, _⟩ => show win0_1.index t (0 : Fin 2) * 192 + 1 * j.val = win0_2.index t (2 : Fin 3) * 192 + 1 * j.val; omega
    | ⟨1, _⟩ => show win0_1.index t (1 : Fin 2) * 1024 + 1 * e.val = e.val; omega
  rw [h0, h1]

/-- An index of the output array is in point `t`'s block iff each coordinate is in the block's range on its axis. -/
theorem proj_mem_blk (t : Fin cfg0.N) (i : S4x4096x192.Idx) :
    i ∈ ((cfg0.win 2).blk t).view.set ↔ ∀ a : Fin 3, win0_2.index t a * S1x1024x192.size a ≤ (i a).val ∧ (i a).val < win0_2.index t a * S1x1024x192.size a + S1x1024x192.size a := by
  show i ∈ ((View.whole main_v1).slice (win0_2.rect t)).set ↔ _
  rw [View.set_slice_whole, Rect.mem_set_unit]
  exact Iff.rfl

/-- The blocks tile the output: row r of batch b lies in the block of the point whose output block is (b, r / 1024, 0). -/
theorem proj_cover (i : S4x4096x192.Idx) :
    ∃ t : Fin cfg0.N, (cfg0.win 2).flush t = true ∧ i ∈ ((cfg0.win 2).blk t).view.set := by
  have hi0 : (i 0).val < 4 := (i 0).isLt
  have hi1 : (i 1).val < 4096 := (i 1).isLt
  have hi2 : (i 2).val < 192 := (i 2).isLt
  obtain ⟨t, ht⟩ := proj_idx_onto ⟨(i 0).val, by omega⟩ ⟨(i 1).val / 1024, by omega⟩
  have q0 : win0_2.index t (0 : Fin 3) = (i 0).val := congrFun ht 0
  have q1 : win0_2.index t (1 : Fin 3) = (i 1).val / 1024 := congrFun ht 1
  have q2 : win0_2.index t (2 : Fin 3) = 0 := congrFun ht 2
  refine ⟨t, flush0_2 t, ?_⟩
  rw [proj_mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 192 ≤ (i 2).val ∧ (i 2).val < win0_2.index t (2 : Fin 3) * 192 + 192; omega

/-- THE OUTPUT ARRAY after the region: the projected array of the activations and the weight as the region finds them. -/
theorem proj_final (c : Dev nD) :
    (dat0 (F := Ideal) V c).arrAt 2 cfg0.N = projArr (V c main_arg0) (V c main_v0) :=
  (dat0 (F := Ideal) V c).arrAt_eq_of_cover 2 (projArr (V c main_arg0) (V c main_v0)) (fun t _ => proj_flushed_eq V c t) proj_cover

end AtV

end Cert.KernelIdeal.Hand

end
-- ==== Proof.AttnSpec.lean ====
/-
  Causal single-head attention over the extended reals, as one function of the four argument arrays
  (x : [4, 4096, 1024], and three weight matrices [64, 1024]), entry by entry:

      q b t e = ∑ c, x b t c * Wq e c          (likewise k with Wk, v with Wv)
      score b t s = (∑ e, q b t e * k b s e) * (1/8)          (the literal is the exact binary value 0.125)
      masked b t s = score b t s if s ≤ t, else -inf
      out b t h = the softmax-weighted sum over s of v b s h under the scores masked b t ·
-/
import proofs.«150456_j65506841199208_2_alg».proof.Proof.LibSoftmaxSpec
import Idealize.ShloMosaic.Lib.ValueIdx

noncomputable section

namespace Cert.AttnSpec

open Idealize.ShloMosaic Idealize.ShloMosaic.ValueIdx

abbrev XIdx : Type := (⟨3, ![4, 4096, 1024]⟩ : Shape).Idx
abbrev WIdx : Type := (⟨2, ![64, 1024]⟩ : Shape).Idx
abbrev OIdx : Type := (⟨3, ![4, 4096, 64]⟩ : Shape).Idx

/-- One entry of a projection `x · Wᵀ`. -/
def projAt (x : XIdx → EReal) (w : WIdx → EReal) (b : Fin 4) (t : Fin 4096) (e : Fin 64) : EReal :=
  ∑ c : Fin 1024, x (ix3 b t c) * w (ix2 e c)

/-- The scaled score of query position `t` against key position `s`. -/
def scoreAt (x : XIdx → EReal) (wq wk : WIdx → EReal) (b : Fin 4) (t s : Fin 4096) : EReal :=
  (∑ e : Fin 64, projAt x wq b t e * projAt x wk b s e) * Ideal.ofBits .f32 0x3E000000#32

/-- The score under the causal mask: a key position after the query position scores -inf. -/
def maskedScore (x : XIdx → EReal) (wq wk : WIdx → EReal) (b : Fin 4) (t s : Fin 4096) : EReal :=
  if s.val ≤ t.val then scoreAt x wq wk b t s else ⊥

/-- One entry of the attention output. -/
def attnAt (x : XIdx → EReal) (wq wk wv : WIdx → EReal) (b : Fin 4) (t : Fin 4096) (h : Fin 64) : EReal :=
  OnlineSoftmax.softmaxSum (maskedScore x wq wk b t) (fun s => projAt x wv b s h)

/-- The attention output as an array. -/
def attn (x : XIdx → EReal) (wq wk wv : WIdx → EReal) : OIdx → EReal :=
  fun j => attnAt x wq wk wv (j 0) (j 1) (j 2)

theorem attn_apply (x : XIdx → EReal) (wq wk wv : WIdx → EReal) (b : Fin 4) (t : Fin 4096) (h : Fin 64) :
    attn x wq wk wv (ix3 b t h) = attnAt x wq wk wv b t h := rfl

end Cert.AttnSpec

end
-- ==== Proof.KI.QKV.lean ====
/-
  The attention call's three input arrays are the three projections of the specification.

  Before the projection call the host concatenates the three [64,1024] weight matrices along the rows into one
  [192,1024] weight; the projection call leaves in its output array the activations against that weight
  (entry (b, t, j) = ∑ c, x (b, t, c) * W (j, c)); after it the host cuts that [4,4096,192] array into three
  [4,4096,64] arrays by columns 0 … 63, 64 … 127, 128 … 191. Column j of the first is row j of the first
  matrix, of the second row j of the second, of the third row j of the third: so the three arrays are the
  activations against each weight matrix, entry by entry.
-/
import proofs.«150456_j65506841199208_2_alg».proof.Proof.KI.Run
import proofs.«150456_j65506841199208_2_alg».proof.Proof.KI.R0Array
import proofs.«150456_j65506841199208_2_alg».proof.Proof.AttnSpec

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.ValueIdx
open Idealize.ShloMosaic.Pipeline (Dat)

variable (m : (ℓ : Loc nD τ sig) → Buf (Elt Ideal) ℓ) (ρ : Dev nD → PrngReg)

/-- The activations at the projection's entry are the launch contents: the concatenation does not write them. -/
theorem U1_main_arg0 (c : Dev nD) : U1 m ρ c main_arg0 = m ((c : Thread nD τ).loc main_arg0) :=
  W1_keep m ρ c main_arg0 (by decide)

/-- The concatenated weight at the projection's entry. -/
theorem U1_main_v0 (c : Dev nD) :
    (U1 m ρ c main_v0 : S192x1024.Idx → EReal)
      = concatenate S192x1024 0 [⟨S64x1024, m ((c : Thread nD τ).loc main_arg1)⟩, ⟨S64x1024, m ((c : Thread nD τ).loc main_arg2)⟩, ⟨S64x1024, m ((c : Thread nD τ).loc main_arg3)⟩]
          concatenates_S64x1024_S64x1024_S64x1024_S192x1024_d0 := by
  dsimp only [U1, W1, hostOps0]
  after_results
  rfl

/-- The three slices at the attention's entry. -/
theorem U3_main_v2 (c : Dev nD) :
    (U3 m ρ c main_v2 : S4x4096x64.Idx → EReal)
      = extractStridedSlice S4x4096x64 ![0, 0, 0] (W2 m ρ c (Proc.devRef .tc main_v1) : S4x4096x192.Idx → EReal) slices_S4x4096x192_S4x4096x64_0_0_0 := by
  dsimp only [U3, W3, hostOps1]
  after_results
theorem U3_main_v3 (c : Dev nD) :
    (U3 m ρ c main_v3 : S4x4096x64.Idx → EReal)
      = extractStridedSlice S4x4096x64 ![0, 0, 64] (W2 m ρ c (Proc.devRef .tc main_v1) : S4x4096x192.Idx → EReal) slices_S4x4096x192_S4x4096x64_0_0_64 := by
  dsimp only [U3, W3, hostOps1]
  after_results
theorem U3_main_v4 (c : Dev nD) :
    (U3 m ρ c main_v4 : S4x4096x64.Idx → EReal)
      = extractStridedSlice S4x4096x64 ![0, 0, 128] (W2 m ρ c (Proc.devRef .tc main_v1) : S4x4096x192.Idx → EReal) slices_S4x4096x192_S4x4096x64_0_0_128 := by
  dsimp only [U3, W3, hostOps1]
  after_results

/-- The projected array at the projection's exit. -/
theorem W2_main_v1 (c : Dev nD) :
    (W2 m ρ c (Proc.devRef .tc main_v1) : S4x4096x192.Idx → EReal) = projArr (U1 m ρ c main_arg0) (U1 m ρ c main_v0) :=
  (W2_arr m ρ c 2).trans (proj_final (U1 m ρ) c)

/-! ## The concatenation and the slices at an index -/

/-- Rows 0 … 63 of the concatenation are the first matrix. -/
theorem concat3_first (w1 w2 w3 : S64x1024.Idx → EReal) (j : Fin 64) (e : Fin 1024) :
    concatenate S192x1024 0 [⟨S64x1024, w1⟩, ⟨S64x1024, w2⟩, ⟨S64x1024, w3⟩] concatenates_S64x1024_S64x1024_S64x1024_S192x1024_d0
        (ix2 (⟨0 + j.val, by omega⟩ : Fin 192) e) = w1 (ix2 j e) := by
  refine concatenate_apply_piece (t := S192x1024) (0 : Fin 2) [⟨S64x1024, w1⟩, ⟨S64x1024, w2⟩, ⟨S64x1024, w3⟩]
    concatenates_S64x1024_S64x1024_S64x1024_S192x1024_d0 (ix2 (⟨0 + j.val, by omega⟩ : Fin 192) e) 0 (by simp) S64x1024 w1 rfl rfl 0 ?_ (ix2 j e) ?_ ?_
  · simp
  · intro b hb
    match b with
    | ⟨0, _⟩ => exact absurd rfl hb
    | ⟨1, _⟩ => rfl
  · show 0 + j.val = 0 + j.val; rfl
/-- Rows 64 … 127 are the second. -/
theorem concat3_second (w1 w2 w3 : S64x1024.Idx → EReal) (j : Fin 64) (e : Fin 1024) :
    concatenate S192x1024 0 [⟨S64x1024, w1⟩, ⟨S64x1024, w2⟩, ⟨S64x1024, w3⟩] concatenates_S64x1024_S64x1024_S64x1024_S192x1024_d0
        (ix2 (⟨64 + j.val, by omega⟩ : Fin 192) e) = w2 (ix2 j e) := by
  refine concatenate_apply_piece (t := S192x1024) (0 : Fin 2) [⟨S64x1024, w1⟩, ⟨S64x1024, w2⟩, ⟨S64x1024, w3⟩]
    concatenates_S64x1024_S64x1024_S64x1024_S192x1024_d0 (ix2 (⟨64 + j.val, by omega⟩ : Fin 192) e) 1 (by simp) S64x1024 w2 rfl rfl 64 ?_ (ix2 j e) ?_ ?_
  · simp
  · intro b hb
    match b with
    | ⟨0, _⟩ => exact absurd rfl hb
    | ⟨1, _⟩ => rfl
  · show 64 + j.val = 64 + j.val; omega
/-- Rows 128 … 191 are the third. -/
theorem concat3_third (w1 w2 w3 : S64x1024.Idx → EReal) (j : Fin 64) (e : Fin 1024) :
    concatenate S192x1024 0 [⟨S64x1024, w1⟩, ⟨S64x1024, w2⟩, ⟨S64x1024, w3⟩] concatenates_S64x1024_S64x1024_S64x1024_S192x1024_d0
        (ix2 (⟨128 + j.val, by omega⟩ : Fin 192) e) = w3 (ix2 j e) := by
  refine concatenate_apply_piece (t := S192x1024) (0 : Fin 2) [⟨S64x1024, w1⟩, ⟨S64x1024, w2⟩, ⟨S64x1024, w3⟩]
    concatenates_S64x1024_S64x1024_S64x1024_S192x1024_d0 (ix2 (⟨128 + j.val, by omega⟩ : Fin 192) e) 2 (by simp) S64x1024 w3 rfl rfl 128 ?_ (ix2 j e) ?_ ?_
  · simp
  · intro b hb
    match b with
    | ⟨0, _⟩ => exact absurd rfl hb
    | ⟨1, _⟩ => rfl
  · show 128 + j.val = 128 + j.val; omega

/-- A slice of 64 columns from column `o` on, at an entry. -/
theorem colslice_apply (o : Nat) (ho : o + 64 ≤ 192) (X : S4x4096x192.Idx → EReal) (h : S4x4096x192.Slices ![0, 0, o] S4x4096x64)
    (b : Fin 4) (t : Fin 4096) (e : Fin 64) :
    extractStridedSlice S4x4096x64 ![0, 0, o] X h (ix3 b t e) = X (ix3 b t (⟨o + e.val, by omega⟩ : Fin 192)) :=
  extractStridedSlice_apply ![0, 0, o] X h (ix3 b t e) (ix3 b t (⟨o + e.val, by omega⟩ : Fin 192)) (fun a => by
    match a with
    | ⟨0, _⟩ => show b.val = 0 + b.val; omega
    | ⟨1, _⟩ => show t.val = 0 + t.val; omega
    | ⟨2, _⟩ => rfl)

/-! ## The attention's three input arrays are the three projections -/
/-- The queries: columns 0 … 63 of the projected array, the activations against the first weight matrix. -/
theorem U3_q (c : Dev nD) (b : Fin 4) (t : Fin 4096) (e : Fin 64) :
    (U3 m ρ c main_v2 : S4x4096x64.Idx → EReal) (ix3 b t e)
      = Cert.AttnSpec.projAt (m ((c : Thread nD τ).loc main_arg0)) (m ((c : Thread nD τ).loc main_arg1)) b t e := by
  rw [U3_main_v2, colslice_apply 0 (by omega), W2_main_v1, projArr_apply, U1_main_arg0, U1_main_v0]
  unfold Cert.AttnSpec.projAt
  change @Eq EReal _ _
  refine Finset.sum_congr rfl fun x _ => ?_
  refine congrArg₂ (fun (p q : EReal) => p * q) rfl ?_
  exact concat3_first _ _ _ e x
/-- The keys: columns 64 … 127, against the second. -/
theorem U3_k (c : Dev nD) (b : Fin 4) (t : Fin 4096) (e : Fin 64) :
    (U3 m ρ c main_v3 : S4x4096x64.Idx → EReal) (ix3 b t e)
      = Cert.AttnSpec.projAt (m ((c : Thread nD τ).loc main_arg0)) (m ((c : Thread nD τ).loc main_arg2)) b t e := by
  rw [U3_main_v3, colslice_apply 64 (by omega), W2_main_v1, projArr_apply, U1_main_arg0, U1_main_v0]
  unfold Cert.AttnSpec.projAt
  change @Eq EReal _ _
  refine Finset.sum_congr rfl fun x _ => ?_
  refine congrArg₂ (fun (p q : EReal) => p * q) rfl ?_
  exact concat3_second _ _ _ e x
/-- The values: columns 128 … 191, against the third. -/
theorem U3_v (c : Dev nD) (b : Fin 4) (t : Fin 4096) (e : Fin 64) :
    (U3 m ρ c main_v4 : S4x4096x64.Idx → EReal) (ix3 b t e)
      = Cert.AttnSpec.projAt (m ((c : Thread nD τ).loc main_arg0)) (m ((c : Thread nD τ).loc main_arg3)) b t e := by
  rw [U3_main_v4, colslice_apply 128 (by omega), W2_main_v1, projArr_apply, U1_main_arg0, U1_main_v0]
  unfold Cert.AttnSpec.projAt
  change @Eq EReal _ _
  refine Finset.sum_congr rfl fun x _ => ?_
  refine congrArg₂ (fun (p q : EReal) => p * q) rfl ?_
  exact concat3_third _ _ _ e x

end Cert.KernelIdeal.Hand

end
-- ==== Proof.AttnBridge.lean ====
/-
  Attention over the projected arrays is attention over the inputs: when the query, key and value arrays hold the three
  projections of x entry by entry, the attention output computed from the arrays is the one computed from x and the
  three weight matrices. Also: a projection of real data by real weights is real (a finite sum of products of reals),
  and a property of all entries of a rank-3 array may be checked coordinate by coordinate.
-/
import proofs.«150456_j65506841199208_2_alg».proof.Proof.AttnSpec
import proofs.«150456_j65506841199208_2_alg».proof.Proof.KI.AttnDefs
import proofs.«150456_j65506841199208_2_alg».proof.Proof.LibOnlineSoftmax

noncomputable section

namespace Cert.AttnBridge

open Idealize.ShloMosaic Idealize.ShloMosaic.ValueIdx

/-- An entry of the projection of real data by real weights is real. -/
theorem projAt_real (x : Cert.AttnSpec.XIdx → EReal) (w : Cert.AttnSpec.WIdx → EReal)
    (hx : ∀ i, ∃ r : ℝ, x i = (r : EReal)) (hw : ∀ i, ∃ r : ℝ, w i = (r : EReal))
    (b : Fin 4) (t : Fin 4096) (e : Fin 64) : ∃ r : ℝ, Cert.AttnSpec.projAt x w b t e = (r : EReal) := by
  choose fx hfx using hx
  choose fw hfw using hw
  refine ⟨∑ c : Fin 1024, fx (ix3 b t c) * fw (ix2 e c), ?_⟩
  unfold Cert.AttnSpec.projAt
  rw [OnlineSoftmax.coe_sum]
  refine Finset.sum_congr rfl (fun c _ => ?_)
  rw [hfx, hfw, EReal.coe_mul]

/-- One entry: the scores and the values of the two attention outputs are the same families. -/
theorem attn_entry (x : Cert.AttnSpec.XIdx → EReal) (wq wk wv : Cert.AttnSpec.WIdx → EReal)
    (Q K Vv : Cert.AttnQKV.AIdx → EReal)
    (hq : ∀ (b : Fin 4) (t : Fin 4096) (e : Fin 64), Q (ix3 b t e) = Cert.AttnSpec.projAt x wq b t e)
    (hk : ∀ (b : Fin 4) (t : Fin 4096) (e : Fin 64), K (ix3 b t e) = Cert.AttnSpec.projAt x wk b t e)
    (hv : ∀ (b : Fin 4) (t : Fin 4096) (e : Fin 64), Vv (ix3 b t e) = Cert.AttnSpec.projAt x wv b t e)
    (b : Fin 4) (t : Fin 4096) (h : Fin 64) :
    Cert.AttnQKV.attn Q K Vv b t h = Cert.AttnSpec.attnAt x wq wk wv b t h := by
  have hz : Cert.AttnQKV.masked Q K b t = Cert.AttnSpec.maskedScore x wq wk b t := by
    funext s
    unfold Cert.AttnQKV.masked Cert.AttnSpec.maskedScore Cert.AttnQKV.score Cert.AttnSpec.scoreAt
    have hs : (∑ e : Fin 64, Q (ix3 b t e) * K (ix3 b s e))
        = ∑ e : Fin 64, Cert.AttnSpec.projAt x wq b t e * Cert.AttnSpec.projAt x wk b s e :=
      Finset.sum_congr rfl (fun e _ => by rw [hq, hk])
    rw [hs]
  have hvv : (fun s : Fin 4096 => Vv (ix3 b s h)) = fun s => Cert.AttnSpec.projAt x wv b s h :=
    funext fun s => hv b s h
  unfold Cert.AttnQKV.attn Cert.AttnSpec.attnAt
  rw [hz, hvv]

/-- The attention output over arrays that hold the three projections of `x` is the attention output of `x`. -/
theorem attn_of_proj (x : Cert.AttnSpec.XIdx → EReal) (wq wk wv : Cert.AttnSpec.WIdx → EReal)
    (Q K Vv : Cert.AttnQKV.AIdx → EReal)
    (hq : ∀ (b : Fin 4) (t : Fin 4096) (e : Fin 64), Q (ix3 b t e) = Cert.AttnSpec.projAt x wq b t e)
    (hk : ∀ (b : Fin 4) (t : Fin 4096) (e : Fin 64), K (ix3 b t e) = Cert.AttnSpec.projAt x wk b t e)
    (hv : ∀ (b : Fin 4) (t : Fin 4096) (e : Fin 64), Vv (ix3 b t e) = Cert.AttnSpec.projAt x wv b t e) :
    (fun j : Cert.AttnSpec.OIdx => Cert.AttnQKV.attn Q K Vv (j 0) (j 1) (j 2)) = Cert.AttnSpec.attn x wq wk wv := by
  funext j
  exact attn_entry x wq wk wv Q K Vv hq hk hv (j 0) (j 1) (j 2)

/-- Every entry of a rank-3 array is real when every entry named by its three coordinates is. -/
theorem real_of_forall_ix3 (Q : Cert.AttnQKV.AIdx → EReal)
    (h : ∀ (b : Fin 4) (t : Fin 4096) (e : Fin 64), ∃ r : ℝ, Q (ix3 b t e) = (r : EReal)) :
    ∀ j, ∃ r : ℝ, Q j = (r : EReal) := by
  intro j
  obtain ⟨r, hr⟩ := h (j 0) (j 1) (j 2)
  exact ⟨r, by rw [eq_ix3 j]; exact hr⟩

end Cert.AttnBridge

end
-- ==== Proof.KI.KernelValue.lean ====
/-
  The value the kernel's program leaves in its result buffer: causal softmax attention of the projections of the
  activations by the three weight matrices, as one function of the four argument arrays — under the hypothesis that
  every argument entry is a real number (so that every projection is).
  The result buffer is the attention pallas_call's output array after the run; that array is assembled from the
  blocks the last key tile's points store; each stored entry is the one-pass softmax answer of its row over the key tiles
  up to the diagonal, which is the softmax-weighted sum over all key positions under the causal mask; and the q, k, v
  arrays the pallas_call reads are the three projections.
-/
import proofs.«150456_j65506841199208_2_alg».proof.Proof.KI.Run
import proofs.«150456_j65506841199208_2_alg».proof.Proof.KI.AttnArray
import proofs.«150456_j65506841199208_2_alg».proof.Proof.KI.AttnRows
import proofs.«150456_j65506841199208_2_alg».proof.Proof.KI.QKV
import proofs.«150456_j65506841199208_2_alg».proof.Proof.AttnBridge

set_option maxRecDepth 16384

noncomputable section

namespace Cert.KernelIdeal.Hand

open Idealize.ShloMosaic Idealize.ShloMosaic.TcCoe Idealize.ShloMosaic.ValueIdx
open Idealize.SL.Sem
open Cert.KernelIdeal Cert.KernelIdeal.Gen OnlineSoftmax Cert.AttnQKV

variable (m : (ℓ : Loc nD τ sig) → Buf (Elt Ideal) ℓ) (ρ : Dev nD → PrngReg) (c : Dev nD)

theorem kernel_value
    (hx : ∀ i, ∃ r : ℝ, (m ((c : Thread nD τ).loc main_arg0) : Cert.AttnSpec.XIdx → EReal) i = (r : EReal))
    (hwq : ∀ i, ∃ r : ℝ, (m ((c : Thread nD τ).loc main_arg1) : Cert.AttnSpec.WIdx → EReal) i = (r : EReal))
    (hwk : ∀ i, ∃ r : ℝ, (m ((c : Thread nD τ).loc main_arg2) : Cert.AttnSpec.WIdx → EReal) i = (r : EReal))
    (hwv : ∀ i, ∃ r : ℝ, (m ((c : Thread nD τ).loc main_arg3) : Cert.AttnSpec.WIdx → EReal) i = (r : EReal)) :
    (W4 (F := Ideal) m ρ c (Proc.devRef .tc main_v5) : Cert.AttnSpec.OIdx → EReal)
      = Cert.AttnSpec.attn (m ((c : Thread nD τ).loc main_arg0)) (m ((c : Thread nD τ).loc main_arg1))
          (m ((c : Thread nD τ).loc main_arg2)) (m ((c : Thread nD τ).loc main_arg3)) := by
  have hq := U3_q m ρ c
  have hk := U3_k m ρ c
  have hv := U3_v m ρ c
  have hQ : ∀ j, ∃ r : ℝ, Qa (U3 m ρ) c j = (r : EReal) :=
    Cert.AttnBridge.real_of_forall_ix3 _ fun b t e => by
      obtain ⟨r, hr⟩ := Cert.AttnBridge.projAt_real _ _ hx hwq b t e; exact ⟨r, (hq b t e).trans hr⟩
  have hK : ∀ j, ∃ r : ℝ, Ka (U3 m ρ) c j = (r : EReal) :=
    Cert.AttnBridge.real_of_forall_ix3 _ fun b t e => by
      obtain ⟨r, hr⟩ := Cert.AttnBridge.projAt_real _ _ hx hwk b t e; exact ⟨r, (hk b t e).trans hr⟩
  have hV : ∀ j, ∃ r : ℝ, Va (U3 m ρ) c j = (r : EReal) :=
    Cert.AttnBridge.real_of_forall_ix3 _ fun b t e => by
      obtain ⟨r, hr⟩ := Cert.AttnBridge.projAt_real _ _ hx hwv b t e; exact ⟨r, (hv b t e).trans hr⟩
  refine (W4_arr m ρ c 3).trans ?_
  rw [kernel_attn (U3 m ρ) c (Qa (U3 m ρ) c) (Ka (U3 m ρ) c) (Va (U3 m ρ) c) hQ hK hV
    (fun t ht r h b n hb hn => outOf_stAt (U3 m ρ) c t ht r h b n hb hn)]
  exact Cert.AttnBridge.attn_of_proj _ _ _ _ _ _ _ hq hk hv

end Cert.KernelIdeal.Hand

end
-- ==== Proof.RefSide.lean ====
/-
  The reference program's result, read entry by entry at the ideal instance, is the causal attention of the four
  argument arrays: three projections, scaled scores, the causal mask, a softmax over the key positions (maximum,
  exponentials, their sum, the quotient), and the weighted sum of the value projections.
-/
import proofs.«150456_j65506841199208_2_alg».proof.Proof.Gen.ReferenceIdeal.Read
import proofs.«150456_j65506841199208_2_alg».proof.Proof.AttnSpec
import Idealize.ShloMosaic.Lib.ValueIdx
import Idealize.ShloMosaic.Lib.Pipeline.Value
import Idealize.ShloMosaic.Lib.ValueLayout
import Idealize.ShloMosaic.PureOps.Ideal.Laws

noncomputable section

namespace Cert.RefSide

open Cert.ReferenceIdeal Cert.ReferenceIdeal.Gen Cert.ReferenceIdeal.Read Idealize.ShloMosaic Idealize.ShloMosaic.ValueIdx
open Cert.AttnSpec OnlineSoftmax

/-! ## The two bit patterns the reference splats -/

/-- The pattern of negative infinity denotes the bottom element. -/
theorem neg_inf : Ideal.ofBits .f32 0xFF800000#32 = (⊥ : EReal) := by simp [Ideal.ofBits, Ideal.ieee]

/-- The pattern of positive zero denotes zero. -/
theorem pos_zero : Ideal.ofBits .f32 0x00000000#32 = (0 : EReal) := by simp [Ideal.ofBits, Ideal.ieee]

/-! ## The source indices the generated readings name, by coordinates -/

section Indices
variable (b : Fin 4) (t s : Fin 4096) (e : Fin 64) (c : Fin 1024)

theorem lidx0 : lidx_main_v0 (ix3 b t e) c = ix3 b t c := by
  funext a; match a with | ⟨0, _⟩ => rfl | ⟨1, _⟩ => rfl | ⟨2, _⟩ => rfl
theorem ridx0 : ridx_main_v0 (ix3 b t e) c = ix2 e c := by
  funext a; match a with | ⟨0, _⟩ => rfl | ⟨1, _⟩ => rfl
theorem lidx1 : lidx_main_v1 (ix3 b t e) c = ix3 b t c := by
  funext a; match a with | ⟨0, _⟩ => rfl | ⟨1, _⟩ => rfl | ⟨2, _⟩ => rfl
theorem ridx1 : ridx_main_v1 (ix3 b t e) c = ix2 e c := by
  funext a; match a with | ⟨0, _⟩ => rfl | ⟨1, _⟩ => rfl
theorem lidx2 : lidx_main_v2 (ix3 b t e) c = ix3 b t c := by
  funext a; match a with | ⟨0, _⟩ => rfl | ⟨1, _⟩ => rfl | ⟨2, _⟩ => rfl
theorem ridx2 : ridx_main_v2 (ix3 b t e) c = ix2 e c := by
  funext a; match a with | ⟨0, _⟩ => rfl | ⟨1, _⟩ => rfl
theorem lidx3 : lidx_main_v3 (ix3 b t s) e = ix3 b t e := by
  funext a; match a with | ⟨0, _⟩ => rfl | ⟨1, _⟩ => rfl | ⟨2, _⟩ => rfl
theorem ridx3 : ridx_main_v3 (ix3 b t s) e = ix3 b s e := by
  funext a; match a with | ⟨0, _⟩ => rfl | ⟨1, _⟩ => rfl | ⟨2, _⟩ => rfl
theorem idxMask : idx_main_call1_v1 (ix3 b t s) = ix2 t s := by
  funext a; match a with | ⟨0, _⟩ => rfl | ⟨1, _⟩ => rfl
theorem idxRow13 : idx_main_v12 (idx_main_v13 (ix3 b t s)) = ix2 b t := by
  funext a; match a with | ⟨0, _⟩ => rfl | ⟨1, _⟩ => rfl
theorem idxRow18 : idx_main_v17 (idx_main_v18 (ix3 b t s)) = ix2 b t := by
  funext a; match a with | ⟨0, _⟩ => rfl | ⟨1, _⟩ => rfl
theorem idx16 : idx_main_v16 (ix2 b t) s = ix3 b t s := by
  funext a; match a with | ⟨0, _⟩ => rfl | ⟨1, _⟩ => rfl | ⟨2, _⟩ => rfl
theorem lidx20 : lidx_main_v20 (ix3 b t e) s = ix3 b t s := by
  funext a; match a with | ⟨0, _⟩ => rfl | ⟨1, _⟩ => rfl | ⟨2, _⟩ => rfl
theorem ridx20 : ridx_main_v20 (ix3 b t e) s = ix3 b s e := by
  funext a; match a with | ⟨0, _⟩ => rfl | ⟨1, _⟩ => rfl | ⟨2, _⟩ => rfl

end Indices

/-! ## The three projections -/

section Stages
variable (x : FVec Ideal S4x4096x1024 .f32) (wq wk wv w : FVec Ideal S64x1024 .f32)
variable (b : Fin 4) (t s : Fin 4096) (e h : Fin 64)

theorem v0_at : val_main_v0 (F := Ideal) x w (ix3 b t e) = projAt x w b t e := by
  rw [val_main_v0_apply]
  unfold projAt
  exact Finset.sum_congr rfl fun c _ => by rw [lidx0, ridx0]
theorem v1_at : val_main_v1 (F := Ideal) x w (ix3 b t e) = projAt x w b t e := by
  rw [val_main_v1_apply]
  unfold projAt
  exact Finset.sum_congr rfl fun c _ => by rw [lidx1, ridx1]
theorem v2_at : val_main_v2 (F := Ideal) x w (ix3 b t e) = projAt x w b t e := by
  rw [val_main_v2_apply]
  unfold projAt
  exact Finset.sum_congr rfl fun c _ => by rw [lidx2, ridx2]

/-! ## The scaled scores -/

theorem v5_at : val_main_v5 (F := Ideal) x wq wk (ix3 b t s) = scoreAt x wq wk b t s := by
  rw [val_main_v5_apply, val_main_v3_apply, val_main_v4_apply, val_main_cst_apply]
  unfold scoreAt
  rw [Ideal.mulf_def, Ideal.ofBits_def]
  refine congrArg (· * Ideal.ofBits .f32 0x3E000000#32) ?_
  exact Finset.sum_congr rfl fun e _ => by rw [lidx3, ridx3, v0_at, v1_at]

/-! ## The causal mask: the row's number against the column's -/

/-- A number below 4096 reads back from its 32-bit word, signed. -/
theorem toInt_ofNat_small (n : Nat) (hn : n < 4096) : (BitVec.ofNat 32 n).toInt = (n : Int) := by
  have h1 : (BitVec.ofNat 32 n).toNat = n := by rw [BitVec.toNat_ofNat]; exact Nat.mod_eq_of_lt (by omega)
  rw [BitVec.toInt_eq_toNat_of_lt (by rw [h1]; omega), h1]

/-- The mask's bit at (t, s) is set exactly when s ≤ t. -/
theorem mask_at : val_main_v7 (F := Ideal) (ix2 t s) = if s.val ≤ t.val then 1#1 else 0#1 := by
  rw [val_main_v7_apply, val_main_call0_v4_apply, val_main_call0_v2_apply, val_main_call0_v0_apply,
    val_main_call0_v1_apply, val_main_call0_c_apply, val_main_call0_v3_apply, val_main_v6_apply, val_main_c_apply,
    val_main_call0_v5_apply, val_main_call0_c_0_apply]
  show Scalar.select (IntOp.cmpi .sge (IntOp.addi (BitVec.ofNat 32 t.val) 0#32) (BitVec.ofNat 32 s.val)) 1#1 0#1 = _
  have ha : IntOp.addi (BitVec.ofNat 32 t.val) 0#32 = BitVec.ofNat 32 t.val := BitVec.add_zero _
  rw [ha]
  unfold Scalar.select
  refine if_congr ?_ rfl rfl
  refine (IntOp.cmpi_sge (x := BitVec.ofNat 32 t.val) (y := BitVec.ofNat 32 s.val)).trans ?_
  rw [toInt_ofNat_small _ s.isLt, toInt_ofNat_small _ t.isLt]
  exact Int.ofNat_le

/-- The masked score: the scaled score where the key position is not after the query position, -inf elsewhere. -/
theorem v8_at : val_main_v8 (F := Ideal) x wq wk (ix3 b t s) = maskedScore x wq wk b t s := by
  rw [val_main_v8_apply, val_main_call1_v1_apply, idxMask, mask_at, v5_at, val_main_call1_v2_apply,
    val_main_call1_v0_apply, val_main_cst_0_apply, Ideal.ofBits_def, neg_inf]
  unfold maskedScore
  by_cases hst : s.val ≤ t.val
  · rw [if_pos hst, if_pos hst, select_one]
  · rw [if_neg hst, if_neg hst, select_zero]

/-! ## The row maximum -/

/-- The reduced index (b, t) with key position k put back is (b, t, k). -/
theorem lift_ix3 (hr : S4x4096x4096.Reduces [2] S4x4096) (k : Fin (S4x4096x4096.size 2)) :
    hr.lift (ix2 b t) k = ix3 b t (⟨k.val, k.isLt⟩ : Fin 4096) := by
  funext c; apply Fin.ext
  fin_cases c <;> rfl

theorem v9_at : val_main_v9 (F := Ideal) x wq wk (ix2 b t) = rowMax (maskedScore x wq wk b t) := by
  have hr : S4x4096x4096.Reduces [2] S4x4096 := by decide
  unfold val_main_v9
  refine (Host.reduce_eq_fold_single (α := Ideal .f32) (s := S4x4096x4096) (t := S4x4096) (a := 2) (u := S_)
    (FloatOps.maximumf (F := Ideal) (φ := .f32)) (val_main_v8 (F := Ideal) x wq wk) (val_main_cst_1 (F := Ideal))
    reducesTo_S4x4096x4096_S4x4096_d2 hr h_S_ (ix2 b t)).trans ?_
  have hf : (val_main_v8 (F := Ideal) x wq wk ∘ hr.lift (ix2 b t)) = fun k : Fin 4096 => maskedScore x wq wk b t k :=
    funext fun k => (congrArg (val_main_v8 (F := Ideal) x wq wk) (lift_ix3 b t hr k)).trans (v8_at x wq wk b t _)
  have hi : val_main_cst_1 (F := Ideal) (Shape.Idx.first h_S_) = (⊥ : EReal) := neg_inf
  rw [hi]
  unfold rowMax
  exact congrArg (fun f => Finset.fold max (⊥ : EReal) f (Finset.univ : Finset (Fin 4096))) hf

theorem v11_at : val_main_v11 (F := Ideal) x wq wk (ix2 b t) = rowMax (maskedScore x wq wk b t) := by
  rw [val_main_v11_apply, val_main_v10_apply, val_main_cst_2_apply, v9_at, Ideal.maximumf_def, Ideal.ofBits_def, neg_inf]
  exact max_bot_left _

/-! ## The exponentials, their sum, the weights -/

theorem v15_at : val_main_v15 (F := Ideal) x wq wk (ix3 b t s)
    = Ideal.exp (maskedScore x wq wk b t s - rowMax (maskedScore x wq wk b t)) := by
  rw [val_main_v15_apply, val_main_v14_apply, v8_at, val_main_v13_apply, val_main_v12_apply, idxRow13, v11_at]
  rfl

theorem v16_at : val_main_v16 (F := Ideal) x wq wk (ix2 b t)
    = ∑ s' : Fin 4096, Ideal.exp (maskedScore x wq wk b t s' - rowMax (maskedScore x wq wk b t)) := by
  rw [val_main_v16_apply, val_main_cst_3_apply, Ideal.ofBits_def, pos_zero, zero_add]
  exact Finset.sum_congr rfl fun k _ => by rw [idx16, v15_at]

theorem v19_at : val_main_v19 (F := Ideal) x wq wk (ix3 b t s)
    = Ideal.div (Ideal.exp (maskedScore x wq wk b t s - rowMax (maskedScore x wq wk b t)))
        (∑ s' : Fin 4096, Ideal.exp (maskedScore x wq wk b t s' - rowMax (maskedScore x wq wk b t))) := by
  rw [val_main_v19_apply, v15_at, val_main_v18_apply, val_main_v17_apply, idxRow18, v16_at]
  rfl

/-! ## The result -/

theorem ref_at : val_main_v20 (F := Ideal) x wq wk wv (ix3 b t h) = attnAt x wq wk wv b t h := by
  rw [val_main_v20_apply]
  unfold attnAt softmaxSum
  exact Finset.sum_congr rfl fun s _ => by rw [lidx20, ridx20, v19_at, v2_at]

end Stages

/-- The reference's result array is the causal attention of its four arguments. -/
theorem ref_eq (x : FVec Ideal S4x4096x1024 .f32) (wq wk wv : FVec Ideal S64x1024 .f32) :
    val_main_v20 (F := Ideal) x wq wk wv = attn x wq wk wv := by
  funext j
  exact (congrArg (val_main_v20 (F := Ideal) x wq wk wv) (eq_ix3 j)).trans (ref_at x wq wk wv (j 0) (j 1) (j 2))

end Cert.RefSide

end
-- ==== Proof.LibFiniteAll.lean ====
/-
  Reading back one conjunct of the precondition. Each conjunct is a reduction by `and`, over a whole array, of an
  entrywise comparison: `|x| < +inf` (every entry of x is finite) or `v ≥ 0`. A reduction by `and` from 1 that
  comes out 1 met only 1s, so the comparison holds at every index. On the extended reals `|x| = max x (-x)`, and
  `max x (-x) < ⊤` excludes both infinities, so x is a real number.
-/
import Idealize.ShloMosaic.PureOps.Ideal
import Idealize.ShloMosaic.PureOps.Ideal.Laws
import Idealize.ShloMosaic.Lib.ValueIdx
import Idealize.ShloMosaic.Lib.ReduceAll
import Idealize.ShloMosaic.PureOps

noncomputable section

namespace Cert.LibFiniteAll

open Idealize.ShloMosaic

/-- The rank-0 shape has one index. -/
theorem subsingleton_idx0 : Subsingleton (⟨0, ![]⟩ : Shape).Idx := ⟨fun a b => funext fun d => d.elim0⟩

/-- The f32 word of +infinity denotes the top extended real. -/
theorem ofBits_inf : Ideal.ofBits .f32 0x7F800000#32 = (⊤ : EReal) := by simp [Ideal.ofBits, Ideal.ieee]

/-- An extended real whose absolute value max x (-x) is below +infinity is a real number. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- A comparison word that is 1 says the comparison holds. -/
theorem ofBool_eq_one (b : Bool) : BitVec.ofBool b = 1#1 ↔ b = true := by cases b <;> decide

/-- Entry read-back of |x| < +inf. -/
theorem real_of_cmp (x : EReal)
    (h : Ideal.cmp .olt (max x (-x)) (Ideal.ofBits .f32 0x7F800000#32) = 1#1) : ∃ r : ℝ, x = (r : EReal) := by
  rw [ofBits_inf] at h
  unfold Ideal.cmp at h
  rw [ofBool_eq_one] at h
  exact real_of_abs_lt_top x (of_decide_eq_true h)

/-- Entry read-back of v ≥ 0. -/
theorem nonneg_of_cmp (v : EReal)
    (h : Ideal.cmp .oge v (Ideal.ofBits .f32 0x00000000#32) = 1#1) : 0 ≤ v := by
  rw [Ideal.ofBits_zero_f32] at h
  unfold Ideal.cmp at h
  rw [ofBool_eq_one] at h
  exact of_decide_eq_true h

variable {s : Shape} {axes : List (Fin s.rank)}

/-- all(|x| < +inf) = 1 over an array of any shape: every entry is a real number. -/
theorem real_of_all (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi
          (cmpf .olt (Host.absf x) (broadcastInDim s ![] hb (constant (F := Ideal) (⟨0, ![]⟩ : Shape) .f32 0x7F800000#32)))
          (constantI (⟨0, ![]⟩ : Shape) 1 1#1) hr hu ValueIdx.ix0 = 1#1)
    (i : s.Idx) : ∃ r : ℝ, x i = (r : EReal) := by
  haveI := subsingleton_idx0
  have h := Host.reduce_andi_all _ _ hr hu _ e i
  exact real_of_cmp (x i) h

/-- all(v ≥ 0) = 1: every entry is nonnegative. -/
theorem nonneg_of_all (v : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi
          (cmpf .oge v (broadcastInDim s ![] hb (constant (F := Ideal) (⟨0, ![]⟩ : Shape) .f32 0x00000000#32)))
          (constantI (⟨0, ![]⟩ : Shape) 1 1#1) hr hu ValueIdx.ix0 = 1#1)
    (i : s.Idx) : (0 : EReal) ≤ v i := by
  haveI := subsingleton_idx0
  have h := Host.reduce_andi_all _ _ hr hu _ e i
  exact nonneg_of_cmp (v i) h

end Cert.LibFiniteAll

end
-- ==== Proof.FiniteArgs.lean ====
/-
  The precondition read back: every entry of each of the four argument arrays is a real number.
  The precondition is the conjunction (by `and` of one-bit words) of four reductions, one per array, each the
  `and` over the whole array of the entrywise comparison |x| < +inf.
-/
import proofs.«150456_j65506841199208_2_alg».proof.Pre_finite_inputs
import proofs.«150456_j65506841199208_2_alg».proof.Proof.LibFiniteAll
import Idealize.ShloMosaic.Lib.Affine

noncomputable section

namespace Cert.FiniteArgs

open Idealize.ShloMosaic Cert.Pre_finite_inputs

variable [Cert.Pre_finite_inputs.Facts]
open Cert.Pre_finite_inputs.Facts

theorem reals_of_pre (x : FVec Ideal S4x4096x1024 .f32) (w1 w2 w3 : FVec Ideal S64x1024 .f32)
    (h : Cert.Pre_finite_inputs.fn (F := Ideal) x w1 w2 w3 = fun _ => 1#1) :
    (∀ i, ∃ r : ℝ, x i = (r : EReal)) ∧ (∀ i, ∃ r : ℝ, w1 i = (r : EReal))
      ∧ (∀ i, ∃ r : ℝ, w2 i = (r : EReal)) ∧ (∀ i, ∃ r : ℝ, w3 i = (r : EReal)) := by
  have h0 := congrFun h ValueIdx.ix0
  dsimp only [fn, fn_part1] at h0
  obtain ⟨h012, hw3⟩ := IntOp.andi_eq_one.mp h0
  obtain ⟨h01, hw2⟩ := IntOp.andi_eq_one.mp h012
  obtain ⟨hx, hw1⟩ := IntOp.andi_eq_one.mp h01
  exact ⟨Cert.LibFiniteAll.real_of_all x _ _ _ hx, Cert.LibFiniteAll.real_of_all w1 _ _ _ hw1,
    Cert.LibFiniteAll.real_of_all w2 _ _ _ hw2, Cert.LibFiniteAll.real_of_all w3 _ _ _ hw3⟩

end Cert.FiniteArgs

end
-- ==== Proof.lean ====
/-
  The certificate of a fused-projection + causal flash-attention kernel against plain softmax attention.

  The kernel's program: the three weight matrices are concatenated; one pallas_call projects the activations by the
  concatenated matrix, tile by tile; the projected array is sliced into q, k, v; a second pallas_call computes causal attention
  by the one-pass ("online") softmax over 1024-position key tiles, carrying a running row maximum, a running row sum of
  exponentials and a running weighted sum of value rows in three scratch buffers between grid points, skipping the key tiles
  above the diagonal and masking the diagonal one. The reference computes q, k, v by three matrix products, the full
  4096 × 4096 score matrix, masks it, and takes a plain row softmax and a last matrix product.

  * The three frames. Each kernel program's run is the launch of its two pipelines over the bodies' triples (generic in the
    float instance: once for the word-level program, once for the idealized one); the reference's is its generated run.
  * The idealization replaces one constant: the finite stand-in -1e30 for the mask's -inf is named -inf.
  * On the extended reals, under the precondition that every argument entry is finite, both programs end with the same
    array: entry (b, t, h) is the softmax-weighted sum over the key positions s ≤ t of v b s h under the scores
    (q b t · k b s) / 8. The kernel side: each stored output entry is the one-pass answer over the key tiles up to the
    diagonal, which equals the softmax-weighted sum (the rescaling identity exp (m - m') · exp (z - m) = exp (z - m') for
    real maxima, masked positions carrying weight zero). Finiteness is what makes every running maximum a real number.
-/
import proofs.«150456_j65506841199208_2_alg».proof.Defs
import proofs.«150456_j65506841199208_2_alg».proof.Proof.Gen.Kernel
import proofs.«150456_j65506841199208_2_alg».proof.Proof.Gen.KernelIdeal
import proofs.«150456_j65506841199208_2_alg».proof.Proof.Gen.ReferenceIdeal
import proofs.«150456_j65506841199208_2_alg».proof.Proof.Gen.ReferenceIdeal.Run
import proofs.«150456_j65506841199208_2_alg».proof.Proof.Gen.ReferenceIdeal.Read
import proofs.«150456_j65506841199208_2_alg».proof.Proof.Gen.Pre_finite_inputs
import proofs.«150456_j65506841199208_2_alg».proof.Proof.KB.Run
import proofs.«150456_j65506841199208_2_alg».proof.Proof.KI.KernelValue
import proofs.«150456_j65506841199208_2_alg».proof.Proof.RefSide
import proofs.«150456_j65506841199208_2_alg».proof.Proof.FiniteArgs
import Idealize.ShloMosaic.Adequacy
import Idealize.ShloMosaic.Init

noncomputable section

namespace Cert.Proof

open Idealize.ShloMosaic Idealize.ShloMosaic.TcCoe Idealize.SL.Sem

/-- The word-level program runs and leaves its arguments as launched: its run with the result dropped. -/
theorem frame_k : Cert.frame_Kernel := fun m ρ _ =>
  (θ_run Cert.Kernel.defs _ _).mono (fun _ h c => (h c).2) (Cert.Kernel.Hand.run_main (F := Bits) m ρ)

/-- The idealized program likewise. -/
theorem frame_ki : Cert.frame_KernelIdeal := fun m ρ _ =>
  (θ_run Cert.KernelIdeal.defs _ _).mono (fun _ h c => (h c).2) (Cert.KernelIdeal.Hand.run_main (F := Ideal) m ρ)

/-- The reference's frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the mask's finite stand-in is named -inf, and the named constant is that value
    on the extended reals. -/
theorem preserves : Cert.preserves_Kernel_KernelIdeal :=
  IdealRules.named_const.statement Cert.KernelIdeal.κ "neg_big" .f32 0xF149F2CA#32 ⊥ rfl

/-- On the extended reals both programs end at causal softmax attention of the projections, as one function of the
    argument arrays. -/
theorem algebraic : Cert.algebraic_KernelIdeal_ReferenceIdeal := by
  intro m ρ m' ρ' hpre hagree
  refine ⟨fun c => Cert.AttnSpec.attn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩)
      (Cert.KernelIdeal.Hand.run_main (F := Ideal) m ρ)
    obtain ⟨hx, hwq, hwk, hwv⟩ := Cert.FiniteArgs.reals_of_pre _ _ _ _ (hpre c)
    exact Cert.KernelIdeal.Hand.kernel_value m ρ c hx hwq hwk hwv
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v20_eq, (hagree c).1, (hagree c).2.1, (hagree c).2.2.1, (hagree c).2.2.2]
    exact Cert.RefSide.ref_eq _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
